-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20x32768x2 : Shape := ⟨3, ![20, 32768, 2]⟩
abbrev S512x2 : Shape := ⟨2, ![512, 2]⟩
abbrev S64x2 : Shape := ⟨2, ![64, 2]⟩
abbrev S64 : Shape := ⟨1, ![64]⟩
abbrev S256x64 : Shape := ⟨2, ![256, 64]⟩
abbrev S256 : Shape := ⟨1, ![256]⟩
abbrev S1024x1 : Shape := ⟨2, ![1024, 1]⟩
abbrev S1024 : Shape := ⟨1, ![1024]⟩
abbrev S1x1024 : Shape := ⟨2, ![1, 1024]⟩
abbrev S1 : Shape := ⟨1, ![1]⟩
abbrev S_ : Shape := ⟨0, ![]⟩

class Facts : Prop where
  bcast_S_S20x32768x2 : S_.BroadcastsInDim S20x32768x2 (![] : Fin 0 → Fin S20x32768x2.rank)
  reducesTo_S20x32768x2_S_d0_1_2 : S20x32768x2.ReducesTo [0, 1, 2] S_
  h_S_ : 0 < S_.numel
  bcast_S_S64x2 : S_.BroadcastsInDim S64x2 (![] : Fin 0 → Fin S64x2.rank)
  reducesTo_S64x2_S_d0_1 : S64x2.ReducesTo [0, 1] S_
  bcast_S_S64 : S_.BroadcastsInDim S64 (![] : Fin 0 → Fin S64.rank)
  reducesTo_S64_S_d0 : S64.ReducesTo [0] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S1024x1 : S_.BroadcastsInDim S1024x1 (![] : Fin 0 → Fin S1024x1.rank)
  reducesTo_S1024x1_S_d0_1 : S1024x1.ReducesTo [0, 1] S_
  bcast_S_S1024 : S_.BroadcastsInDim S1024 (![] : Fin 0 → Fin S1024.rank)
  reducesTo_S1024_S_d0 : S1024.ReducesTo [0] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S1 .f32) (main_arg16 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : FVec F S1 .f32 := Host.absf main_arg16
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg12 : FVec F S1024 .f32) (main_arg13 : FVec F S1x1024 .f32) (main_arg14 : FVec F S1 .f32) (main_arg15 : FVec F S1 .f32) (main_arg16 : FVec F S1 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg12
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1x1024 .f32 := Host.absf main_arg13
  let main_cst_22 : FVec F S_ .f32 := constant S_ .f32 0x7F800000#32
  let main_v60 : FVec F S1x1024 .f32 := broadcastInDim S1x1024 ![] bcast_S_S1x1024 main_cst_22
  let main_v61 : IVec S1x1024 1 := cmpf .olt main_v59 main_v60
  let main_c_23 : IVec S_ 1 := constantI S_ 1 1#1
  let main_v62 : IVec S_ 1 := (fun x v => Host.reduce IntOp.andi x v reducesTo_S1x1024_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg15 main_arg16 main_v63 main_v67

def fn_part2 {F : FTy → Type} [FloatOps F] (main_arg8 : FVec F S256 .f32) (main_arg9 : FVec F S1024x1 .f32) (main_arg10 : FVec F S1024 .f32) (main_arg11 : FVec F S1024 .f32) (main_arg12 : FVec F S1024 .f32) (main_arg13 : FVec F S1x1024 .f32) (main_arg14 : FVec F S1 .f32) (main_arg15 : FVec F S1 .f32) (main_arg16 : FVec F S1 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S1024x1 .f32 := Host.absf main_arg9
  let main_cst_14 : FVec F S_ .f32 := constant S_ .f32 0x7F800000#32
  let main_v40 : FVec F S1024x1 .f32 := broadcastInDim S1024x1 ![] bcast_S_S1024x1 main_cst_14
  let main_v41 : IVec S1024x1 1 := cmpf .olt main_v39 main_v40
  let main_c_15 : IVec S_ 1 := constantI S_ 1 1#1
  let main_v42 : IVec S_ 1 := (fun x v => Host.reduce IntOp.andi x v reducesTo_S1024x1_S_d0_1 h_S_) main_v41 main_c_15
  let main_v43 : IVec S_ 1 := andi main_v38 main_v42
  let main_v44 : FVec F S1024 .f32 := Host.absf main_arg10
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg11
  let main_cst_18 : FVec F S_ .f32 := constant S_ .f32 0x7F800000#32
  let main_v50 : FVec F S1024 .f32 := broadcastInDim S1024 ![] bcast_S_S1024 main_cst_18
  fn_part3 (F := F) main_arg12 main_arg13 main_arg14 main_arg15 main_arg16 main_v48 main_v49 main_v50

def fn_part1 {F : FTy → Type} [FloatOps F] (main_arg5 : FVec F S256x64 .f32) (main_arg6 : FVec F S256x64 .f32) (main_arg7 : FVec F S256 .f32) (main_arg8 : FVec F S256 .f32) (main_arg9 : FVec F S1024x1 .f32) (main_arg10 : FVec F S1024 .f32) (main_arg11 : FVec F S1024 .f32) (main_arg12 : FVec F S1024 .f32) (main_arg13 : FVec F S1x1024 .f32) (main_arg14 : FVec F S1 .f32) (main_arg15 : FVec F S1 .f32) (main_arg16 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S256x64 .f32 := Host.absf main_arg5
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S256x64 .f32 := Host.absf main_arg6
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S20x32768x2 .f32) (main_arg1 : FVec F S20x32768x2 .f32) (main_arg2 : IVec S512x2 32) (main_arg3 : FVec F S64x2 .f32) (main_arg4 : FVec F S64 .f32) (main_arg5 : FVec F S256x64 .f32) (main_arg6 : FVec F S256x64 .f32) (main_arg7 : FVec F S256 .f32) (main_arg8 : FVec F S256 .f32) (main_arg9 : FVec F S1024x1 .f32) (main_arg10 : FVec F S1024 .f32) (main_arg11 : FVec F S1024 .f32) (main_arg12 : FVec F S1024 .f32) (main_arg13 : FVec F S1x1024 .f32) (main_arg14 : FVec F S1 .f32) (main_arg15 : FVec F S1 .f32) (main_arg16 : FVec F S1 .f32) : IVec S_ 1 :=
  let main_v0 : FVec F S20x32768x2 .f32 := Host.absf main_arg0
  let main_cst : FVec F S_ .f32 := constant S_ .f32 0x7F800000#32
  let main_v1 : FVec F S20x32768x2 .f32 := broadcastInDim S20x32768x2 ![] bcast_S_S20x32768x2 main_cst
  let main_v2 : IVec S20x32768x2 1 := cmpf .olt main_v0 main_v1
  let main_c : IVec S_ 1 := constantI S_ 1 1#1
  let main_v3 : IVec S_ 1 := (fun x v => Host.reduce IntOp.andi x v reducesTo_S20x32768x2_S_d0_1_2 h_S_) main_v2 main_c
  let main_v4 : FVec F S20x32768x2 .f32 := Host.absf main_arg1
  let main_cst_0 : FVec F S_ .f32 := constant S_ .f32 0x7F800000#32
  let main_v5 : FVec F S20x32768x2 .f32 := broadcastInDim S20x32768x2 ![] bcast_S_S20x32768x2 main_cst_0
  let main_v6 : IVec S20x32768x2 1 := cmpf .olt main_v4 main_v5
  let main_c_1 : IVec S_ 1 := constantI S_ 1 1#1
  let main_v7 : IVec S_ 1 := (fun x v => Host.reduce IntOp.andi x v reducesTo_S20x32768x2_S_d0_1_2 h_S_) main_v6 main_c_1
  let main_v8 : IVec S_ 1 := andi main_v3 main_v7
  let main_v9 : FVec F S64x2 .f32 := Host.absf main_arg3
  let main_cst_2 : FVec F S_ .f32 := constant S_ .f32 0x7F800000#32
  let main_v10 : FVec F S64x2 .f32 := broadcastInDim S64x2 ![] bcast_S_S64x2 main_cst_2
  let main_v11 : IVec S64x2 1 := cmpf .olt main_v9 main_v10
  let main_c_3 : IVec S_ 1 := constantI S_ 1 1#1
  let main_v12 : IVec S_ 1 := (fun x v => Host.reduce IntOp.andi x v reducesTo_S64x2_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S20x32768x2 : Shape := ⟨3, ![20, 32768, 2]⟩
abbrev S512x2 : Shape := ⟨2, ![512, 2]⟩
abbrev S64x2 : Shape := ⟨2, ![64, 2]⟩
abbrev S64 : Shape := ⟨1, ![64]⟩
abbrev S256x64 : Shape := ⟨2, ![256, 64]⟩
abbrev S256 : Shape := ⟨1, ![256]⟩
abbrev S1024x1 : Shape := ⟨2, ![1024, 1]⟩
abbrev S1024 : Shape := ⟨1, ![1024]⟩
abbrev S1x1024 : Shape := ⟨2, ![1, 1024]⟩
abbrev S1 : Shape := ⟨1, ![1]⟩
abbrev S32768x20x2 : Shape := ⟨3, ![32768, 20, 2]⟩
abbrev S512x64x20x2 : Shape := ⟨4, ![512, 64, 20, 2]⟩
abbrev S512x20x64x2 : Shape := ⟨4, ![512, 20, 64, 2]⟩
abbrev S512x20x64x1 : Shape := ⟨4, ![512, 20, 64, 1]⟩
abbrev S512x20x64 : Shape := ⟨3, ![512, 20, 64]⟩
abbrev S512x64 : Shape := ⟨2, ![512, 64]⟩
abbrev S8x20x64 : Shape := ⟨3, ![8, 20, 64]⟩
abbrev S8x64 : Shape := ⟨2, ![8, 64]⟩
abbrev S8x20x64x1 : Shape := ⟨4, ![8, 20, 64, 1]⟩
abbrev S8x20x1x64 : Shape := ⟨4, ![8, 20, 1, 64]⟩
abbrev S8x20x64x64 : Shape := ⟨4, ![8, 20, 64, 64]⟩
abbrev S32768 : Shape := ⟨1, ![32768]⟩
abbrev S_ : Shape := ⟨0, ![]⟩
abbrev S32768x1 : Shape := ⟨2, ![32768, 1]⟩
abbrev S1x1 : Shape := ⟨2, ![1, 1]⟩
abbrev S1024x1024 : Shape := ⟨2, ![1024, 1024]⟩

abbrev nBuf : Space → Nat
  | .hbm => 74
  | .vmem => 30
  | .smem => 0
  | _ => 0

abbrev bufTy : (tb : Table) → Fin (tcTables nBuf tb) → BufTy
  | .hbm, ⟨0, _⟩ => ⟨S20x32768x2, .f32⟩
  | .hbm, ⟨1, _⟩ => ⟨S20x32768x2, .f32⟩
  | .hbm, ⟨2, _⟩ => ⟨S512x2, .i32⟩
  | .hbm, ⟨3, _⟩ => ⟨S64x2, .f32⟩
  | .hbm, ⟨4, _⟩ => ⟨S64, .f32⟩
  | .hbm, ⟨5, _⟩ => ⟨S256x64, .f32⟩
  | .hbm, ⟨6, _⟩ => ⟨S256x64, .f32⟩
  | .hbm, ⟨7, _⟩ => ⟨S256, .f32⟩
  | .hbm, ⟨8, _⟩ => ⟨S256, .f32⟩
  | .hbm, ⟨9, _⟩ => ⟨S1024x1, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1x1024, .f32⟩
  | .hbm, ⟨14, _⟩ => ⟨S1, .f32⟩
  | .hbm, ⟨15, _⟩ => ⟨S1, .f32⟩
  | .hbm, ⟨16, _⟩ => ⟨S1, .f32⟩
  | .hbm, ⟨17, _⟩ => ⟨S32768x20x2, .f32⟩
  | .hbm, ⟨18, _⟩ => ⟨S512x64x20x2, .f32⟩
  | .hbm, ⟨19, _⟩ => ⟨S512x20x64x2, .f32⟩
  | .hbm, ⟨20, _⟩ => ⟨S512x20x64x1, .f32⟩
  | .hbm, ⟨21, _⟩ => ⟨S512x20x64, .f32⟩
  | .hbm, ⟨22, _⟩ => ⟨S512x20x64x1, .f32⟩
  | .hbm, ⟨23, _⟩ => ⟨S512x20x64, .f32⟩
  | .hbm, ⟨24, _⟩ => ⟨S512x64, .f32⟩
  | .hbm, ⟨25, _⟩ => ⟨S32768, .f32⟩
  | .hbm, ⟨26, _⟩ => ⟨S_, .f32⟩
  | .hbm, ⟨27, _⟩ => ⟨S32768, .f32⟩
  | .hbm, ⟨28, _⟩ => ⟨S32768, .f32⟩
  | .hbm, ⟨29, _⟩ => ⟨S32768x1, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1024x1, .f32⟩
  | .hbm, ⟨35, _⟩ => ⟨S1x1, .f32⟩
  | .hbm, ⟨36, _⟩ => ⟨S1x1, .f32⟩
  | .hbm, ⟨37, _⟩ => ⟨S1x1, .f32⟩
  | .hbm, ⟨38, _⟩ => ⟨S1x1024, .f32⟩
  | .hbm, ⟨39, _⟩ => ⟨S1x1024, .f32⟩
  | .hbm, ⟨40, _⟩ => ⟨S_, .f32⟩
  | .hbm, ⟨41, _⟩ => ⟨S1x1024, .f32⟩
  | .hbm, ⟨42, _⟩ => ⟨S1x1024, .f32⟩
  | .hbm, ⟨43, _⟩ => ⟨S_, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S_, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S32768x1, .f32⟩
  | .hbm, ⟨56, _⟩ => ⟨S1x1, .f32⟩
  | .hbm, ⟨57, _⟩ => ⟨S1x1, .f32⟩
  | .hbm, ⟨58, _⟩ => ⟨S_, .f32⟩
  | .hbm, ⟨59, _⟩ => ⟨S1x1, .f32⟩
  | .hbm, ⟨60, _⟩ => ⟨S1x1, .f32⟩
  | .hbm, ⟨61, _⟩ => ⟨S_, .f32⟩
  | .hbm, ⟨62, _⟩ => ⟨S1x1, .f32⟩
  | .hbm, ⟨63, _⟩ => ⟨S1x1, .f32⟩
  | .hbm, ⟨64, _⟩ => ⟨S1x1, .f32⟩
  | .hbm, ⟨65, _⟩ => ⟨S1x1, .f32⟩
  | .hbm, ⟨66, _⟩ => ⟨S_, .f32⟩
  | .hbm, ⟨67, _⟩ => ⟨S1x1, .f32⟩
  | .hbm, ⟨68, _⟩ => ⟨S1x1, .f32⟩
  | .hbm, ⟨69, _⟩ => ⟨S1x1, .f32⟩
  | .hbm, ⟨70, _⟩ => ⟨S1x1, .f32⟩
  | .hbm, ⟨71, _⟩ => ⟨S1x1, .f32⟩
  | .hbm, ⟨72, _⟩ => ⟨S1x1, .f32⟩
  | .hbm, ⟨73, _⟩ => ⟨S32768x1, .f32⟩
  | .local _ .vmem, ⟨0, _⟩ => ⟨S8x20x64, .f32⟩
  | .local _ .vmem, ⟨1, _⟩ => ⟨S8x20x64, .f32⟩
  | .local _ .vmem, ⟨2, _⟩ => ⟨S8x20x64, .f32⟩
  | .local _ .vmem, ⟨3, _⟩ => ⟨S8x20x64, .f32⟩
  | .local _ .vmem, ⟨4, _⟩ => ⟨S8x64, .f32⟩
  | .local _ .vmem, ⟨5, _⟩ => ⟨S8x64, .f32⟩
  | .local _ .vmem, ⟨6, _⟩ => ⟨S1024x1, .f32⟩
  | .local _ .vmem, ⟨7, _⟩ => ⟨S1024x1, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x1, .f32⟩
  | .local _ .vmem, ⟨13, _⟩ => ⟨S1024x1, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1024x1, .f32⟩
  | .local _ .vmem, ⟨19, _⟩ => ⟨S1x1, .f32⟩
  | .local _ .vmem, ⟨20, _⟩ => ⟨S1024x1, .f32⟩
  | .local _ .vmem, ⟨21, _⟩ => ⟨S1024x1, .f32⟩
  | .local _ .vmem, ⟨22, _⟩ => ⟨S1x1, .f32⟩
  | .local _ .vmem, ⟨23, _⟩ => ⟨S1x1, .f32⟩
  | .local _ .vmem, ⟨24, _⟩ => ⟨S1024x1, .f32⟩
  | .local _ .vmem, ⟨25, _⟩ => ⟨S1024x1, .f32⟩
  | .local _ .vmem, ⟨26, _⟩ => ⟨S1x1, .f32⟩
  | .local _ .vmem, ⟨27, _⟩ => ⟨S1x1, .f32⟩
  | .local _ .vmem, ⟨28, _⟩ => ⟨S1024x1, .f32⟩
  | .local _ .vmem, ⟨29, _⟩ => ⟨S1024x1, .f32⟩
  | _, _ => ⟨S20x32768x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20_0 : Ref sig .tc := ⟨.hbm, 38, rfl⟩
abbrev main_v20_1 : Ref sig .tc := ⟨.hbm, 39, rfl⟩
abbrev main_cst_0 : Ref sig .tc := ⟨.hbm, 40, rfl⟩
abbrev main_v21 : Ref sig .tc := ⟨.hbm, 41, rfl⟩
abbrev main_v22 : Ref sig .tc := ⟨.hbm, 42, rfl⟩
abbrev main_cst_1 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_2 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33_0 : Ref sig .tc := ⟨.hbm, 55, rfl⟩
abbrev main_v33_1 : Ref sig .tc := ⟨.hbm, 56, rfl⟩
abbrev main_v33_2 : Ref sig .tc := ⟨.hbm, 57, rfl⟩
abbrev main_cst_3 : Ref sig .tc := ⟨.hbm, 58, rfl⟩
abbrev main_v34 : Ref sig .tc := ⟨.hbm, 59, rfl⟩
abbrev main_v35 : Ref sig .tc := ⟨.hbm, 60, rfl⟩
abbrev main_cst_4 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_5 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg7_1 : Ref sig .tc := ⟨.vmem, 21, rfl⟩
abbrev cc2_stg8_0 : Ref sig .tc := ⟨.vmem, 22, rfl⟩
abbrev cc2_stg9_0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem7_1 : DmaSem sig := 21
abbrev cc2_sem8_0 : DmaSem sig := 22
abbrev cc2_sem9_0 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x20x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x20x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1024x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1024x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  transposes_S20x32768x2_S32768x20x2_1_0_2 : S20x32768x2.Transposes [1, 0, 2] S32768x20x2
  shapeCasts_S32768x20x2_S512x64x20x2 : S32768x20x2.ShapeCasts S512x64x20x2
  transposes_S512x64x20x2_S512x20x64x2_0_2_1_3 : S512x64x20x2.Transposes [0, 2, 1, 3] S512x20x64x2
  slices_S512x20x64x2_S512x20x64x1_0_0_0_0 : S512x20x64x2.Slices ![0, 0, 0, 0] S512x20x64x1
  shapeCasts_S512x20x64x1_S512x20x64 : S512x20x64x1.ShapeCasts S512x20x64
  slices_S512x20x64x2_S512x20x64x1_0_0_0_1 : S512x20x64x2.Slices ![0, 0, 0, 1] S512x20x64x1
  inb_S8x20x64_S8x20x64_0_0_0 : ∀ a, (![0, 0, 0] : Fin 3 → Nat) a + S8x20x64.size a ≤ S8x20x64.size a
  h_S8x20x64 : 0 < S8x20x64.numel
  shapeCasts_S8x20x64_S8x20x64 : S8x20x64.ShapeCasts S8x20x64
  shapeCasts_S8x20x64_S8x20x64x1 : S8x20x64.ShapeCasts S8x20x64x1
  shapeCasts_S8x20x64_S8x20x1x64 : S8x20x64.ShapeCasts S8x20x1x64
  broadcasts_S8x20x64x1_S8x20x64x64 : S8x20x64x1.Broadcasts S8x20x64x64
  broadcasts_S8x20x1x64_S8x20x64x64 : S8x20x1x64.Broadcasts S8x20x64x64
  reduces_S8x20x64x64_S8x20x64 : S8x20x64x64.Reduces [3] S8x20x64
  reduces_S8x20x64_S8x64 : S8x20x64.Reduces [1] S8x64
  natLt_1_32 : 1 < 32
  inb_S8x64_S8x64_0_0 : ∀ a, (![0, 0] : Fin 2 → Nat) a + S8x64.size a ≤ S8x64.size a
  h_S8x64 : 0 < S8x64.numel
  shapeCasts_S512x64_S32768 : S512x64.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  shapeCasts_S1024x1_S1x1024 : S1024x1.ShapeCasts S1x1024
  shapeCasts_S1024_S1x1024 : S1024.ShapeCasts S1x1024
  transposes_S1x1024_S1024x1_1_0 : S1x1024.Transposes [1, 0] S1024x1
  shapeCasts_S1_S1x1 : S1.ShapeCasts S1x1
  inb_S1x1024_S1x1024_0_0 : ∀ a, (![0, 0] : Fin 2 → Nat) a + S1x1024.size a ≤ S1x1024.size a
  h_S1x1024 : 0 < S1x1024.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [0] S1024
  bcast_S_S1x1024 : S_.BroadcastsInDim S1x1024 (![] : Fin 0 → Fin S1x1024.rank)
  inb_S1x1_S1x1_0_0 : ∀ a, (![0, 0] : Fin 2 → Nat) a + S1x1.size a ≤ S1x1.size a
  h_S1x1 : 0 < S1x1.numel
  bitsLt_bf16_f32 : FTy.bits .bf16 < FTy.bits .f32
  shapeCasts_S1x1_S1x1 : S1x1.ShapeCasts S1x1
  broadcasts_S1x1_S1024x1 : S1x1.Broadcasts S1024x1
  reduces_S1024x1_S1 : S1024x1.Reduces [0] S1
  bcast_S_S1x1 : S_.BroadcastsInDim S1x1 (![] : Fin 0 → Fin S1x1.rank)
  dot_S1024x1024_S1024x1_S1024x1_1_0_0_1_n_n_wf : DotDims.WF S1024x1024 S1024x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x20x64.size a ≤ S512x20x64.size a
  hwx0_0 : ∀ i : grid0.Coords, EltTy.bits .f32 = 32 ∨ (Rect.block (s := S512x20x64) S8x20x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x20x64.size a ≤ S512x20x64.size a
  hwx0_1 : ∀ i : grid0.Coords, EltTy.bits .f32 = 32 ∨ (Rect.block (s := S512x20x64) S8x20x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x64.size a ≤ S512x64.size a
  hwx0_2 : ∀ i : grid0.Coords, EltTy.bits .f32 = 32 ∨ (Rect.block (s := S512x64) S8x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1.size a ≤ S32768x1.size a
  hwx1_0 : ∀ i : grid1.Coords, EltTy.bits .f32 = 32 ∨ (Rect.block (s := S32768x1) S1024x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1.size a ≤ S32768x1.size a
  hwx2_0 : ∀ i : grid2.Coords, EltTy.bits .f32 = 32 ∨ (Rect.block (s := S32768x1) S1024x1.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1024.size a ≤ S1x1024.size a
  hwx2_1 : ∀ i : grid2.Coords, EltTy.bits .f32 = 32 ∨ (Rect.block (s := S1x1024) S1x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x1024.size a
  hwx2_3 : ∀ i : grid2.Coords, EltTy.bits .f32 = 32 ∨ (Rect.block (s := S1x1024) S1x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1024x1.size a ≤ S1024x1.size a
  hwx2_5 : ∀ i : grid2.Coords, EltTy.bits .f32 = 32 ∨ (Rect.block (s := S1024x1) S1024x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1024x1.size a ≤ S32768x1.size a
  hwx2_7 : ∀ i : grid2.Coords, EltTy.bits .f32 = 32 ∨ (Rect.block (s := S32768x1) S1024x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x1.size a ≤ S1x1.size a
  hwx2_9 : ∀ i : grid2.Coords, EltTy.bits .f32 = 32 ∨ (Rect.block (s := S1x1) S1x1.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1.size a ≤ S32768x1.size a
  hwx3_0 : ∀ i : grid3.Coords, EltTy.bits .f32 = 32 ∨ (Rect.block (s := S32768x1) S1024x1.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x1.size a ≤ S1x1.size a
  hwx3_1 : ∀ i : grid3.Coords, EltTy.bits .f32 = 32 ∨ (Rect.block (s := S1x1) S1x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1.size a ≤ S32768x1.size a
  hwx3_3 : ∀ i : grid3.Coords, EltTy.bits .f32 = 32 ∨ (Rect.block (s := S32768x1) S1024x1.size (cc3_transform_3 i) (hinb3_3 i)).WholeWords (EltTy.packing .f32)

variable [Facts₀]

def dot_S1024x1024_S1024x1_S1024x1_1_0_0_1_n_n : DotDims S1024x1024 S1024x1 S1024x1 where
  lhsContracting := [1]
  rhsContracting := [0]
  lhsNonContracting := [0]
  rhsNonContracting := [1]
  lhsBatch := []
  rhsBatch := []
  wf := dot_S1024x1024_S1024x1_S1024x1_1_0_0_1_n_n_wf

abbrev win0_0 : Pipeline.Window sig grid0 :=
  Pipeline.Window.ofSpec (Memref.whole main_v4) S8x20x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S8x20x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S8x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S1024x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20_0) S1x1024.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20_1) S1x1024.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v11) S1024x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S1x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S1x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v32) S1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v16) S1024x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v17) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v33_0) S1024x1.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v33_1) S1x1.size cc2_transform_8 reads2_8 true true 1 stage2_8 sem2_8
    hrank2 hreads2_8 hinb2_8 nbuf2_8 (Memref.isWhole_whole _) hwx2_8 hstage2_8

abbrev win2_9 : Pipeline.Window sig grid2 :=
  Pipeline.Window.ofSpec (Memref.whole main_v33_2) S1x1.size cc2_transform_9 reads2_9 true true 1 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v33_0) S1024x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S1x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S1024x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S20x32768x2 : Shape := ⟨3, ![20, 32768, 2]⟩
abbrev S512x2 : Shape := ⟨2, ![512, 2]⟩
abbrev S64x2 : Shape := ⟨2, ![64, 2]⟩
abbrev S64 : Shape := ⟨1, ![64]⟩
abbrev S256x64 : Shape := ⟨2, ![256, 64]⟩
abbrev S256 : Shape := ⟨1, ![256]⟩
abbrev S1024x1 : Shape := ⟨2, ![1024, 1]⟩
abbrev S1024 : Shape := ⟨1, ![1024]⟩
abbrev S1x1024 : Shape := ⟨2, ![1, 1024]⟩
abbrev S1 : Shape := ⟨1, ![1]⟩
abbrev S655360x2 : Shape := ⟨2, ![655360, 2]⟩
abbrev S2x64 : Shape := ⟨2, ![2, 64]⟩
abbrev S655360x64 : Shape := ⟨2, ![655360, 64]⟩
abbrev S1x64 : Shape := ⟨2, ![1, 64]⟩
abbrev S20x32768x64 : Shape := ⟨3, ![20, 32768, 64]⟩
abbrev S_ : Shape := ⟨0, ![]⟩
abbrev S32768x64 : Shape := ⟨2, ![32768, 64]⟩
abbrev S1x32768x64 : Shape := ⟨3, ![1, 32768, 64]⟩
abbrev S64x256 : Shape := ⟨2, ![64, 256]⟩
abbrev S32768x256 : Shape := ⟨2, ![32768, 256]⟩
abbrev S1x256 : Shape := ⟨2, ![1, 256]⟩
abbrev S32768x20x2 : Shape := ⟨3, ![32768, 20, 2]⟩
abbrev S512x64x20x2 : Shape := ⟨4, ![512, 64, 20, 2]⟩
abbrev S512x20x64x2 : Shape := ⟨4, ![512, 20, 64, 2]⟩
abbrev S512x20x64x1x2 : Shape := ⟨5, ![512, 20, 64, 1, 2]⟩
abbrev S512x20x1x64x2 : Shape := ⟨5, ![512, 20, 1, 64, 2]⟩
abbrev S512x20x64x64x2 : Shape := ⟨5, ![512, 20, 64, 64, 2]⟩
abbrev S512x20x64x64 : Shape := ⟨4, ![512, 20, 64, 64]⟩
abbrev S512x20x64 : Shape := ⟨3, ![512, 20, 64]⟩
abbrev S512x64 : Shape := ⟨2, ![512, 64]⟩
abbrev S32768 : Shape := ⟨1, ![32768]⟩
abbrev S32768x1 : Shape := ⟨2, ![32768, 1]⟩
abbrev S32768x1024 : Shape := ⟨2, ![32768, 1024]⟩
abbrev S1x1 : Shape := ⟨2, ![1, 1]⟩

abbrev nBuf : Space → Nat
  | .hbm => 226
  | .vmem => 0
  | .smem => 0
  | _ => 0

abbrev hbmTy0_0 (i : Nat) : BufTy := match i % 128 with
  | 0 => ⟨S20x32768x2, .f32⟩
  | 1 => ⟨S20x32768x2, .f32⟩
  | 2 => ⟨S512x2, .i32⟩
  | 3 => ⟨S64x2, .f32⟩
  | 4 => ⟨S64, .f32⟩
  | 5 => ⟨S256x64, .f32⟩
  | 6 => ⟨S256x64, .f32⟩
  | 7 => ⟨S256, .f32⟩
  | 8 => ⟨S256, .f32⟩
  | 9 => ⟨S1024x1, .f32⟩
  | 10 => ⟨S1024, .f32⟩
  | 11 => ⟨S1024, .f32⟩
  | 12 => ⟨S1024, .f32⟩
  | 13 => ⟨S1x1024, .f32⟩
  | 14 => ⟨S1, .f32⟩
  | 15 => ⟨S1, .f32⟩
  | 16 => ⟨S1, .f32⟩
  | 17 => ⟨S655360x2, .f32⟩
  | 18 => ⟨S2x64, .f32⟩
  | 19 => ⟨S655360x64, .f32⟩
  | 20 => ⟨S1x64, .f32⟩
  | 21 => ⟨S655360x64, .f32⟩
  | 22 => ⟨S655360x64, .f32⟩
  | 23 => ⟨S20x32768x64, .f32⟩
  | 24 => ⟨S_, .f32⟩
  | 25 => ⟨S32768x64, .f32⟩
  | 26 => ⟨S_, .f32⟩
  | 27 => ⟨S32768x64, .f32⟩
  | 28 => ⟨S_, .i32⟩
  | 29 => ⟨S20x32768x64, .f32⟩
  | 30 => ⟨S256x64, .f32⟩
  | 31 => ⟨S256x64, .f32⟩
  | 32 => ⟨S256, .f32⟩
  | 33 => ⟨S256, .f32⟩
  | 34 => ⟨S_, .i32⟩
  | 35 => ⟨S32768x64, .f32⟩
  | 36 => ⟨S32768x64, .f32⟩
  | 37 => ⟨S_, .i32⟩
  | 38 => ⟨S_, .i1⟩
  | 39 => ⟨S_, .i32⟩
  | 40 => ⟨S_, .i32⟩
  | 41 => ⟨S1x32768x64, .f32⟩
  | 42 => ⟨S32768x64, .f32⟩
  | 43 => ⟨S64x256, .f32⟩
  | 44 => ⟨S32768x256, .f32⟩
  | 45 => ⟨S64x256, .f32⟩
  | 46 => ⟨S32768x256, .f32⟩
  | 47 => ⟨S32768x256, .f32⟩
  | 48 => ⟨S1x256, .f32⟩
  | 49 => ⟨S32768x256, .f32⟩
  | 50 => ⟨S32768x256, .f32⟩
  | 51 => ⟨S1x256, .f32⟩
  | 52 => ⟨S32768x256, .f32⟩
  | 53 => ⟨S32768x256, .f32⟩
  | 54 => ⟨S32768x64, .f32⟩
  | 55 => ⟨S32768x64, .f32⟩
  | 56 => ⟨S32768x64, .f32⟩
  | 57 => ⟨S32768x64, .f32⟩
  | 58 => ⟨S32768x64, .f32⟩
  | 59 => ⟨S32768x64, .f32⟩
  | 60 => ⟨S_, .f32⟩
  | 61 => ⟨S32768x64, .f32⟩
  | 62 => ⟨S32768x64, .f32⟩
  | 63 => ⟨S_, .f32⟩
  | 64 => ⟨S32768x64, .f32⟩
  | 65 => ⟨S32768x64, .f32⟩
  | 66 => ⟨S32768x64, .f32⟩
  | 67 => ⟨S32768x64, .f32⟩
  | 68 => ⟨S_, .f32⟩
  | 69 => ⟨S32768x64, .f32⟩
  | 70 => ⟨S32768x64, .f32⟩
  | 71 => ⟨S_, .f32⟩
  | 72 => ⟨S32768x64, .f32⟩
  | 73 => ⟨S32768x64, .f32⟩
  | 74 => ⟨S32768x64, .f32⟩
  | 75 => ⟨S32768x64, .f32⟩
  | 76 => ⟨S32768x64, .f32⟩
  | 77 => ⟨S_, .f32⟩
  | 78 => ⟨S32768x64, .f32⟩
  | 79 => ⟨S32768x64, .f32⟩
  | 80 => ⟨S_, .f32⟩
  | 81 => ⟨S32768x64, .f32⟩
  | 82 => ⟨S32768x64, .f32⟩
  | 83 => ⟨S32768x64, .f32⟩
  | 84 => ⟨S32768x64, .f32⟩
  | 85 => ⟨S32768x64, .f32⟩
  | 86 => ⟨S32768x64, .f32⟩
  | 87 => ⟨S32768x64, .f32⟩
  | 88 => ⟨S_, .i32⟩
  | 89 => ⟨S_, .i32⟩
  | 90 => ⟨S32768x20x2, .f32⟩
  | 91 => ⟨S512x64x20x2, .f32⟩
  | 92 => ⟨S512x20x64x2, .f32⟩
  | 93 => ⟨S512x20x64x1x2, .f32⟩
  | 94 => ⟨S512x20x1x64x2, .f32⟩
  | 95 => ⟨S512x20x64x64x2, .f32⟩
  | 96 => ⟨S512x20x64x64x2, .f32⟩
  | 97 => ⟨S512x20x64x64x2, .f32⟩
  | 98 => ⟨S512x20x64x64x2, .f32⟩
  | 99 => ⟨S_, .f32⟩
  | 100 => ⟨S512x20x64x64, .f32⟩
  | 101 => ⟨S512x20x64x64, .f32⟩
  | 102 => ⟨S_, .f32⟩
  | 103 => ⟨S512x20x64x64, .f32⟩
  | 104 => ⟨S512x20x64x64, .i1⟩
  | 105 => ⟨S_, .f32⟩
  | 106 => ⟨S_, .f32⟩
  | 107 => ⟨S512x20x64x64, .f32⟩
  | 108 => ⟨S512x20x64x64, .f32⟩
  | 109 => ⟨S_, .f32⟩
  | 110 => ⟨S512x20x64, .f32⟩
  | 111 => ⟨S_, .f32⟩
  | 112 => ⟨S512x64, .f32⟩
  | 113 => ⟨S_, .f32⟩
  | 114 => ⟨S512x64, .f32⟩
  | 115 => ⟨S512x64, .i1⟩
  | 116 => ⟨S512x64, .f32⟩
  | 117 => ⟨S32768, .f32⟩
  | 118 => ⟨S_, .f32⟩
  | 119 => ⟨S32768, .f32⟩
  | 120 => ⟨S32768, .f32⟩
  | 121 => ⟨S32768x1, .f32⟩
  | 122 => ⟨S1x1024, .f32⟩
  | 123 => ⟨S32768x1024, .f32⟩
  | 124 => ⟨S1x1024, .f32⟩
  | 125 => ⟨S32768x1024, .f32⟩
  | 126 => ⟨S32768x1024, .f32⟩
  | 127 => ⟨S_, .f32⟩
  | _ => ⟨S20x32768x2, .f32⟩

abbrev hbmTy0_1 (i : Nat) : BufTy := match i % 128 with
  | 0 => ⟨S1024, .f32⟩
  | 1 => ⟨S_, .f32⟩
  | 2 => ⟨S1024, .f32⟩
  | 3 => ⟨S1024, .f32⟩
  | 4 => ⟨S_, .i32⟩
  | 5 => ⟨S_, .f32⟩
  | 6 => ⟨S1024, .f32⟩
  | 7 => ⟨S1x1024, .f32⟩
  | 8 => ⟨S_, .f32⟩
  | 9 => ⟨S1x1024, .f32⟩
  | 10 => ⟨S1x1024, .f32⟩
  | 11 => ⟨S32768x1024, .f32⟩
  | 12 => ⟨S32768x1024, .f32⟩
  | 13 => ⟨S32768x1024, .f32⟩
  | 14 => ⟨S_, .f32⟩
  | 15 => ⟨S_, .f32⟩
  | 16 => ⟨S_, .f32⟩
  | 17 => ⟨S_, .f32⟩
  | 18 => ⟨S1024, .f32⟩
  | 19 => ⟨S1024, .f32⟩
  | 20 => ⟨S1024, .f32⟩
  | 21 => ⟨S_, .f32⟩
  | 22 => ⟨S_, .i1⟩
  | 23 => ⟨S_, .f32⟩
  | 24 => ⟨S_, .f32⟩
  | 25 => ⟨S1024, .f32⟩
  | 26 => ⟨S1024, .f32⟩
  | 27 => ⟨S1x1024, .f32⟩
  | 28 => ⟨S32768x1024, .f32⟩
  | 29 => ⟨S32768x1024, .f32⟩
  | 30 => ⟨S1x1024, .f32⟩
  | 31 => ⟨S32768x1024, .f32⟩
  | 32 => ⟨S32768x1024, .f32⟩
  | 33 => ⟨S_, .f32⟩
  | 34 => ⟨S1024, .f32⟩
  | 35 => ⟨S1024, .f32⟩
  | 36 => ⟨S1024, .f32⟩
  | 37 => ⟨S1x1024, .f32⟩
  | 38 => ⟨S32768x1024, .f32⟩
  | 39 => ⟨S32768x1024, .f32⟩
  | 40 => ⟨S1x1024, .f32⟩
  | 41 => ⟨S32768x1024, .f32⟩
  | 42 => ⟨S32768x1024, .f32⟩
  | 43 => ⟨S_, .f32⟩
  | 44 => ⟨S32768x1024, .f32⟩
  | 45 => ⟨S32768x1024, .f32⟩
  | 46 => ⟨S1024x1, .f32⟩
  | 47 => ⟨S32768x1, .f32⟩
  | 48 => ⟨S1x1, .f32⟩
  | 49 => ⟨S32768x1, .f32⟩
  | 50 => ⟨S32768x1, .f32⟩
  | 51 => ⟨S_, .f32⟩
  | 52 => ⟨S1, .f32⟩
  | 53 => ⟨S_, .f32⟩
  | 54 => ⟨S1, .f32⟩
  | 55 => ⟨S1, .f32⟩
  | 56 => ⟨S_, .i32⟩
  | 57 => ⟨S_, .f32⟩
  | 58 => ⟨S1, .f32⟩
  | 59 => ⟨S1x1, .f32⟩
  | 60 => ⟨S_, .f32⟩
  | 61 => ⟨S1x1, .f32⟩
  | 62 => ⟨S1x1, .f32⟩
  | 63 => ⟨S32768x1, .f32⟩
  | 64 => ⟨S32768x1, .f32⟩
  | 65 => ⟨S32768x1, .f32⟩
  | 66 => ⟨S_, .f32⟩
  | 67 => ⟨S_, .f32⟩
  | 68 => ⟨S_, .f32⟩
  | 69 => ⟨S_, .f32⟩
  | 70 => ⟨S1, .f32⟩
  | 71 => ⟨S1, .f32⟩
  | 72 => ⟨S1, .f32⟩
  | 73 => ⟨S_, .f32⟩
  | 74 => ⟨S_, .i1⟩
  | 75 => ⟨S_, .f32⟩
  | 76 => ⟨S_, .f32⟩
  | 77 => ⟨S1, .f32⟩
  | 78 => ⟨S1, .f32⟩
  | 79 => ⟨S1x1, .f32⟩
  | 80 => ⟨S32768x1, .f32⟩
  | 81 => ⟨S32768x1, .f32⟩
  | 82 => ⟨S1x1, .f32⟩
  | 83 => ⟨S32768x1, .f32⟩
  | 84 => ⟨S32768x1, .f32⟩
  | 85 => ⟨S_, .f32⟩
  | 86 => ⟨S1, .f32⟩
  | 87 => ⟨S1, .f32⟩
  | 88 => ⟨S1, .f32⟩
  | 89 => ⟨S1x1, .f32⟩
  | 90 => ⟨S32768x1, .f32⟩
  | 91 => ⟨S32768x1, .f32⟩
  | 92 => ⟨S1x1, .f32⟩
  | 93 => ⟨S32768x1, .f32⟩
  | 94 => ⟨S32768x1, .f32⟩
  | 95 => ⟨S_, .f32⟩
  | 96 => ⟨S32768x1, .f32⟩
  | 97 => ⟨S32768x1, .f32⟩
  | _ => ⟨S20x32768x2, .f32⟩

abbrev hbmTy (i : Nat) : BufTy := match i / 128 with
  | 0 => hbmTy0_0 i
  | 1 => hbmTy0_1 i
  | _ => ⟨S20x32768x2, .f32⟩

abbrev bufTy : (tb : Table) → Fin (tcTables nBuf tb) → BufTy
  | .hbm, ⟨i, _⟩ => hbmTy i
  | _, _ => ⟨S20x32768x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_c : Ref sig .tc := ⟨.hbm, 28, rfl⟩
abbrev main_v9_0 : Ref sig .tc := ⟨.hbm, 29, rfl⟩
abbrev main_v9_1 : Ref sig .tc := ⟨.hbm, 30, rfl⟩
abbrev main_v9_2 : Ref sig .tc := ⟨.hbm, 31, rfl⟩
abbrev main_v9_3 : Ref sig .tc := ⟨.hbm, 32, rfl⟩
abbrev main_v9_4 : Ref sig .tc := ⟨.hbm, 33, rfl⟩
abbrev main_v9_5 : Ref sig .tc := ⟨.hbm, 34, rfl⟩
abbrev main_v9_6 : Ref sig .tc := ⟨.hbm, 35, rfl⟩
abbrev main_v9_7 : Ref sig .tc := ⟨.hbm, 36, rfl⟩
abbrev main_while0c_c_22 : Ref sig .tc := ⟨.hbm, 37, rfl⟩
abbrev main_while0c_v81 : Ref sig .tc := ⟨.hbm, 38, rfl⟩
abbrev main_while0b_call0_c : Ref sig .tc := ⟨.hbm, 39, rfl⟩
abbrev main_while0b_call0_c_0 : Ref sig .tc := ⟨.hbm, 40, rfl⟩
abbrev main_while0b_call0_v0 : Ref sig .tc := ⟨.hbm, 41, rfl⟩
abbrev main_while0b_v81 : Ref sig .tc := ⟨.hbm, 42, rfl⟩
abbrev main_while0b_call1_v0 : Ref sig .tc := ⟨.hbm, 43, rfl⟩
abbrev main_while0b_call1_v1 : Ref sig .tc := ⟨.hbm, 44, rfl⟩
abbrev main_while0b_call1_v2 : Ref sig .tc := ⟨.hbm, 45, rfl⟩
abbrev main_while0b_call1_v3 : Ref sig .tc := ⟨.hbm, 46, rfl⟩
abbrev main_while0b_call1_v4 : Ref sig .tc := ⟨.hbm, 47, rfl⟩
abbrev main_while0b_call1_v5 : Ref sig .tc := ⟨.hbm, 48, rfl⟩
abbrev main_while0b_call1_v6 : Ref sig .tc := ⟨.hbm, 49, rfl⟩
abbrev main_while0b_call1_v7 : Ref sig .tc := ⟨.hbm, 50, rfl⟩
abbrev main_while0b_call1_v8 : Ref sig .tc := ⟨.hbm, 51, rfl⟩
abbrev main_while0b_call1_v9 : Ref sig .tc := ⟨.hbm, 52, rfl⟩
abbrev main_while0b_call1_v10 : Ref sig .tc := ⟨.hbm, 53, rfl⟩
abbrev main_while0b_call1_v11 : Ref sig .tc := ⟨.hbm, 54, rfl⟩
abbrev main_while0b_call1_v12 : Ref sig .tc := ⟨.hbm, 55, rfl⟩
abbrev main_while0b_call1_v13 : Ref sig .tc := ⟨.hbm, 56, rfl⟩
abbrev main_while0b_call1_v14 : Ref sig .tc := ⟨.hbm, 57, rfl⟩
abbrev main_while0b_call1_v15 : Ref sig .tc := ⟨.hbm, 58, rfl⟩
abbrev main_while0b_call1_v16 : Ref sig .tc := ⟨.hbm, 59, rfl⟩
abbrev main_while0b_call1_cst : Ref sig .tc := ⟨.hbm, 60, rfl⟩
abbrev main_while0b_call1_v17 : Ref sig .tc := ⟨.hbm, 61, rfl⟩
abbrev main_while0b_call1_v18 : Ref sig .tc := ⟨.hbm, 62, rfl⟩
abbrev main_while0b_call1_cst_0 : Ref sig .tc := ⟨.hbm, 63, rfl⟩
abbrev main_while0b_call1_v19 : Ref sig .tc := ⟨.hbm, 64, rfl⟩
abbrev main_while0b_call1_v20 : Ref sig .tc := ⟨.hbm, 65, rfl⟩
abbrev main_while0b_call1_v21 : Ref sig .tc := ⟨.hbm, 66, rfl⟩
abbrev main_while0b_call1_v22 : Ref sig .tc := ⟨.hbm, 67, rfl⟩
abbrev main_while0b_call1_cst_1 : Ref sig .tc := ⟨.hbm, 68, rfl⟩
abbrev main_while0b_call1_v23 : Ref sig .tc := ⟨.hbm, 69, rfl⟩
abbrev main_while0b_call1_v24 : Ref sig .tc := ⟨.hbm, 70, rfl⟩
abbrev main_while0b_call1_cst_2 : Ref sig .tc := ⟨.hbm, 71, rfl⟩
abbrev main_while0b_call1_v25 : Ref sig .tc := ⟨.hbm, 72, rfl⟩
abbrev main_while0b_call1_v26 : Ref sig .tc := ⟨.hbm, 73, rfl⟩
abbrev main_while0b_call1_v27 : Ref sig .tc := ⟨.hbm, 74, rfl⟩
abbrev main_while0b_call1_v28 : Ref sig .tc := ⟨.hbm, 75, rfl⟩
abbrev main_while0b_call1_v29 : Ref sig .tc := ⟨.hbm, 76, rfl⟩
abbrev main_while0b_call1_cst_3 : Ref sig .tc := ⟨.hbm, 77, rfl⟩
abbrev main_while0b_call1_v30 : Ref sig .tc := ⟨.hbm, 78, rfl⟩
abbrev main_while0b_call1_v31 : Ref sig .tc := ⟨.hbm, 79, rfl⟩
abbrev main_while0b_call1_cst_4 : Ref sig .tc := ⟨.hbm, 80, rfl⟩
abbrev main_while0b_call1_v32 : Ref sig .tc := ⟨.hbm, 81, rfl⟩
abbrev main_while0b_call1_v33 : Ref sig .tc := ⟨.hbm, 82, rfl⟩
abbrev main_while0b_call1_v34 : Ref sig .tc := ⟨.hbm, 83, rfl⟩
abbrev main_while0b_call1_v35 : Ref sig .tc := ⟨.hbm, 84, rfl⟩
abbrev main_while0b_v82_1 : Ref sig .tc := ⟨.hbm, 85, rfl⟩
abbrev main_while0b_call1_v37 : Ref sig .tc := ⟨.hbm, 86, rfl⟩
abbrev main_while0b_v82_0 : Ref sig .tc := ⟨.hbm, 87, rfl⟩
abbrev main_while0b_c_22 : Ref sig .tc := ⟨.hbm, 88, rfl⟩
abbrev main_while0b_v83 : Ref sig .tc := ⟨.hbm, 89, rfl⟩
abbrev main_v10 : Ref sig .tc := ⟨.hbm, 90, rfl⟩
abbrev main_v11 : Ref sig .tc := ⟨.hbm, 91, rfl⟩
abbrev main_v12 : Ref sig .tc := ⟨.hbm, 92, rfl⟩
abbrev main_v13 : Ref sig .tc := ⟨.hbm, 93, rfl⟩
abbrev main_v14 : Ref sig .tc := ⟨.hbm, 94, rfl⟩
abbrev main_v15 : Ref sig .tc := ⟨.hbm, 95, rfl⟩
abbrev main_v16 : Ref sig .tc := ⟨.hbm, 96, rfl⟩
abbrev main_v17 : Ref sig .tc := ⟨.hbm, 97, rfl⟩
abbrev main_call2_v0 : Ref sig .tc := ⟨.hbm, 98, rfl⟩
abbrev main_call2_cst : Ref sig .tc := ⟨.hbm, 99, rfl⟩
abbrev main_call2_v1 : Ref sig .tc := ⟨.hbm, 100, rfl⟩
abbrev main_v18 : Ref sig .tc := ⟨.hbm, 101, rfl⟩
abbrev main_cst_1 : Ref sig .tc := ⟨.hbm, 102, rfl⟩
abbrev main_v19 : Ref sig .tc := ⟨.hbm, 103, rfl⟩
abbrev main_v20 : Ref sig .tc := ⟨.hbm, 104, rfl⟩
abbrev main_cst_2 : Ref sig .tc := ⟨.hbm, 105, rfl⟩
abbrev main_call3_v0 : Ref sig .tc := ⟨.hbm, 106, rfl⟩
abbrev main_call3_v1 : Ref sig .tc := ⟨.hbm, 107, rfl⟩
abbrev main_v21 : Ref sig .tc := ⟨.hbm, 108, rfl⟩
abbrev main_cst_3 : Ref sig .tc := ⟨.hbm, 109, rfl⟩
abbrev main_v22 : Ref sig .tc := ⟨.hbm, 110, rfl⟩
abbrev main_cst_4 : Ref sig .tc := ⟨.hbm, 111, rfl⟩
abbrev main_v23 : Ref sig .tc := ⟨.hbm, 112, rfl⟩
abbrev main_cst_5 : Ref sig .tc := ⟨.hbm, 113, rfl⟩
abbrev main_v24 : Ref sig .tc := ⟨.hbm, 114, rfl⟩
abbrev main_v25 : Ref sig .tc := ⟨.hbm, 115, rfl⟩
abbrev main_v26 : Ref sig .tc := ⟨.hbm, 116, rfl⟩
abbrev main_v27 : Ref sig .tc := ⟨.hbm, 117, rfl⟩
abbrev main_cst_6 : Ref sig .tc := ⟨.hbm, 118, rfl⟩
abbrev main_v28 : Ref sig .tc := ⟨.hbm, 119, rfl⟩
abbrev main_v29 : Ref sig .tc := ⟨.hbm, 120, rfl⟩
abbrev main_v30 : Ref sig .tc := ⟨.hbm, 121, rfl⟩
abbrev main_v31 : Ref sig .tc := ⟨.hbm, 122, rfl⟩
abbrev main_v32 : Ref sig .tc := ⟨.hbm, 123, rfl⟩
abbrev main_v33 : Ref sig .tc := ⟨.hbm, 124, rfl⟩
abbrev main_v34 : Ref sig .tc := ⟨.hbm, 125, rfl⟩
abbrev main_v35 : Ref sig .tc := ⟨.hbm, 126, rfl⟩
abbrev main_cst_7 : Ref sig .tc := ⟨.hbm, 127, rfl⟩
abbrev main_v36 : Ref sig .tc := ⟨.hbm, 128, rfl⟩
abbrev main_cst_8 : Ref sig .tc := ⟨.hbm, 129, rfl⟩
abbrev main_v37 : Ref sig .tc := ⟨.hbm, 130, rfl⟩
abbrev main_v38 : Ref sig .tc := ⟨.hbm, 131, rfl⟩
abbrev main_c_9 : Ref sig .tc := ⟨.hbm, 132, rfl⟩
abbrev main_call4_cst : Ref sig .tc := ⟨.hbm, 133, rfl⟩
abbrev main_call4_v0 : Ref sig .tc := ⟨.hbm, 134, rfl⟩
abbrev main_call4_v1 : Ref sig .tc := ⟨.hbm, 135, rfl⟩
abbrev main_call4_cst_0 : Ref sig .tc := ⟨.hbm, 136, rfl⟩
abbrev main_call4_v2 : Ref sig .tc := ⟨.hbm, 137, rfl⟩
abbrev main_call4_v3 : Ref sig .tc := ⟨.hbm, 138, rfl⟩
abbrev main_call4_v4 : Ref sig .tc := ⟨.hbm, 139, rfl⟩
abbrev main_call4_v5 : Ref sig .tc := ⟨.hbm, 140, rfl⟩
abbrev main_call4_v6 : Ref sig .tc := ⟨.hbm, 141, rfl⟩
abbrev main_call4_v7 : Ref sig .tc := ⟨.hbm, 142, rfl⟩
abbrev main_call4_cst_1 : Ref sig .tc := ⟨.hbm, 143, rfl⟩
abbrev main_call4_v8 : Ref sig .tc := ⟨.hbm, 144, rfl⟩
abbrev main_call4_cst_2 : Ref sig .tc := ⟨.hbm, 145, rfl⟩
abbrev main_call4_v9 : Ref sig .tc := ⟨.hbm, 146, rfl⟩
abbrev main_call4_v10 : Ref sig .tc := ⟨.hbm, 147, rfl⟩
abbrev main_call4_v11 : Ref sig .tc := ⟨.hbm, 148, rfl⟩
abbrev main_call4_cst_3 : Ref sig .tc := ⟨.hbm, 149, rfl⟩
abbrev main_call4_v12 : Ref sig .tc := ⟨.hbm, 150, rfl⟩
abbrev main_call4_cst_4 : Ref sig .tc := ⟨.hbm, 151, rfl⟩
abbrev main_call4_call0_v0 : Ref sig .tc := ⟨.hbm, 152, rfl⟩
abbrev main_call4_call0_v1 : Ref sig .tc := ⟨.hbm, 153, rfl⟩
abbrev main_v39 : Ref sig .tc := ⟨.hbm, 154, rfl⟩
abbrev main_v40 : Ref sig .tc := ⟨.hbm, 155, rfl⟩
abbrev main_v41 : Ref sig .tc := ⟨.hbm, 156, rfl⟩
abbrev main_v42 : Ref sig .tc := ⟨.hbm, 157, rfl⟩
abbrev main_v43 : Ref sig .tc := ⟨.hbm, 158, rfl⟩
abbrev main_v44 : Ref sig .tc := ⟨.hbm, 159, rfl⟩
abbrev main_v45 : Ref sig .tc := ⟨.hbm, 160, rfl⟩
abbrev main_cst_10 : Ref sig .tc := ⟨.hbm, 161, rfl⟩
abbrev main_v46 : Ref sig .tc := ⟨.hbm, 162, rfl⟩
abbrev main_v47 : Ref sig .tc := ⟨.hbm, 163, rfl⟩
abbrev main_v48 : Ref sig .tc := ⟨.hbm, 164, rfl⟩
abbrev main_v49 : Ref sig .tc := ⟨.hbm, 165, rfl⟩
abbrev main_v50 : Ref sig .tc := ⟨.hbm, 166, rfl⟩
abbrev main_v51 : Ref sig .tc := ⟨.hbm, 167, rfl⟩
abbrev main_v52 : Ref sig .tc := ⟨.hbm, 168, rfl⟩
abbrev main_v53 : Ref sig .tc := ⟨.hbm, 169, rfl⟩
abbrev main_v54 : Ref sig .tc := ⟨.hbm, 170, rfl⟩
abbrev main_call5_cst : Ref sig .tc := ⟨.hbm, 171, rfl⟩
abbrev main_call5_v0 : Ref sig .tc := ⟨.hbm, 172, rfl⟩
abbrev main_v55 : Ref sig .tc := ⟨.hbm, 173, rfl⟩
abbrev main_v56 : Ref sig .tc := ⟨.hbm, 174, rfl⟩
abbrev main_v57 : Ref sig .tc := ⟨.hbm, 175, rfl⟩
abbrev main_v58 : Ref sig .tc := ⟨.hbm, 176, rfl⟩
abbrev main_v59 : Ref sig .tc := ⟨.hbm, 177, rfl⟩
abbrev main_v60 : Ref sig .tc := ⟨.hbm, 178, rfl⟩
abbrev main_cst_11 : Ref sig .tc := ⟨.hbm, 179, rfl⟩
abbrev main_v61 : Ref sig .tc := ⟨.hbm, 180, rfl⟩
abbrev main_cst_12 : Ref sig .tc := ⟨.hbm, 181, rfl⟩
abbrev main_v62 : Ref sig .tc := ⟨.hbm, 182, rfl⟩
abbrev main_v63 : Ref sig .tc := ⟨.hbm, 183, rfl⟩
abbrev main_c_13 : Ref sig .tc := ⟨.hbm, 184, rfl⟩
abbrev main_call6_cst : Ref sig .tc := ⟨.hbm, 185, rfl⟩
abbrev main_call6_v0 : Ref sig .tc := ⟨.hbm, 186, rfl⟩
abbrev main_call6_v1 : Ref sig .tc := ⟨.hbm, 187, rfl⟩
abbrev main_call6_cst_0 : Ref sig .tc := ⟨.hbm, 188, rfl⟩
abbrev main_call6_v2 : Ref sig .tc := ⟨.hbm, 189, rfl⟩
abbrev main_call6_v3 : Ref sig .tc := ⟨.hbm, 190, rfl⟩
abbrev main_call6_v4 : Ref sig .tc := ⟨.hbm, 191, rfl⟩
abbrev main_call6_v5 : Ref sig .tc := ⟨.hbm, 192, rfl⟩
abbrev main_call6_v6 : Ref sig .tc := ⟨.hbm, 193, rfl⟩
abbrev main_call6_v7 : Ref sig .tc := ⟨.hbm, 194, rfl⟩
abbrev main_call6_cst_1 : Ref sig .tc := ⟨.hbm, 195, rfl⟩
abbrev main_call6_v8 : Ref sig .tc := ⟨.hbm, 196, rfl⟩
abbrev main_call6_cst_2 : Ref sig .tc := ⟨.hbm, 197, rfl⟩
abbrev main_call6_v9 : Ref sig .tc := ⟨.hbm, 198, rfl⟩
abbrev main_call6_v10 : Ref sig .tc := ⟨.hbm, 199, rfl⟩
abbrev main_call6_v11 : Ref sig .tc := ⟨.hbm, 200, rfl⟩
abbrev main_call6_cst_3 : Ref sig .tc := ⟨.hbm, 201, rfl⟩
abbrev main_call6_v12 : Ref sig .tc := ⟨.hbm, 202, rfl⟩
abbrev main_call6_cst_4 : Ref sig .tc := ⟨.hbm, 203, rfl⟩
abbrev main_call6_call0_v0 : Ref sig .tc := ⟨.hbm, 204, rfl⟩
abbrev main_call6_call0_v1 : Ref sig .tc := ⟨.hbm, 205, rfl⟩
abbrev main_v64 : Ref sig .tc := ⟨.hbm, 206, rfl⟩
abbrev main_v65 : Ref sig .tc := ⟨.hbm, 207, rfl⟩
abbrev main_v66 : Ref sig .tc := ⟨.hbm, 208, rfl⟩
abbrev main_v67 : Ref sig .tc := ⟨.hbm, 209, rfl⟩
abbrev main_v68 : Ref sig .tc := ⟨.hbm, 210, rfl⟩
abbrev main_v69 : Ref sig .tc := ⟨.hbm, 211, rfl⟩
abbrev main_v70 : Ref sig .tc := ⟨.hbm, 212, rfl⟩
abbrev main_cst_14 : Ref sig .tc := ⟨.hbm, 213, rfl⟩
abbrev main_v71 : Ref sig .tc := ⟨.hbm, 214, rfl⟩
abbrev main_v72 : Ref sig .tc := ⟨.hbm, 215, rfl⟩
abbrev main_v73 : Ref sig .tc := ⟨.hbm, 216, rfl⟩
abbrev main_v74 : Ref sig .tc := ⟨.hbm, 217, rfl⟩
abbrev main_v75 : Ref sig .tc := ⟨.hbm, 218, rfl⟩
abbrev main_v76 : Ref sig .tc := ⟨.hbm, 219, rfl⟩
abbrev main_v77 : Ref sig .tc := ⟨.hbm, 220, rfl⟩
abbrev main_v78 : Ref sig .tc := ⟨.hbm, 221, rfl⟩
abbrev main_v79 : Ref sig .tc := ⟨.hbm, 222, rfl⟩
abbrev main_call7_cst : Ref sig .tc := ⟨.hbm, 223, rfl⟩
abbrev main_call7_v0 : Ref sig .tc := ⟨.hbm, 224, rfl⟩
abbrev main_v80 : Ref sig .tc := ⟨.hbm, 225, rfl⟩

abbrev nD : Nat := 1
abbrev τ : Topo := Topo.v7x

variable {F : FTy → Type} [FloatOps F]

abbrev main_while0_count : Scf.Loop 32 := ⟨0#32, 20#32, 1#32⟩

class Facts₀ : Prop where
  shapeCasts_S20x32768x2_S655360x2 : S20x32768x2.ShapeCasts S655360x2
  transposes_S64x2_S2x64_1_0 : S64x2.Transposes [1, 0] S2x64
  bcast_S64_S1x64_1 : S64.BroadcastsInDim S1x64 (![1] : Fin 1 → Fin S1x64.rank)
  bcast_S1x64_S655360x64_0_1 : S1x64.BroadcastsInDim S655360x64 (![0, 1] : Fin 2 → Fin S655360x64.rank)
  shapeCasts_S655360x64_S20x32768x64 : S655360x64.ShapeCasts S20x32768x64
  bcast_S_S32768x64 : S_.BroadcastsInDim S32768x64 (![] : Fin 0 → Fin S32768x64.rank)
  sliceFits_S20x32768x64_S1x32768x64 : S20x32768x64.Slices (fun _ => 0) S1x32768x64
  h_S_ : 0 < S_.numel
  shapeCasts_S1x32768x64_S32768x64 : S1x32768x64.ShapeCasts S32768x64
  transposes_S256x64_S64x256_1_0 : S256x64.Transposes [1, 0] S64x256
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  slices_S32768x256_S32768x64_0_0 : S32768x256.Slices ![0, 0] S32768x64
  slices_S32768x256_S32768x64_0_64 : S32768x256.Slices ![0, 64] S32768x64
  slices_S32768x256_S32768x64_0_128 : S32768x256.Slices ![0, 128] S32768x64
  slices_S32768x256_S32768x64_0_192 : S32768x256.Slices ![0, 192] S32768x64
  transposes_S20x32768x2_S32768x20x2_1_0_2 : S20x32768x2.Transposes [1, 0, 2] S32768x20x2
  shapeCasts_S32768x20x2_S512x64x20x2 : S32768x20x2.ShapeCasts S512x64x20x2
  transposes_S512x64x20x2_S512x20x64x2_0_2_1_3 : S512x64x20x2.Transposes [0, 2, 1, 3] S512x20x64x2
  bcast_S512x20x64x2_S512x20x64x1x2_0_1_2_4 : S512x20x64x2.BroadcastsInDim S512x20x64x1x2 (![0, 1, 2, 4] : Fin 4 → Fin S512x20x64x1x2.rank)
  bcast_S512x20x64x2_S512x20x1x64x2_0_1_3_4 : S512x20x64x2.BroadcastsInDim S512x20x1x64x2 (![0, 1, 3, 4] : Fin 4 → Fin S512x20x1x64x2.rank)
  bcast_S512x20x64x1x2_S512x20x64x64x2_0_1_2_3_4 : S512x20x64x1x2.BroadcastsInDim S512x20x64x64x2 (![0, 1, 2, 3, 4] : Fin 5 → Fin S512x20x64x64x2.rank)
  bcast_S512x20x1x64x2_S512x20x64x64x2_0_1_2_3_4 : S512x20x1x64x2.BroadcastsInDim S512x20x64x64x2 (![0, 1, 2, 3, 4] : Fin 5 → Fin S512x20x64x64x2.rank)
  reducesTo_S512x20x64x64x2_S512x20x64x64_d4 : S512x20x64x64x2.ReducesTo [4] S512x20x64x64
  bcast_S_S512x20x64x64 : S_.BroadcastsInDim S512x20x64x64 (![] : Fin 0 → Fin S512x20x64x64.rank)
  reducesTo_S512x20x64x64_S512x20x64_d2 : S512x20x64x64.ReducesTo [2] S512x20x64
  reducesTo_S512x20x64_S512x64_d1 : S512x20x64.ReducesTo [1] S512x64
  bcast_S_S512x64 : S_.BroadcastsInDim S512x64 (![] : Fin 0 → Fin S512x64.rank)
  shapeCasts_S512x64_S32768 : S512x64.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  transposes_S1024x1_S1x1024_1_0 : S1024x1.Transposes [1, 0] S1x1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  reducesTo_S32768x1024_S1024_d0 : S32768x1024.ReducesTo [0] S1024
  bcast_S_S1024 : S_.BroadcastsInDim S1024 (![] : Fin 0 → Fin S1024.rank)
  bcast_S_S1x1024 : S_.BroadcastsInDim S1x1024 (![] : Fin 0 → Fin S1x1024.rank)
  bcast_S_S32768x1024 : S_.BroadcastsInDim S32768x1024 (![] : Fin 0 → Fin S32768x1024.rank)
  transposes_S1x1024_S1024x1_1_0 : S1x1024.Transposes [1, 0] S1024x1
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  reducesTo_S32768x1_S1_d0 : S32768x1.ReducesTo [0] S1
  bcast_S_S1 : S_.BroadcastsInDim S1 (![] : Fin 0 → Fin S1.rank)
  bcast_S_S1x1 : S_.BroadcastsInDim S1x1 (![] : Fin 0 → Fin S1x1.rank)
  bcast_S_S32768x1 : S_.BroadcastsInDim S32768x1 (![] : Fin 0 → Fin S32768x1.rank)
  dot_S655360x2_S2x64_S655360x64_1_0_0_1_n_n_wf : DotDims.WF S655360x2 S2x64 S655360x64 [1] [0] [0] [1] [] []
  dot_S32768x64_S64x256_S32768x256_1_0_0_1_n_n_wf : DotDims.WF S32768x64 S64x256 S32768x256 [1] [0] [0] [1] [] []
  dot_S32768x1_S1x1024_S32768x1024_1_0_0_1_n_n_wf : DotDims.WF S32768x1 S1x1024 S32768x1024 [1] [0] [0] [1] [] []
  dot_S32768x1024_S1024x1_S32768x1_1_0_0_1_n_n_wf : DotDims.WF S32768x1024 S1024x1 S32768x1 [1] [0] [0] [1] [] []
  main_while0_ok : main_while0_count.OK

variable [Facts₀]

def dot_S655360x2_S2x64_S655360x64_1_0_0_1_n_n : DotDims S655360x2 S2x64 S655360x64 where
  lhsContracting := [1]
  rhsContracting := [0]
  lhsNonContracting := [0]
  rhsNonContracting := [1]
  lhsBatch := []
  rhsBatch := []
  wf := dot_S655360x2_S2x64_S655360x64_1_0_0_1_n_n_wf
def dot_S32768x64_S64x256_S32768x256_1_0_0_1_n_n : DotDims S32768x64 S64x256 S32768x256 where
  lhsContracting := [1]
  rhsContracting := [0]
  lhsNonContracting := [0]
  rhsNonContracting := [1]
  lhsBatch := []
  rhsBatch := []
  wf := dot_S32768x64_S64x256_S32768x256_1_0_0_1_n_n_wf
def dot_S32768x1_S1x1024_S32768x1024_1_0_0_1_n_n : DotDims S32768x1 S1x1024 S32768x1024 where
  lhsContracting := [1]
  rhsContracting := [0]
  lhsNonContracting := [0]
  rhsNonContracting := [1]
  lhsBatch := []
  rhsBatch := []
  wf := dot_S32768x1_S1x1024_S32768x1024_1_0_0_1_n_n_wf
def dot_S32768x1024_S1024x1_S32768x1_1_0_0_1_n_n : DotDims S32768x1024 S1024x1 S32768x1 where
  lhsContracting := [1]
  rhsContracting := [0]
  lhsNonContracting := [0]
  rhsNonContracting := [1]
  lhsBatch := []
  rhsBatch := []
  wf := dot_S32768x1024_S1024x1_S32768x1_1_0_0_1_n_n_wf

class Facts : Prop extends Facts₀ where

variable [Facts]
-- ==== Proof.RefFrame.lean ====
/-
  The reference program's frame: its run, read back as a list of host operations with one counted loop,
  terminates from every memory and leaves each argument array as it was; the results are dropped here.
-/
import proofs.«142481_j1838246003412_2_alg».proof.Defs
import proofs.«142481_j1838246003412_2_alg».proof.Proof.RefRun
import proofs.«142481_j1838246003412_2_alg».proof.Proof.Gen.Pre_finite_inputs

noncomputable section

open Idealize.ShloMosaic Idealize.ShloMosaic.TcCoe Idealize.SL.Sem

namespace Cert.Proof.RefFrame

/-- Every weakly fair execution of the reference ends, without a fault, with the seventeen argument arrays unchanged. -/
theorem frame_ri : Cert.frame_ReferenceIdeal := fun m ρ _ =>
  (θ_run Cert.ReferenceIdeal.defs _ _).mono (fun _ h c => (h c).2.2)
    (Cert.ReferenceIdeal.Value.run (F := Ideal) m ρ)

end Cert.Proof.RefFrame

end
-- ==== Proof.KernelRun.lean ====
/-
  The idealized kernel's run with its two results named.

  @main is four pipelined regions between stretches of host operations. The generated frame follows the contents of
  every unscoped buffer from one segment boundary to the next; after the last region they are `Gen.W8 m ρ c`.
  The frame only keeps, of that, that the seventeen arguments are as launched. Here the same run is read once more
  and the two result buffers are kept as well: the scores `main_v46` and the rewards `main_v11` end at `W8`'s
  contents of them. Everything the value proof says about the kernel is then a statement about `W8`.
-/
import proofs.«142481_j1838246003412_2_alg».proof.Defs
import proofs.«142481_j1838246003412_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates without a fault; the scores and the rewards end at
    the last boundary's contents `W8`, and the arguments are unchanged. -/
theorem run : θ_run defs (onTc (τ := τ) (main (F := F))) ⟨m, fun _ => 0, ρ⟩ (fun r => ∀ c : Dev nD,
      r.2.mem ((c.tc : Thread nD τ).loc main_v46) = W8 m ρ c (Proc.devRef .tc main_v46)
      ∧ r.2.mem ((c.tc : Thread nD τ).loc main_v11) = W8 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v46 (by decide)),
       h c _ (mem_uc main_v11 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c)⟩)

end Cert.KernelIdeal.RunValue

end
-- ==== Proof.RefStages.lean ====
/-
  What the reference computes, stage by stage.

  The reference's run ends with each result at one long term of the argument arrays. Here the same operations are
  written as a short chain of named stages, so that each can be read at an index on its own:

  * `positions`: the trajectories regrouped as scene × time step × pedestrian × coordinate;
  * `offsets`, `distances`: for every scene and time step, the Euclidean distance between every two pedestrians;
  * `maskedDistances`: a distance of exactly zero (a pedestrian against itself) replaced by the threshold 1/4;
  * `nearest`: the smallest masked distance over the FIRST pedestrian axis and then over time;
  * `rewards`: one minus the indicator "nearest < 1/4", as a column;
  * `hidden1` / `relu1`: the first linear layer (a product with a one-column matrix plus a bias), normalised over
    the batch by its mean and its centred variance, scaled, shifted and clipped below at zero;
  * `hidden2` / `scores`: the second linear layer and the same normalisation over a single feature.

  `out_v30_eq` and `out_v80_eq` say that the two results of the reference's run are `rewards` and `scores` of the
  arguments: both sides are the same operations in the same order.
-/
import proofs.«142481_j1838246003412_2_alg».proof.Proof.RefRun

set_option maxRecDepth 16384

noncomputable section

namespace Cert.ReferenceIdeal.Stages

open Idealize.ShloMosaic Idealize.ShloMosaic.TcCoe Cert.ReferenceIdeal Cert.ReferenceIdeal.Gen

variable {F : FTy → Type} [FloatOps F]

/-- Scene × time step × pedestrian × coordinate. -/
def positions (traj : FVec F S20x32768x2 .f32) : FVec F S512x20x64x2 .f32 :=
  transpose S512x20x64x2 [0, 2, 1, 3]
    (shapeCast _ (transpose S32768x20x2 [1, 0, 2] traj transposes_S20x32768x2_S32768x20x2_1_0_2) shapeCasts_S32768x20x2_S512x64x20x2)
    transposes_S512x64x20x2_S512x20x64x2_0_2_1_3

/-- Pedestrian `i`'s position minus pedestrian `j`'s, coordinate by coordinate. -/
def offsets (traj : FVec F S20x32768x2 .f32) : FVec F S512x20x64x64x2 .f32 :=
  subf
    (broadcastInDim S512x20x64x64x2 ![0, 1, 2, 3, 4] bcast_S512x20x64x1x2_S512x20x64x64x2_0_1_2_3_4
      (broadcastInDim S512x20x64x1x2 ![0, 1, 2, 4] bcast_S512x20x64x2_S512x20x64x1x2_0_1_2_4 (positions traj)))
    (broadcastInDim S512x20x64x64x2 ![0, 1, 2, 3, 4] bcast_S512x20x1x64x2_S512x20x64x64x2_0_1_2_3_4
      (broadcastInDim S512x20x1x64x2 ![0, 1, 3, 4] bcast_S512x20x64x2_S512x20x1x64x2_0_1_3_4 (positions traj)))

/-- The square root of the sum of the squared offsets over the two coordinates. -/
def distances (traj : FVec F S20x32768x2 .f32) : FVec F S512x20x64x64 .f32 :=
  Host.sqrt (Host.reduceAdd (mulf (offsets traj) (offsets traj)) (constant S_ .f32 0x00000000#32)
    reducesTo_S512x20x64x64x2_S512x20x64x64_d4 h_S_)

/-- A zero distance reads as the threshold 1/4. -/
def maskedDistances (traj : FVec F S20x32768x2 .f32) : FVec F S512x20x64x64 .f32 :=
  select
    (cmpf .oeq (distances traj) (broadcastInDim S512x20x64x64 ![] bcast_S_S512x20x64x64 (constant S_ .f32 0x00000000#32)))
    (broadcastInDim S512x20x64x64 ![] bcast_S_S512x20x64x64 (id (constant S_ .f32 0x3E800000#32)))
    (distances traj)

/-- The minimum over the first pedestrian axis, then over the time steps. -/
def nearest (traj : FVec F S20x32768x2 .f32) : FVec F S512x64 .f32 :=
  Host.reduce FloatOps.minimumf
    (Host.reduce FloatOps.minimumf (maskedDistances traj) (constant S_ .f32 0x7F800000#32) reducesTo_S512x20x64x64_S512x20x64_d2 h_S_)
    (constant S_ .f32 0x7F800000#32) reducesTo_S512x20x64_S512x64_d1 h_S_

/-- One minus the collision flag, as a column over the batch. -/
def rewards (traj : FVec F S20x32768x2 .f32) : FVec F S32768x1 .f32 :=
  broadcastInDim S32768x1 ![0] bcast_S32768_S32768x1_0
    (subf (broadcastInDim S32768 ![] bcast_S_S32768 (constant S_ .f32 0x3F800000#32))
      (shapeCast _ (uitofp .f32 (cmpf .olt (nearest traj) (broadcastInDim S512x64 ![] bcast_S_S512x64 (constant S_ .f32 0x3E800000#32))))
        shapeCasts_S512x64_S32768))

/-! ## The first layer -/

/-- A per-feature row spread over the batch. -/
abbrev overBatch1 (x : FVec F S1024 .f32) : FVec F S32768x1024 .f32 :=
  broadcastInDim S32768x1024 ![0, 1] bcast_S1x1024_S32768x1024_0_1 (broadcastInDim S1x1024 ![1] bcast_S1024_S1x1024_1 x)

def hidden1 (r : FVec F S32768x1 .f32) (w : FVec F S1024x1 .f32) (b : FVec F S1024 .f32) : FVec F S32768x1024 .f32 :=
  addf (Host.dotGeneral dot_S32768x1_S1x1024_S32768x1024_1_0_0_1_n_n none r (transpose S1x1024 [1, 0] w transposes_S1024x1_S1x1024_1_0))
    (overBatch1 b)

def mean1 (h : FVec F S32768x1024 .f32) : FVec F S1024 .f32 :=
  Host.divf (Host.reduceAdd h (constant S_ .f32 0x00000000#32) reducesTo_S32768x1024_S1024_d0 h_S_)
    (broadcastInDim S1024 ![] bcast_S_S1024 (constant S_ .f32 0x47000000#32))

def centred1 (h : FVec F S32768x1024 .f32) : FVec F S32768x1024 .f32 :=
  subf h (broadcastInDim S32768x1024 ![0, 1] bcast_S1x1024_S32768x1024_0_1
    (Host.divf (broadcastInDim S1x1024 ![1] bcast_S1024_S1x1024_1 (Host.reduceAdd h (constant S_ .f32 0x00000000#32) reducesTo_S32768x1024_S1024_d0 h_S_))
      (broadcastInDim S1x1024 ![] bcast_S_S1x1024 (constant S_ .f32 0x47000000#32))))

/-- The centred variance: the sum of the squared deviations over the batch size minus the (zero) correction; the
    guard "batch size minus correction is positive" always holds. -/
def var1 (h : FVec F S32768x1024 .f32) : FVec F S1024 .f32 :=
  select
    (broadcastInDim S1024 ![] bcast_S_S1024
      (cmpf .ogt (subf (constant (F := F) S_ .f32 0x47000000#32) (sitofp .f32 (constantI S_ 32 0#32))) (constant S_ .f32 0x00000000#32)))
    (Host.divf (Host.reduceAdd (mulf (centred1 h) (centred1 h)) (constant S_ .f32 0x00000000#32) reducesTo_S32768x1024_S1024_d0 h_S_)
      (broadcastInDim S1024 ![] bcast_S_S1024 (subf (constant S_ .f32 0x47000000#32) (sitofp .f32 (constantI S_ 32 0#32)))))
    (broadcastInDim S1024 ![] bcast_S_S1024 (id (constant S_ .f32 0x7FC00000#32)))

def relu1 (h : FVec F S32768x1024 .f32) (g be : FVec F S1024 .f32) : FVec F S32768x1024 .f32 :=
  maximumf
    (addf
      (mulf (mulf (overBatch1 g) (subf h (overBatch1 (mean1 h))))
        (overBatch1 (Host.rsqrt (addf (var1 h) (broadcastInDim S1024 ![] bcast_S_S1024 (constant S_ .f32 0x3727C5AC#32))))))
      (overBatch1 be))
    (broadcastInDim S32768x1024 ![] bcast_S_S32768x1024 (constant S_ .f32 0x00000000#32))

/-! ## The second layer -/

abbrev overBatch2 (x : FVec F S1 .f32) : FVec F S32768x1 .f32 :=
  broadcastInDim S32768x1 ![0, 1] bcast_S1x1_S32768x1_0_1 (broadcastInDim S1x1 ![1] bcast_S1_S1x1_1 x)

def hidden2 (y : FVec F S32768x1024 .f32) (w : FVec F S1x1024 .f32) (b : FVec F S1 .f32) : FVec F S32768x1 .f32 :=
  addf (Host.dotGeneral dot_S32768x1024_S1024x1_S32768x1_1_0_0_1_n_n none y (transpose S1024x1 [1, 0] w transposes_S1x1024_S1024x1_1_0))
    (overBatch2 b)

def mean2 (h : FVec F S32768x1 .f32) : FVec F S1 .f32 :=
  Host.divf (Host.reduceAdd h (constant S_ .f32 0x00000000#32) reducesTo_S32768x1_S1_d0 h_S_)
    (broadcastInDim S1 ![] bcast_S_S1 (constant S_ .f32 0x47000000#32))

def centred2 (h : FVec F S32768x1 .f32) : FVec F S32768x1 .f32 :=
  subf h (broadcastInDim S32768x1 ![0, 1] bcast_S1x1_S32768x1_0_1
    (Host.divf (broadcastInDim S1x1 ![1] bcast_S1_S1x1_1 (Host.reduceAdd h (constant S_ .f32 0x00000000#32) reducesTo_S32768x1_S1_d0 h_S_))
      (broadcastInDim S1x1 ![] bcast_S_S1x1 (constant S_ .f32 0x47000000#32))))

def var2 (h : FVec F S32768x1 .f32) : FVec F S1 .f32 :=
  select
    (broadcastInDim S1 ![] bcast_S_S1
      (cmpf .ogt (subf (constant (F := F) S_ .f32 0x47000000#32) (sitofp .f32 (constantI S_ 32 0#32))) (constant S_ .f32 0x00000000#32)))
    (Host.divf (Host.reduceAdd (mulf (centred2 h) (centred2 h)) (constant S_ .f32 0x00000000#32) reducesTo_S32768x1_S1_d0 h_S_)
      (broadcastInDim S1 ![] bcast_S_S1 (subf (constant S_ .f32 0x47000000#32) (sitofp .f32 (constantI S_ 32 0#32)))))
    (broadcastInDim S1 ![] bcast_S_S1 (id (constant S_ .f32 0x7FC00000#32)))

def relu2 (h : FVec F S32768x1 .f32) (g be : FVec F S1 .f32) : FVec F S32768x1 .f32 :=
  maximumf
    (addf
      (mulf (mulf (overBatch2 g) (subf h (overBatch2 (mean2 h))))
        (overBatch2 (Host.rsqrt (addf (var2 h) (broadcastInDim S1 ![] bcast_S_S1 (constant S_ .f32 0x3727C5AC#32))))))
      (overBatch2 be))
    (broadcastInDim S32768x1 ![] bcast_S_S32768x1 (constant S_ .f32 0x00000000#32))

/-- The classifier on a reward column. -/
def scores (r : FVec F S32768x1 .f32) (w1 : FVec F S1024x1 .f32) (b1 g1 be1 : FVec F S1024 .f32)
    (w2 : FVec F S1x1024 .f32) (b2 g2 be2 : FVec F S1 .f32) : FVec F S32768x1 .f32 :=
  relu2 (hidden2 (relu1 (hidden1 r w1 b1) g1 be1) w2 b2) g2 be2

/-! ## The run's two results are these stages -/

theorem out_v30_eq (V0 : Valuation τ sig (Elt F)) :
    Value.out_main_v30 V0 = rewards (V0 (Proc.devRef .tc main_arg0)) := rfl

theorem out_v80_eq (V0 : Valuation τ sig (Elt F)) :
    Value.out_main_v80 V0 =
      scores (rewards (V0 (Proc.devRef .tc main_arg0))) (V0 (Proc.devRef .tc main_arg9)) (V0 (Proc.devRef .tc main_arg10))
        (V0 (Proc.devRef .tc main_arg11)) (V0 (Proc.devRef .tc main_arg12)) (V0 (Proc.devRef .tc main_arg13))
        (V0 (Proc.devRef .tc main_arg14)) (V0 (Proc.devRef .tc main_arg15)) (V0 (Proc.devRef .tc main_arg16)) := rfl

end Cert.ReferenceIdeal.Stages

end
-- ==== Proof.RewardsChain.lean ====
/-
  The rewards buffer, followed back through the run.

  The rewards column is made by the host operations right after the collision region: the region's flag array,
  flattened, subtracted from one, and stood up as a column. Nothing later writes it: the first two classifier regions
  only read it through an input window, the last region and the later host operations do not touch it. So at the end of
  the run it still holds that column of the collision region's output array.
-/
import proofs.«142481_j1838246003412_2_alg».proof.Proof.KernelRun

set_option maxRecDepth 16384

noncomputable section

namespace Cert.KernelIdeal.RewardsChain

open Idealize.ShloMosaic Idealize.ShloMosaic.TcCoe Idealize.ShloMosaic.Tactic Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-- No operation of a stretch writes the buffer: every write target is another reference. -/
macro "host_keeps" ops:ident : tactic => `(tactic|
  (refine StableHlo.after_of_forall_not_mem _ _ (List.forall_iff_forall_mem.mp ?_)
   simp only [$ops:ident, List.flatten_cons, List.flatten_nil, List.append_nil, List.cons_append,
     List.nil_append, List.Forall, StableHlo.nullary_writes, StableHlo.unary_writes, StableHlo.binary_writes,
     StableHlo.ternary_writes, StableHlo.quaternary_writes, StableHlo.reshape_writes, StableHlo.binaryIndexed_writes,
     Finset.mem_singleton]
   repeat' apply And.intro
   all_goals exact StableHlo.devRef_ne_of_ne (by decide)))

/-- The rewards buffer at the end of the run is what the stretch after the collision region left in it. -/
theorem W8_rewards (c : Dev nD) : W8 m ρ c (Proc.devRef .tc main_v11) = W3 m ρ c (Proc.devRef .tc main_v11) :=
  calc W8 m ρ c (Proc.devRef .tc main_v11)
    _ = W7 m ρ c (Proc.devRef .tc main_v11) := W8_of_ne m ρ c main_v11 (by decide)
    _ = W6 m ρ c (Proc.devRef .tc main_v11) := by host_keeps hostOps3
    _ = (dat2 (V5 m ρ) c).arrAt 0 cfg2.N := W6_arr m ρ c 0
    _ = (dat2 (V5 m ρ) c).A 0 := (dat2 (V5 m ρ) c).arrAt_in 0 rfl cfg2.N
    _ = W5 m ρ c (Proc.devRef .tc main_v11) := A_eq2 (V5 m ρ) c 0
    _ = W4 m ρ c (Proc.devRef .tc main_v11) := by host_keeps hostOps2
    _ = (dat1 (V3 m ρ) c).arrAt 0 cfg1.N := W4_arr m ρ c 0
    _ = (dat1 (V3 m ρ) c).A 0 := (dat1 (V3 m ρ) c).arrAt_in 0 rfl cfg1.N
    _ = W3 m ρ c (Proc.devRef .tc main_v11) := A_eq1 (V3 m ρ) c 0

/-- That stretch makes the rewards from the collision region's output array: flatten, subtract from one, stand up. -/
theorem W3_rewards (c : Dev nD) :
    W3 m ρ c (Proc.devRef .tc main_v11)
      = broadcastInDim S32768x1 ![0] bcast_S32768_S32768x1_0
          (subf (broadcastInDim S32768 ![] bcast_S_S32768 (constant (F := F) S_ .f32 0x3F800000#32))
            (shapeCast _ ((dat0 (V1 m ρ) c).arrAt 2 cfg0.N) shapeCasts_S512x64_S32768)) := by
  rw [← W2_arr m ρ c 2]
  show StableHlo.after hostOps1 (W2 m ρ c) (Proc.devRef .tc main_v11) = _
  after_results
  rfl

end Cert.KernelIdeal.RewardsChain

end
-- ==== Proof.LibMinReduce.lean ====
/-
  Minimum reductions on the extended reals, compared with a threshold.

  A reduction by `min` over one axis, started from +∞, is below a threshold `q` exactly when one of the reduced
  entries is: the smallest entry is below `q` iff some entry is. This holds for a kernel's vector reduction and for
  the host's one-operand reduce alike, and it lets two nested minimum reductions compared with `q` be read as
  "there is a pair of coordinates whose entry is below `q`", whatever the order of the two axes.
-/
import Idealize.ShloMosaic.PureOps.Ideal.Laws

namespace Idealize.ShloMosaic.Ideal

variable {φ : FTy}

/-- A vector `minimumf` reduction over one axis is the fold of `min`, from the accumulator's value, over that axis's
    coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The fold of `min` from a value not below `q` is below `q` iff some entry is. -/
theorem fold_min_lt_iff {n : Nat} (f : Fin n → EReal) (b q : EReal) (hb : ¬ b < q) :
    (Finset.univ : Finset (Fin n)).fold min b f < q ↔ ∃ k, f k < q := by
  rw [Finset.fold_min_lt]
  constructor
  · rintro (h | ⟨k, -, hk⟩)
    · exact absurd h hb
    · exact ⟨k, hk⟩
  · rintro ⟨k, hk⟩
    exact Or.inr ⟨k, Finset.mem_univ _, hk⟩

/-- The f32 pattern of +∞ denotes the top element. -/
theorem ofBits_f32_inf : Ideal.ofBits .f32 0x7F800000#32 = ⊤ := by
  simp [Ideal.ofBits, Ideal.ieee]

/-- A vector minimum over one axis from +∞ is below `q` iff an entry along the axis is. -/
theorem multiReduction_minimumf_lt_iff {s t : Shape} {a : Fin s.rank} (src : FVec Ideal s .f32)
    (h : s.Reduces [a] t) (hφ : FKind.Formats .f32) (hacc : (0x7F800000#32 : BitVec 32) = FKind.minimumf.neutral .f32 hφ)
    (j : t.Idx) (q : EReal) :
    (multiReduction .minimumf [a] t src 0x7F800000#32 h hφ hacc j : EReal) < q ↔ ∃ k : Fin (s.size a), (src (h.lift j k) : EReal) < q := by
  rw [multiReduction_minimumf_single]
  exact fold_min_lt_iff _ _ q (by rw [show FloatOps.ofBits (F := Ideal) .f32 0x7F800000#32 = (⊤ : EReal) from ofBits_f32_inf]; exact not_top_lt)

/-- The same, with the accumulator hypothesis spelt as a printed program carries it (the pattern equal to itself). -/
theorem multiReduction_minimumf_lt_iff' {s t : Shape} {a : Fin s.rank} (src : FVec Ideal s .f32)
    (h : s.Reduces [a] t) (hφ : FKind.Formats .f32) (hacc : (0x7F800000#32 : BitVec 32) = 0x7F800000#32)
    (j : t.Idx) (q : EReal) :
    (multiReduction .minimumf [a] t src 0x7F800000#32 h hφ hacc j : EReal) < q ↔ ∃ k : Fin (s.size a), (src (h.lift j k) : EReal) < q :=
  multiReduction_minimumf_lt_iff src h hφ hacc j q

/-- The host's minimum reduce over one axis from +∞ is below `q` iff an entry along the axis is. -/
theorem hostReduce_minimumf_lt_iff {s t u : Shape} {a : Fin s.rank} (x : s.Idx → EReal) (init : u.Idx → EReal)
    (h' : s.ReducesTo [a] t) (h : s.Reduces [a] t) (hu : 0 < u.numel) (hinit : init (Shape.Idx.first hu) = ⊤)
    (j : t.Idx) (q : EReal) :
    Host.reduce (FloatOps.minimumf (F := Ideal) (φ := .f32)) x init h' hu j < q ↔ ∃ k : Fin (s.size a), x (h.lift j k) < q := by
  rw [Host.reduce_eq_fold_single (FloatOps.minimumf (F := Ideal) (φ := .f32)) x init h' h hu j, hinit]
  exact fold_min_lt_iff _ _ q not_top_lt

end Idealize.ShloMosaic.Ideal
-- ==== Proof.LibERealSquare.lean ====
/-
  The square of a difference on the extended reals does not depend on the order of the two numbers, infinite ones
  included: where the difference is not negated by swapping (∞ − ∞ is −∞ both ways) the two squares are the same term.
-/
import Idealize.ShloMosaic.PureOps.Ideal.Laws

namespace Idealize.ShloMosaic.Ideal

/-- `(a − b)² = (b − a)²` for all extended reals. -/
theorem sub_mul_self_comm (a b : EReal) : (a - b) * (a - b) = (b - a) * (b - a) := by
  induction a using EReal.rec <;> induction b using EReal.rec
  all_goals first
    | rfl
    | (rw [← EReal.coe_sub, ← EReal.coe_sub, ← EReal.coe_mul, ← EReal.coe_mul]; congr 1; ring)
    | simp

end Idealize.ShloMosaic.Ideal
-- ==== Proof.CollisionBlock.lean ====
/-
  The collision kernel on one block of scenes.

  A block holds eight scenes: the x- and the y-coordinates of 64 pedestrians at 20 time steps. The body forms, for
  every scene and time step, the distance between every two pedestrians, reads a distance of exactly zero as the
  threshold, takes the minimum over the second pedestrian and then over the time steps, and stores 1 where that minimum
  is below the threshold and 0 elsewhere.

  A minimum started from +∞ is below the threshold iff one of its entries is, so the stored value is the indicator of
  `near`: some time step and some other pedestrian at which the masked distance is below the threshold.
-/
import proofs.«142481_j1838246003412_2_alg».proof.Proof.Gen.KernelIdeal.Skeleton
import proofs.«142481_j1838246003412_2_alg».proof.Proof.LibMinReduce
import proofs.«142481_j1838246003412_2_alg».proof.Proof.LibERealSquare
import Idealize.ShloMosaic.Lib.ValueIdx
import Idealize.ShloMosaic.Lib.Pipeline.Value

set_option maxRecDepth 16384

noncomputable section

namespace Cert.KernelIdeal.Collision

open Idealize.ShloMosaic Idealize.ShloMosaic.ValueIdx Cert.KernelIdeal Cert.KernelIdeal.Gen

/-- The threshold 1/4 and the zero the distances are compared with, as the programs spell them. -/
abbrev Q : EReal := Ideal.ofBits .f32 0x3E800000#32
abbrev Z : EReal := Ideal.ofBits .f32 0x00000000#32

/-- The distance between pedestrians `i` and `j` of scene `n` at time step `s`, from the two coordinate arrays. -/
def pairDist {N : Nat} (X Y : (⟨3, ![N, 20, 64]⟩ : Shape).Idx → EReal) (n : Fin N) (s : Fin 20) (i j : Fin 64) : EReal :=
  Ideal.sqrt ((X (ix3 n s i) - X (ix3 n s j)) * (X (ix3 n s i) - X (ix3 n s j))
    + (Y (ix3 n s i) - Y (ix3 n s j)) * (Y (ix3 n s i) - Y (ix3 n s j)))

/-- A distance of exactly zero reads as the threshold. -/
def masked (d : EReal) : EReal := Scalar.select (Ideal.cmp .oeq d Z) Q d

/-- Pedestrian `p` of scene `n` comes close to another one at some time step. -/
def near {N : Nat} (X Y : (⟨3, ![N, 20, 64]⟩ : Shape).Idx → EReal) (n : Fin N) (p : Fin 64) : Prop :=
  ∃ (s : Fin 20) (j : Fin 64), masked (pairDist X Y n s p j) < Q

/-- The distance is symmetric in the two pedestrians (squares of differences are, on all extended reals). -/
theorem pairDist_comm {N : Nat} (X Y : (⟨3, ![N, 20, 64]⟩ : Shape).Idx → EReal) (n : Fin N) (s : Fin 20) (i j : Fin 64) :
    pairDist X Y n s i j = pairDist X Y n s j i := by
  unfold pairDist
  rw [Ideal.sub_mul_self_comm (X (ix3 n s i)) (X (ix3 n s j)), Ideal.sub_mul_self_comm (Y (ix3 n s i)) (Y (ix3 n s j))]

/-! ## The body's arithmetic, piece by piece -/

/-- Coordinate differences between every two pedestrians of a scene at a time step. -/
def diffs (x : Vec Ideal S8x20x64 .f32) : FVec Ideal S8x20x64x64 .f32 :=
  subf
    (broadcastTo S8x20x64x64 (shapeCast S8x20x64x1 (shapeCast S8x20x64 x shapeCasts_S8x20x64_S8x20x64) shapeCasts_S8x20x64_S8x20x64x1)
      broadcasts_S8x20x64x1_S8x20x64x64)
    (broadcastTo S8x20x64x64 (shapeCast S8x20x1x64 (shapeCast S8x20x64 x shapeCasts_S8x20x64_S8x20x64) shapeCasts_S8x20x64_S8x20x1x64)
      broadcasts_S8x20x1x64_S8x20x64x64)

def dists (x0 x1 : Vec Ideal S8x20x64 .f32) : FVec Ideal S8x20x64x64 .f32 :=
  sqrt (addf (mulf (diffs x0) (diffs x0)) (mulf (diffs x1) (diffs x1)))

def maskedDists (x0 x1 : Vec Ideal S8x20x64 .f32) : FVec Ideal S8x20x64x64 .f32 :=
  select (cmpf .oeq (dists x0 x1) (broadcast S8x20x64x64 (FloatOps.ofBits .f32 0x00000000#32)))
    (broadcast S8x20x64x64 (FloatOps.ofBits .f32 0x3E800000#32)) (dists x0 x1)

def overOthers (x0 x1 : Vec Ideal S8x20x64 .f32) : FVec Ideal S8x20x64 .f32 :=
  multiReduction .minimumf [3] S8x20x64 (maskedDists x0 x1) 0x7F800000#32 reduces_S8x20x64x64_S8x20x64 (.inl rfl) rfl

def overTime (x0 x1 : Vec Ideal S8x20x64 .f32) : FVec Ideal S8x64 .f32 :=
  multiReduction .minimumf [1] S8x64 (overOthers x0 x1) 0x7F800000#32 reduces_S8x20x64_S8x64 (.inl rfl) rfl

/-- The body's stored value is these pieces composed. -/
theorem pay_eq (x0 x1 : Vec Ideal S8x20x64 .f32) :
    k0_pay1 x0 x1
      = sitofp .f32 (extui 32 (cmpf .olt (overTime x0 x1) (broadcast S8x64 (FloatOps.ofBits .f32 0x3E800000#32))) natLt_1_32) := rfl

theorem diffs_apply (x : Vec Ideal S8x20x64 .f32) (g : Fin 8) (s : Fin 20) (i j : Fin 64) :
    diffs x (ix4 g s i j) = (x (ix3 g s i) : EReal) - x (ix3 g s j) := by
  unfold diffs
  rw [subf_apply, shapeCast_self]
  congr 1
  · rw [broadcastTo_apply _ _ (ix4 g s i j) (ix4 g s i (0 : Fin 1)) (fun a => by
      match a with
      | ⟨0, _⟩ => rfl
      | ⟨1, _⟩ => rfl
      | ⟨2, _⟩ => rfl
      | ⟨3, _⟩ => rfl)]
    exact shapeCast_apply x _ (ix4 g s i (0 : Fin 1)) (ix3 g s i) (by
      simp only [Shape.rowMajor_val_three, Shape.rowMajor_val_four]
      show (g.val * 20 + s.val) * 64 + i.val = ((g.val * 20 + s.val) * 64 + i.val) * 1 + 0
      omega)
  · rw [broadcastTo_apply _ _ (ix4 g s i j) (ix4 g s (0 : Fin 1) j) (fun a => by
      match a with
      | ⟨0, _⟩ => rfl
      | ⟨1, _⟩ => rfl
      | ⟨2, _⟩ => rfl
      | ⟨3, _⟩ => rfl)]
    exact shapeCast_apply x _ (ix4 g s (0 : Fin 1) j) (ix3 g s j) (by
      simp only [Shape.rowMajor_val_three, Shape.rowMajor_val_four]
      show (g.val * 20 + s.val) * 64 + j.val = ((g.val * 20 + s.val) * 1 + 0) * 64 + j.val
      omega)

theorem maskedDists_apply (x0 x1 : Vec Ideal S8x20x64 .f32) (g : Fin 8) (s : Fin 20) (i j : Fin 64) :
    maskedDists x0 x1 (ix4 g s i j) = masked (pairDist (N := 8) x0 x1 g s i j) := by
  have hd : dists x0 x1 (ix4 g s i j) = pairDist (N := 8) x0 x1 g s i j := by
    unfold dists pairDist
    show Ideal.sqrt (diffs x0 (ix4 g s i j) * diffs x0 (ix4 g s i j) + diffs x1 (ix4 g s i j) * diffs x1 (ix4 g s i j)) = _
    rw [diffs_apply, diffs_apply]
  unfold maskedDists masked
  rw [select_apply, cmpf_apply, hd]
  rfl

/-- The two nested minima are below the threshold iff some entry is. -/
theorem overTime_lt_iff (x0 x1 : Vec Ideal S8x20x64 .f32) (g : Fin 8) (p : Fin 64) :
    (overTime x0 x1 (ix2 g p) : EReal) < Q ↔ near (N := 8) x0 x1 g p := by
  have e : ∀ s : Fin 20, reduces_S8x20x64_S8x64.lift (ix2 g p) s = ix3 g s p := fun s =>
    funext fun a => Fin.ext (by match a with | ⟨0, _⟩ => rfl | ⟨1, _⟩ => rfl | ⟨2, _⟩ => rfl)
  have e' : ∀ (s : Fin 20) (j : Fin 64), reduces_S8x20x64x64_S8x20x64.lift (ix3 g s p) j = ix4 g s p j := fun s j =>
    funext fun a => Fin.ext (by match a with | ⟨0, _⟩ => rfl | ⟨1, _⟩ => rfl | ⟨2, _⟩ => rfl | ⟨3, _⟩ => rfl)
  have h1 : (overTime x0 x1 (ix2 g p) : EReal) < Q ↔ ∃ s : Fin 20, (overOthers x0 x1 (ix3 g s p) : EReal) < Q :=
    (Ideal.multiReduction_minimumf_lt_iff' (overOthers x0 x1) reduces_S8x20x64_S8x64 (.inl rfl) rfl (ix2 g p) Q).trans
      (exists_congr fun (s : Fin 20) => by rw [e s])
  have h2 : ∀ s : Fin 20, (overOthers x0 x1 (ix3 g s p) : EReal) < Q ↔ ∃ j : Fin 64, masked (pairDist (N := 8) x0 x1 g s p j) < Q :=
    fun s => (Ideal.multiReduction_minimumf_lt_iff' (maskedDists x0 x1) reduces_S8x20x64x64_S8x20x64 (.inl rfl) rfl (ix3 g s p) Q).trans
      (exists_congr fun (j : Fin 64) => by rw [e' s j, maskedDists_apply])
  exact h1.trans (exists_congr h2)

open Classical in
/-- WHAT THE BODY STORES: 1 where the pedestrian comes close to another one, 0 elsewhere. -/
theorem pay_apply (x0 x1 : Vec Ideal S8x20x64 .f32) (g : Fin 8) (p : Fin 64) :
    (k0_pay1 x0 x1 (ix2 g p) : EReal) = if near (N := 8) x0 x1 g p then 1 else 0 := by
  rw [pay_eq]
  show (((BitVec.setWidth 32 (Ideal.cmp .olt (overTime x0 x1 (ix2 g p)) Q)).toInt : ℝ) : EReal) = _
  by_cases h : near (N := 8) x0 x1 g p
  · rw [if_pos h]
    have hlt := (overTime_lt_iff x0 x1 g p).2 h
    have : Ideal.cmp .olt (overTime x0 x1 (ix2 g p)) Q = 1#1 := by
      unfold Ideal.cmp; simp [hlt]
    rw [this]; norm_num
  · rw [if_neg h]
    have hlt : ¬ (overTime x0 x1 (ix2 g p) : EReal) < Q := fun hh => h ((overTime_lt_iff x0 x1 g p).1 hh)
    have : Ideal.cmp .olt (overTime x0 x1 (ix2 g p)) Q = 0#1 := by
      unfold Ideal.cmp; simp [hlt]
    rw [this]; norm_num

end Cert.KernelIdeal.Collision

end
-- ==== Proof.CollisionArray.lean ====
/-
  The collision region's output array.

  Grid point `t` of 64 stages scenes 8t … 8t+7 of the two coordinate arrays and writes back rows 8t … 8t+7 of the flag
  array. What it writes is the indicator of `near` on its block, and `near` on a block is `near` on the whole arrays at
  the block's scenes. The 64 blocks tile the 512 rows, so after the region the output array is the indicator of `near`
  on the whole coordinate arrays as the region found them.
-/
import proofs.«142481_j1838246003412_2_alg».proof.Proof.CollisionBlock
import proofs.«142481_j1838246003412_2_alg».proof.Proof.Gen.KernelIdeal.Frame

set_option maxRecDepth 16384

noncomputable section

namespace Cert.KernelIdeal.Collision

open Idealize.ShloMosaic Idealize.ShloMosaic.TcCoe Idealize.ShloMosaic.ValueIdx Idealize.SL.Sem
open Idealize.ShloMosaic.Pipeline (Dat Cfg Window)
open Cert.KernelIdeal Cert.KernelIdeal.Gen

open Classical in
/-- The flag array of two coordinate arrays: 1 where the pedestrian comes close to another one. -/
def flag {N : Nat} (X Y : (⟨3, ![N, 20, 64]⟩ : Shape).Idx → EReal) : (⟨2, ![N, 64]⟩ : Shape).Idx → EReal :=
  fun i => if near X Y (i 0) (i 1) then 1 else 0

/-- `near` only looks at one scene: two pairs of arrays that agree on a scene agree on it. -/
theorem near_congr {N M : Nat} (x0 x1 : (⟨3, ![N, 20, 64]⟩ : Shape).Idx → EReal) (X Y : (⟨3, ![M, 20, 64]⟩ : Shape).Idx → EReal)
    (g : Fin N) (n : Fin M) (p : Fin 64) (h0 : ∀ (s : Fin 20) (i : Fin 64), x0 (ix3 g s i) = X (ix3 n s i))
    (h1 : ∀ (s : Fin 20) (i : Fin 64), x1 (ix3 g s i) = Y (ix3 n s i)) : near x0 x1 g p ↔ near X Y n p := by
  unfold near pairDist
  simp only [h0, h1]

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: all three windows move along the scenes with the grid point, one block per
    point, and stand still on the other axes. -/
theorem idx_facts : ∀ t : Fin cfg0.N,
    win0_0.index t (0 : Fin 3) = win0_2.index t (0 : Fin 2) ∧ win0_0.index t (1 : Fin 3) = 0 ∧ win0_0.index t (2 : Fin 3) = 0
    ∧ win0_1.index t (0 : Fin 3) = win0_2.index t (0 : Fin 2) ∧ win0_1.index t (1 : Fin 3) = 0 ∧ win0_1.index t (2 : Fin 3) = 0
    ∧ win0_2.index t (0 : Fin 2) ≤ 63 ∧ win0_2.index t (1 : Fin 2) = 0 :=
  (by decide +kernel : ∀ t : Fin grid0.N, _)

/-- Every block of rows is some point's. -/
theorem idx_onto : ∀ q0 : Fin 64, ∃ t : Fin cfg0.N, win0_2.index t = ![q0.val, 0] :=
  (by decide +kernel : ∀ q0 : Fin 64, ∃ t : Fin grid0.N, win0_2.index t = ![q0.val, 0])

variable (V : (c : Dev nD) → (b : Ref sig .tc) → Buf (Elt Ideal) ((c : Thread nD τ).loc b))

open Classical in
/-- WHAT POINT `t` WRITES BACK is block `t` of the flag array of the coordinate arrays as the region finds them. -/
theorem flushed_eq (c : Dev nD) (t : Fin cfg0.N) :
    (dat0 V c).flushed 2 t = ((cfg0.win 2).blk t).view.read (Elt Ideal) (flag (N := 512) (V c main_v4) (V c main_v6)) := by
  show (cfg0.win 2).cut (grid0.coords t) ((dat0 V c).after 2 t) = _
  rw [after0_2]
  unfold out0_2
  rw [View.canon_unit_zero hz2]
  simp only [View.ld_unit_zero (S := S8x20x64) hz3]
  obtain ⟨e0, e1, e2, e3, e4, e5, e6, e7⟩ := idx_facts t
  funext y
  obtain ⟨g, p, rfl⟩ : ∃ (g : Fin 8) (p : Fin 64), y = ix2 g p := ⟨y 0, y 1, eq_ix2 y⟩
  refine (pay_apply _ _ g p).trans ?_
  show _ = flag (N := 512) (V c main_v4) (V c main_v6) (((cfg0.win 2).blk t).view.emb (ix2 g p))
  unfold flag
  have hp : (((cfg0.win 2).blk t).view.emb (ix2 g p) 1 : Fin 64) = p := Fin.ext (by
    show win0_2.index t (1 : Fin 2) * 64 + 1 * p.val = p.val
    omega)
  have hnear : near (N := 8) (iblk0 V c 0 t) (iblk0 V c 1 t) g p
      ↔ near (N := 512) (V c main_v4) (V c main_v6) (((cfg0.win 2).blk t).view.emb (ix2 g p) 0) p := by
    refine near_congr _ _ _ _ g _ p (fun s i => ?_) (fun s i => ?_)
    · show V c main_v4 (((cfg0.win 0).blk t).view.emb (ix3 g s i)) = _
      refine congrArg (V c main_v4) (funext fun a => Fin.ext ?_)
      match a with
      | ⟨0, _⟩ => show win0_0.index t (0 : Fin 3) * 8 + 1 * g.val = win0_2.index t (0 : Fin 2) * 8 + 1 * g.val; omega
      | ⟨1, _⟩ => show win0_0.index t (1 : Fin 3) * 20 + 1 * s.val = s.val; omega
      | ⟨2, _⟩ => show win0_0.index t (2 : Fin 3) * 64 + 1 * i.val = i.val; omega
    · show V c main_v6 (((cfg0.win 1).blk t).view.emb (ix3 g s i)) = _
      refine congrArg (V c main_v6) (funext fun a => Fin.ext ?_)
      match a with
      | ⟨0, _⟩ => show win0_1.index t (0 : Fin 3) * 8 + 1 * g.val = win0_2.index t (0 : Fin 2) * 8 + 1 * g.val; omega
      | ⟨1, _⟩ => show win0_1.index t (1 : Fin 3) * 20 + 1 * s.val = s.val; omega
      | ⟨2, _⟩ => show win0_1.index t (2 : Fin 3) * 64 + 1 * i.val = i.val; omega
  rw [hp]
  exact if_congr hnear rfl rfl

/-- An index of the flag array is in point `t`'s block iff each coordinate is in the block's range on its axis. -/
theorem mem_blk (t : Fin cfg0.N) (i : S512x64.Idx) :
    i ∈ ((cfg0.win 2).blk t).view.set ↔ ∀ a : Fin 2, win0_2.index t a * S8x64.size a ≤ (i a).val ∧ (i a).val < win0_2.index t a * S8x64.size a + S8x64.size a := by
  show i ∈ ((View.whole main_v7).slice (win0_2.rect t)).set ↔ _
  rw [View.set_slice_whole, Rect.mem_set_unit]
  exact Iff.rfl

/-- Every row of the flag array is in the block of the point that handles its scene. -/
theorem cover (i : S512x64.Idx) : ∃ t : Fin cfg0.N, (cfg0.win 2).flush t = true ∧ i ∈ ((cfg0.win 2).blk t).view.set := by
  have hi0 : (i 0).val < 512 := (i 0).isLt
  have hi1 : (i 1).val < 64 := (i 1).isLt
  obtain ⟨t, ht⟩ := idx_onto ⟨(i 0).val / 8, by omega⟩
  have q0 : win0_2.index t (0 : Fin 2) = (i 0).val / 8 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 64 ≤ (i 1).val ∧ (i 1).val < win0_2.index t (1 : Fin 2) * 64 + 64; omega

/-- THE FLAG ARRAY after the region: the indicator of `near` on the two coordinate arrays as the region found them. -/
theorem final (c : Dev nD) : (dat0 V c).arrAt 2 cfg0.N = flag (N := 512) (V c main_v4) (V c main_v6) :=
  (dat0 V c).arrAt_eq_of_cover 2 _ (fun t _ => flushed_eq V c t) cover

end Cert.KernelIdeal.Collision

end
-- ==== Proof.RefRewards.lean ====
/-
  The reference's rewards, read at an index.

  The reference broadcasts the positions against themselves along two pedestrian axes, subtracts, squares, sums over
  the two coordinates and takes the square root: entry (n, s, i, j) is the distance between pedestrians i and j of scene
  n at time step s. A zero distance reads as the threshold. It then takes the minimum over the FIRST pedestrian axis and
  over time, so entry (n, p) is below the threshold iff some (s, i) has the masked distance between i and p below it.
  The distance between i and p is the distance between p and i, so this is `near` of the x- and y-coordinate arrays:
  the flag the kernel computes by minimising over the second pedestrian axis.
-/
import proofs.«142481_j1838246003412_2_alg».proof.Proof.RefStages
import proofs.«142481_j1838246003412_2_alg».proof.Proof.CollisionArray

set_option maxRecDepth 16384

noncomputable section

namespace Cert.ReferenceIdeal.RewardsRead

open Idealize.ShloMosaic Idealize.ShloMosaic.TcCoe Idealize.ShloMosaic.ValueIdx
open Cert.ReferenceIdeal Cert.ReferenceIdeal.Gen Cert.ReferenceIdeal.Stages
open Cert.KernelIdeal.Collision (pairDist masked near flag Q Z pairDist_comm)

variable (traj : FVec Ideal S20x32768x2 .f32)

/-- The x-coordinates and the y-coordinates: scene × time step × pedestrian. -/
def xs : (⟨3, ![512, 20, 64]⟩ : Shape).Idx → EReal := fun k => positions traj (ix4 (k 0 : Fin 512) (k 1 : Fin 20) (k 2 : Fin 64) (0 : Fin 2))
def ys : (⟨3, ![512, 20, 64]⟩ : Shape).Idx → EReal := fun k => positions traj (ix4 (k 0 : Fin 512) (k 1 : Fin 20) (k 2 : Fin 64) (1 : Fin 2))

theorem offsets_apply (n : Fin 512) (s : Fin 20) (i j : Fin 64) (c : Fin 2) :
    offsets traj (ix5 n s i j c) = (positions traj (ix4 n s i c) : EReal) - positions traj (ix4 n s j c) := by
  unfold offsets
  rw [subf_apply]
  congr 1

theorem distances_apply (n : Fin 512) (s : Fin 20) (i j : Fin 64) :
    distances traj (ix4 n s i j) = pairDist (N := 512) (xs traj) (ys traj) n s i j := by
  have h : S512x20x64x64x2.Reduces [4] S512x20x64x64 := by decide
  unfold distances pairDist
  show Ideal.sqrt (Ideal.hostReduceAdd reducesTo_S512x20x64x64x2_S512x20x64x64_d4 (mulf (offsets traj) (offsets traj))
    (Ideal.ofBits .f32 0x00000000#32) (ix4 n s i j)) = _
  rw [Ideal.hostReduceAdd_single reducesTo_S512x20x64x64x2_S512x20x64x64_d4 h, Ideal.ofBits_zero_f32, zero_add]
  have e : ∀ k : Fin 2, h.lift (ix4 n s i j) k = ix5 n s i j k := fun k =>
    funext fun a => Fin.ext (by match a with | ⟨0, _⟩ => rfl | ⟨1, _⟩ => rfl | ⟨2, _⟩ => rfl | ⟨3, _⟩ => rfl | ⟨4, _⟩ => rfl)
  show Ideal.sqrt (∑ k : Fin 2, mulf (offsets traj) (offsets traj) (h.lift (ix4 n s i j) k)) = _
  rw [Fin.sum_univ_two, e 0, e 1, mulf_apply, mulf_apply, offsets_apply, offsets_apply]
  rfl

theorem maskedDistances_apply (n : Fin 512) (s : Fin 20) (i j : Fin 64) :
    maskedDistances traj (ix4 n s i j) = masked (pairDist (N := 512) (xs traj) (ys traj) n s i j) := by
  unfold maskedDistances masked
  rw [select_apply, cmpf_apply, distances_apply]
  rfl

/-- The two host minima are below the threshold iff the pedestrian comes close to another one. -/
theorem nearest_lt_iff (n : Fin 512) (p : Fin 64) :
    (nearest traj (ix2 n p) : EReal) < Q ↔ near (N := 512) (xs traj) (ys traj) n p := by
  have h1 : S512x20x64.Reduces [1] S512x64 := by decide
  have h2 : S512x20x64x64.Reduces [2] S512x20x64 := by decide
  have e1 : ∀ s : Fin 20, h1.lift (ix2 n p) s = ix3 n s p := fun s =>
    funext fun a => Fin.ext (by match a with | ⟨0, _⟩ => rfl | ⟨1, _⟩ => rfl | ⟨2, _⟩ => rfl)
  have e2 : ∀ (s : Fin 20) (i : Fin 64), h2.lift (ix3 n s p) i = ix4 n s i p := fun s i =>
    funext fun a => Fin.ext (by match a with | ⟨0, _⟩ => rfl | ⟨1, _⟩ => rfl | ⟨2, _⟩ => rfl | ⟨3, _⟩ => rfl)
  unfold nearest near
  refine (Ideal.hostReduce_minimumf_lt_iff _ _ reducesTo_S512x20x64_S512x64_d1 h1 h_S_ Ideal.ofBits_f32_inf (ix2 n p) Q).trans ?_
  refine exists_congr fun (s : Fin 20) => ?_
  rw [e1 s]
  refine (Ideal.hostReduce_minimumf_lt_iff _ _ reducesTo_S512x20x64x64_S512x20x64_d2 h2 h_S_ Ideal.ofBits_f32_inf (ix3 n s p) Q).trans ?_
  refine exists_congr fun (i : Fin 64) => ?_
  rw [e2 s i, maskedDistances_apply, pairDist_comm]

open Classical in
/-- A vector compared with the threshold and converted to a float is the indicator of whatever "below the threshold"
    means for its entries. -/
theorem indicator_of_lt (v : FVec Ideal S512x64 .f32) (P : Fin 512 → Fin 64 → Prop)
    (h : ∀ (n : Fin 512) (p : Fin 64), (v (ix2 n p) : EReal) < Q ↔ P n p) :
    (uitofp .f32 (cmpf .olt v (broadcastInDim S512x64 ![] bcast_S_S512x64 (constant S_ .f32 0x3E800000#32)))
        : FVec Ideal S512x64 .f32)
      = fun i => if P (i 0) (i 1) then 1 else 0 := by
  funext y
  obtain ⟨n, p, rfl⟩ : ∃ (n : Fin 512) (p : Fin 64), y = ix2 n p := ⟨y 0, y 1, eq_ix2 y⟩
  show (((Ideal.cmp .olt (v (ix2 n p)) Q).toNat : ℝ) : EReal) = if P n p then 1 else 0
  by_cases hP : P n p
  · have hlt := (h n p).2 hP
    have : Ideal.cmp .olt (v (ix2 n p)) Q = 1#1 := by unfold Ideal.cmp; simp [hlt]
    rw [this, if_pos hP]; norm_num
  · have hlt : ¬ (v (ix2 n p) : EReal) < Q := fun hh => hP ((h n p).1 hh)
    have : Ideal.cmp .olt (v (ix2 n p)) Q = 0#1 := by unfold Ideal.cmp; simp [hlt]
    rw [this, if_neg hP]; norm_num

/-- The reference's flag array is the indicator of `near` on the coordinate arrays. -/
theorem flags_eq :
    (uitofp .f32 (cmpf .olt (nearest traj) (broadcastInDim S512x64 ![] bcast_S_S512x64 (constant S_ .f32 0x3E800000#32)))
        : FVec Ideal S512x64 .f32)
      = flag (N := 512) (xs traj) (ys traj) :=
  indicator_of_lt (nearest traj) _ (nearest_lt_iff traj)

end Cert.ReferenceIdeal.RewardsRead

end
-- ==== Proof.Rewards.lean ====
/-
  The rewards of the two programs are the same column.

  The kernel's host operations before the collision region regroup the trajectories exactly as the reference does and
  split off the x- and the y-coordinates; the region turns them into the flag array; the host operations after it make
  the reward column from the flags by the same three operations the reference applies to its own flags.
-/
import proofs.«142481_j1838246003412_2_alg».proof.Proof.RewardsChain
import proofs.«142481_j1838246003412_2_alg».proof.Proof.RefRewards

set_option maxRecDepth 16384

noncomputable section

namespace Cert.Proof.Rewards

open Idealize.ShloMosaic Idealize.ShloMosaic.TcCoe Idealize.ShloMosaic.Tactic Idealize.ShloMosaic.ValueIdx Idealize.SL.Sem
open Cert.KernelIdeal Cert.KernelIdeal.Gen
open Cert.ReferenceIdeal.Stages (positions rewards nearest)
open Cert.ReferenceIdeal.RewardsRead (xs ys flags_eq)

variable (m : (ℓ : Loc nD τ sig) → Buf (Elt Ideal) ℓ) (ρ : Dev nD → PrngReg)

/-- The first coordinate array the collision region finds: the x-coordinates, scene × time step × pedestrian. -/
theorem found_xs (c : Dev nD) :
    (V1 m ρ c main_v4 : (⟨3, ![512, 20, 64]⟩ : Shape).Idx → EReal) = xs (m ((c.tc : Thread nD τ).loc main_arg0)) := by
  have e : (V1 m ρ c main_v4 : (⟨3, ![512, 20, 64]⟩ : Shape).Idx → EReal)
      = shapeCast S512x20x64 (extractStridedSlice S512x20x64x1 ![0, 0, 0, 0]
          (positions (F := Ideal) (m ((c.tc : Thread nD τ).loc main_arg0))) slices_S512x20x64x2_S512x20x64x1_0_0_0_0)
          shapeCasts_S512x20x64x1_S512x20x64 := by
    show StableHlo.after hostOps0 (W0 m ρ c) (Proc.devRef .tc main_v4) = _
    after_results
    rfl
  rw [e]
  funext k
  obtain ⟨n, s, i, rfl⟩ : ∃ (n : Fin 512) (s : Fin 20) (i : Fin 64), k = ix3 n s i := ⟨k 0, k 1, k 2, eq_ix3 k⟩
  rw [shapeCast_apply _ _ (ix3 n s i) (ix4 n s i (0 : Fin 1)) (by
    simp only [Shape.rowMajor_val_three, Shape.rowMajor_val_four]
    show ((n.val * 20 + s.val) * 64 + i.val) * 1 + 0 = (n.val * 20 + s.val) * 64 + i.val
    omega)]
  exact extractStridedSlice_apply _ _ _ (ix4 n s i (0 : Fin 1)) (ix4 n s i (0 : Fin 2)) (fun a => by
    match a with
    | ⟨0, _⟩ => exact (Nat.zero_add _).symm
    | ⟨1, _⟩ => exact (Nat.zero_add _).symm
    | ⟨2, _⟩ => exact (Nat.zero_add _).symm
    | ⟨3, _⟩ => rfl)

/-- The second one: the y-coordinates. -/
theorem found_ys (c : Dev nD) :
    (V1 m ρ c main_v6 : (⟨3, ![512, 20, 64]⟩ : Shape).Idx → EReal) = ys (m ((c.tc : Thread nD τ).loc main_arg0)) := by
  have e : (V1 m ρ c main_v6 : (⟨3, ![512, 20, 64]⟩ : Shape).Idx → EReal)
      = shapeCast S512x20x64 (extractStridedSlice S512x20x64x1 ![0, 0, 0, 1]
          (positions (F := Ideal) (m ((c.tc : Thread nD τ).loc main_arg0))) slices_S512x20x64x2_S512x20x64x1_0_0_0_1)
          shapeCasts_S512x20x64x1_S512x20x64 := by
    show StableHlo.after hostOps0 (W0 m ρ c) (Proc.devRef .tc main_v6) = _
    after_results
    rfl
  rw [e]
  funext k
  obtain ⟨n, s, i, rfl⟩ : ∃ (n : Fin 512) (s : Fin 20) (i : Fin 64), k = ix3 n s i := ⟨k 0, k 1, k 2, eq_ix3 k⟩
  rw [shapeCast_apply _ _ (ix3 n s i) (ix4 n s i (0 : Fin 1)) (by
    simp only [Shape.rowMajor_val_three, Shape.rowMajor_val_four]
    show ((n.val * 20 + s.val) * 64 + i.val) * 1 + 0 = (n.val * 20 + s.val) * 64 + i.val
    omega)]
  exact extractStridedSlice_apply _ _ _ (ix4 n s i (0 : Fin 1)) (ix4 n s i (1 : Fin 2)) (fun a => by
    match a with
    | ⟨0, _⟩ => exact (Nat.zero_add _).symm
    | ⟨1, _⟩ => exact (Nat.zero_add _).symm
    | ⟨2, _⟩ => exact (Nat.zero_add _).symm
    | ⟨3, _⟩ => rfl)

/-- THE REWARDS: the kernel's buffer ends at the reference's reward column of the trajectories. -/
theorem rewards_eq (c : Dev nD) :
    W8 m ρ c (Proc.devRef .tc main_v11) = rewards (F := Ideal) (m ((c.tc : Thread nD τ).loc main_arg0)) := by
  rw [RewardsChain.W8_rewards, RewardsChain.W3_rewards, Collision.final (V1 m ρ) c, found_xs, found_ys,
    ← flags_eq (m ((c.tc : Thread nD τ).loc main_arg0))]
  rfl

end Cert.Proof.Rewards

end
-- ==== Proof.LibLiterals.lean ====
/-
  The values of three f32 patterns on the extended reals: the batch size 32768, one, and the small positive number the
  normalisations add to a variance (only that it is a positive real matters).
-/
import Idealize.ShloMosaic.PureOps.Ideal.Laws

namespace Idealize.ShloMosaic.Ideal

theorem ofBits_f32_32768 : Ideal.ofBits .f32 0x47000000#32 = ((32768 : ℝ) : EReal) := by
  simp [Ideal.ofBits, Ideal.ieee, -EReal.coe_mul]; norm_num

theorem ofBits_f32_one : Ideal.ofBits .f32 0x3F800000#32 = ((1 : ℝ) : EReal) := by
  simp [Ideal.ofBits, Ideal.ieee, -EReal.coe_mul]; norm_num

theorem ofBits_f32_eps : ∃ e : ℝ, 0 < e ∧ Ideal.ofBits .f32 0x3727C5AC#32 = (e : EReal) := by
  refine ⟨_, ?_, by simp [Ideal.ofBits, Ideal.ieee, -EReal.coe_mul]; rfl⟩
  positivity

end Idealize.ShloMosaic.Ideal
-- ==== Proof.RefScores.lean ====
/-
  The reference's classifier, read at an index.

  With a reward column `r`, the first layer's output at (b, k) is `r b · w₁ k + b₁ k` (a product with a one-column
  matrix: the contraction has one term). Its mean and centred variance over the batch are sums over the 32768 rows
  divided by the batch size; the variance's guard "batch size minus zero is positive" holds, so the variance is that
  quotient. The second layer contracts the 1024 features against the weight row and adds the bias.
-/
import proofs.«142481_j1838246003412_2_alg».proof.Proof.RefStages
import proofs.«142481_j1838246003412_2_alg».proof.Proof.LibLiterals
import Idealize.ShloMosaic.Lib.ValueIdx
import Idealize.ShloMosaic.Lib.Pipeline.Value

set_option maxRecDepth 16384

noncomputable section

namespace Cert.ReferenceIdeal.ScoresRead

open Idealize.ShloMosaic Idealize.ShloMosaic.TcCoe Idealize.ShloMosaic.ValueIdx
open Cert.ReferenceIdeal Cert.ReferenceIdeal.Gen Cert.ReferenceIdeal.Stages

/-- The batch size, the variance's ε and the zero, as the program spells them. -/
abbrev Cb : EReal := Ideal.ofBits .f32 0x47000000#32
abbrev Eps : EReal := Ideal.ofBits .f32 0x3727C5AC#32
abbrev Z : EReal := Ideal.ofBits .f32 0x00000000#32

/-! ## The two products' operand indices -/

theorem a_lhs0 (i : S32768x1024.Idx) (q : dot_S32768x1_S1x1024_S32768x1024_1_0_0_1_n_n.contr.Idx) : (dot_S32768x1_S1x1024_S32768x1024_1_0_0_1_n_n.lhsIdx i q 0).val = (i 0).val := by
  unfold DotDims.lhsIdx
  rw [dif_neg (show ¬(0 : Fin S32768x1.rank) ∈ dot_S32768x1_S1x1024_S32768x1024_1_0_0_1_n_n.lhsBatch by decide), dif_pos (show (0 : Fin S32768x1.rank) ∈ dot_S32768x1_S1x1024_S32768x1024_1_0_0_1_n_n.lhsNonContracting by decide)]
  rfl
theorem a_lhs1 (i : S32768x1024.Idx) (q : dot_S32768x1_S1x1024_S32768x1024_1_0_0_1_n_n.contr.Idx) : (dot_S32768x1_S1x1024_S32768x1024_1_0_0_1_n_n.lhsIdx i q 1).val = (q ⟨0, by decide⟩).val :=
  dot_S32768x1_S1x1024_S32768x1024_1_0_0_1_n_n.lhsIdx_val_of_single rfl i q
theorem a_rhs0 (i : S32768x1024.Idx) (q : dot_S32768x1_S1x1024_S32768x1024_1_0_0_1_n_n.contr.Idx) : (dot_S32768x1_S1x1024_S32768x1024_1_0_0_1_n_n.rhsIdx i q 0).val = (q ⟨0, by decide⟩).val :=
  dot_S32768x1_S1x1024_S32768x1024_1_0_0_1_n_n.rhsIdx_val_of_single rfl i q
theorem a_rhs1 (i : S32768x1024.Idx) (q : dot_S32768x1_S1x1024_S32768x1024_1_0_0_1_n_n.contr.Idx) : (dot_S32768x1_S1x1024_S32768x1024_1_0_0_1_n_n.rhsIdx i q 1).val = (i 1).val := by
  unfold DotDims.rhsIdx
  rw [dif_neg (show ¬(1 : Fin S1x1024.rank) ∈ dot_S32768x1_S1x1024_S32768x1024_1_0_0_1_n_n.rhsBatch by decide), dif_pos (show (1 : Fin S1x1024.rank) ∈ dot_S32768x1_S1x1024_S32768x1024_1_0_0_1_n_n.rhsNonContracting by decide)]
  rfl

theorem b_lhs0 (i : S32768x1.Idx) (q : dot_S32768x1024_S1024x1_S32768x1_1_0_0_1_n_n.contr.Idx) : (dot_S32768x1024_S1024x1_S32768x1_1_0_0_1_n_n.lhsIdx i q 0).val = (i 0).val := by
  unfold DotDims.lhsIdx
  rw [dif_neg (show ¬(0 : Fin S32768x1024.rank) ∈ dot_S32768x1024_S1024x1_S32768x1_1_0_0_1_n_n.lhsBatch by decide), dif_pos (show (0 : Fin S32768x1024.rank) ∈ dot_S32768x1024_S1024x1_S32768x1_1_0_0_1_n_n.lhsNonContracting by decide)]
  rfl
theorem b_lhs1 (i : S32768x1.Idx) (q : dot_S32768x1024_S1024x1_S32768x1_1_0_0_1_n_n.contr.Idx) : (dot_S32768x1024_S1024x1_S32768x1_1_0_0_1_n_n.lhsIdx i q 1).val = (q ⟨0, by decide⟩).val :=
  dot_S32768x1024_S1024x1_S32768x1_1_0_0_1_n_n.lhsIdx_val_of_single rfl i q
theorem b_rhs0 (i : S32768x1.Idx) (q : dot_S32768x1024_S1024x1_S32768x1_1_0_0_1_n_n.contr.Idx) : (dot_S32768x1024_S1024x1_S32768x1_1_0_0_1_n_n.rhsIdx i q 0).val = (q ⟨0, by decide⟩).val :=
  dot_S32768x1024_S1024x1_S32768x1_1_0_0_1_n_n.rhsIdx_val_of_single rfl i q
theorem b_rhs1 (i : S32768x1.Idx) (q : dot_S32768x1024_S1024x1_S32768x1_1_0_0_1_n_n.contr.Idx) : (dot_S32768x1024_S1024x1_S32768x1_1_0_0_1_n_n.rhsIdx i q 1).val = (i 1).val := by
  unfold DotDims.rhsIdx
  rw [dif_neg (show ¬(1 : Fin S1024x1.rank) ∈ dot_S32768x1024_S1024x1_S32768x1_1_0_0_1_n_n.rhsBatch by decide), dif_pos (show (1 : Fin S1024x1.rank) ∈ dot_S32768x1024_S1024x1_S32768x1_1_0_0_1_n_n.rhsNonContracting by decide)]
  rfl

/-! ## Three small readings -/

/-- A scalar literal spread over any shape is that literal at every index. -/
theorem bcast_scalar {t : Shape} (h : S_.BroadcastsInDim t ![]) (bits : BitVec 32) (i : t.Idx) :
    broadcastInDim t ![] h (constant (F := Ideal) S_ .f32 bits) i = Ideal.ofBits .f32 bits :=
  (broadcastInDim_apply _ _ _ i ix0 (fun a => a.elim0)).trans rfl

theorem hostDivf_apply {t : Shape} (x y : FVec Ideal t .f32) (i : t.Idx) : Host.divf x y i = Ideal.div (x i) (y i) := rfl
theorem hostRsqrt_apply {t : Shape} (x : FVec Ideal t .f32) (i : t.Idx) : Host.rsqrt x i = Ideal.rsqrt (x i) := rfl

/-! ## The first layer -/

theorem overBatch1_apply (x : FVec Ideal S1024 .f32) (b : Fin 32768) (k : Fin 1024) : overBatch1 x (ix2 b k) = x (ix1 k) := by
  show broadcastInDim S32768x1024 ![0, 1] bcast_S1x1024_S32768x1024_0_1 (broadcastInDim S1x1024 ![1] bcast_S1024_S1x1024_1 x) (ix2 b k) = _
  rw [broadcastInDim_apply _ _ _ (ix2 b k) (ix2 (0 : Fin 1) k) (fun a => by match a with | ⟨0, _⟩ => rfl | ⟨1, _⟩ => rfl)]
  exact broadcastInDim_apply _ _ _ (ix2 (0 : Fin 1) k) (ix1 k) (fun a => by match a with | ⟨0, _⟩ => rfl)

theorem hidden1_apply (r : FVec Ideal S32768x1 .f32) (w : FVec Ideal S1024x1 .f32) (bias : FVec Ideal S1024 .f32)
    (b : Fin 32768) (k : Fin 1024) :
    hidden1 r w bias (ix2 b k) = (r (ix2 b (0 : Fin 1)) : EReal) * w (ix2 k (0 : Fin 1)) + bias (ix1 k) := by
  unfold hidden1
  rw [addf_apply]
  rw [overBatch1_apply]
  congr 1
  refine (Ideal.dotGeneral_apply dot_S32768x1_S1x1024_S32768x1024_1_0_0_1_n_n none _ _ _ (ix2 b k)).trans ?_
  rw [← Equiv.sum_comp (contrEquiv1 dot_S32768x1_S1x1024_S32768x1024_1_0_0_1_n_n 1 rfl rfl).symm, Fin.sum_univ_one]
  have hk := contrEquiv1_symm_val dot_S32768x1_S1x1024_S32768x1024_1_0_0_1_n_n 1 rfl rfl (0 : Fin 1)
  have el : dot_S32768x1_S1x1024_S32768x1024_1_0_0_1_n_n.lhsIdx (ix2 b k) ((contrEquiv1 dot_S32768x1_S1x1024_S32768x1024_1_0_0_1_n_n 1 rfl rfl).symm 0) = ix2 b (0 : Fin 1) := funext fun a => Fin.ext (by
    match a with
    | ⟨0, _⟩ => exact a_lhs0 _ _
    | ⟨1, _⟩ => exact (a_lhs1 _ _).trans hk)
  have er : dot_S32768x1_S1x1024_S32768x1024_1_0_0_1_n_n.rhsIdx (ix2 b k) ((contrEquiv1 dot_S32768x1_S1x1024_S32768x1024_1_0_0_1_n_n 1 rfl rfl).symm 0) = ix2 (0 : Fin 1) k := funext fun a => Fin.ext (by
    match a with
    | ⟨0, _⟩ => exact (a_rhs0 _ _).trans hk
    | ⟨1, _⟩ => exact a_rhs1 _ _)
  rw [el, er]
  congr 1
  exact transpose_apply _ _ _ (ix2 (0 : Fin 1) k) (ix2 k (0 : Fin 1)) (fun a => by
    match a with
    | ⟨0, _⟩ => rfl
    | ⟨1, _⟩ => rfl)

/-- The sum of a column, from the program's zero. -/
theorem colsum1_apply (h : FVec Ideal S32768x1024 .f32) (k : Fin 1024) :
    Host.reduceAdd h (constant S_ .f32 0x00000000#32) reducesTo_S32768x1024_S1024_d0 h_S_ (ix1 k) = ∑ b : Fin 32768, (h (ix2 b k) : EReal) := by
  have hr : S32768x1024.Reduces [0] S1024 := by decide
  show Ideal.hostReduceAdd reducesTo_S32768x1024_S1024_d0 h (Ideal.ofBits .f32 0x00000000#32) (ix1 k) = _
  rw [Ideal.hostReduceAdd_single reducesTo_S32768x1024_S1024_d0 hr, Ideal.ofBits_zero_f32, zero_add]
  refine Finset.sum_congr rfl fun (b : Fin 32768) _ => ?_
  have e : hr.lift (ix1 k) b = (ix2 b k) := funext fun a => Fin.ext (by match a with | ⟨0, _⟩ => rfl | ⟨1, _⟩ => rfl)
  rw [e]

theorem mean1_apply (h : FVec Ideal S32768x1024 .f32) (k : Fin 1024) :
    mean1 h (ix1 k) = Ideal.div (∑ b : Fin 32768, (h (ix2 b k) : EReal)) Cb := by
  unfold mean1
  rw [hostDivf_apply, colsum1_apply, bcast_scalar]

theorem centred1_apply (h : FVec Ideal S32768x1024 .f32) (b : Fin 32768) (k : Fin 1024) :
    centred1 h (ix2 b k) = (h (ix2 b k) : EReal) - Ideal.div (∑ b' : Fin 32768, (h (ix2 b' k) : EReal)) Cb := by
  unfold centred1
  rw [subf_apply]
  refine congrArg (fun z : EReal => (h (ix2 b k) : EReal) - z) ?_
  rw [broadcastInDim_apply _ _ _ (ix2 b k) (ix2 (0 : Fin 1) k) (fun a => by match a with | ⟨0, _⟩ => rfl | ⟨1, _⟩ => rfl), hostDivf_apply,
    broadcastInDim_apply _ _ _ (ix2 (0 : Fin 1) k) (ix1 k) (fun a => by match a with | ⟨0, _⟩ => rfl), colsum1_apply, bcast_scalar]

/-- The guard of the variance holds (the batch size minus zero is positive), so the variance is the quotient. -/
theorem var1_apply (h : FVec Ideal S32768x1024 .f32) (k : Fin 1024) :
    var1 h (ix1 k) = Ideal.div (∑ b : Fin 32768, (centred1 h (ix2 b k) : EReal) * centred1 h (ix2 b k)) Cb := by
  unfold var1
  rw [select_apply]
  have hden : (subf (constant (F := Ideal) S_ .f32 0x47000000#32) (sitofp .f32 (constantI S_ 32 0#32))) ix0 = Ideal.ofBits .f32 0x47000000#32 := by
    show Ideal.ofBits .f32 0x47000000#32 - (((0#32 : BitVec 32).toInt : ℝ) : EReal) = _
    simp
  have hg : broadcastInDim S1024 ![] bcast_S_S1024
      (cmpf .ogt (subf (constant (F := Ideal) S_ .f32 0x47000000#32) (sitofp .f32 (constantI S_ 32 0#32))) (constant S_ .f32 0x00000000#32)) (ix1 k) = 1#1 := by
    rw [broadcastInDim_apply _ _ _ (ix1 k) ix0 (fun a => a.elim0), cmpf_apply, hden]
    show Ideal.cmp .ogt (Ideal.ofBits .f32 0x47000000#32) (Ideal.ofBits .f32 0x00000000#32) = 1#1
    rw [Ideal.ofBits_zero_f32, Ideal.ofBits_f32_32768]
    unfold Ideal.cmp
    simp
  rw [hg, select_one, hostDivf_apply, colsum1_apply, broadcastInDim_apply _ _ _ (ix1 k) ix0 (fun a => a.elim0), hden]
  refine congrArg (Ideal.div · Cb) (Finset.sum_congr rfl fun b _ => ?_)
  rw [mulf_apply]

theorem relu1_apply (h : FVec Ideal S32768x1024 .f32) (g be : FVec Ideal S1024 .f32) (b : Fin 32768) (k : Fin 1024) :
    relu1 h g be (ix2 b k)
      = max (((g (ix1 k) : EReal) * ((h (ix2 b k) : EReal) - mean1 h (ix1 k))) * Ideal.rsqrt (var1 h (ix1 k) + Eps) + be (ix1 k)) Z := by
  unfold relu1
  rw [maximumf_apply, addf_apply, mulf_apply, mulf_apply, subf_apply, overBatch1_apply, overBatch1_apply, overBatch1_apply,
    overBatch1_apply, bcast_scalar, hostRsqrt_apply, addf_apply, bcast_scalar]

/-! ## The second layer -/

theorem overBatch2_apply (x : FVec Ideal S1 .f32) (b : Fin 32768)  : overBatch2 x (ix2 b (0 : Fin 1)) = x (ix1 (0 : Fin 1)) := by
  show broadcastInDim S32768x1 ![0, 1] bcast_S1x1_S32768x1_0_1 (broadcastInDim S1x1 ![1] bcast_S1_S1x1_1 x) (ix2 b (0 : Fin 1)) = _
  rw [broadcastInDim_apply _ _ _ (ix2 b (0 : Fin 1)) (ix2 (0 : Fin 1) (0 : Fin 1)) (fun a => by match a with | ⟨0, _⟩ => rfl | ⟨1, _⟩ => rfl)]
  exact broadcastInDim_apply _ _ _ (ix2 (0 : Fin 1) (0 : Fin 1)) (ix1 (0 : Fin 1)) (fun a => by match a with | ⟨0, _⟩ => rfl)

theorem hidden2_apply (y : FVec Ideal S32768x1024 .f32) (w : FVec Ideal S1x1024 .f32) (bias : FVec Ideal S1 .f32) (b : Fin 32768) :
    hidden2 y w bias (ix2 b (0 : Fin 1))
      = (∑ k : Fin 1024, (y (ix2 b k) : EReal) * w (ix2 (0 : Fin 1) k)) + bias (ix1 (0 : Fin 1)) := by
  unfold hidden2
  rw [addf_apply]
  rw [overBatch2_apply]
  congr 1
  refine (Ideal.dotGeneral_apply dot_S32768x1024_S1024x1_S32768x1_1_0_0_1_n_n none _ _ _ (ix2 b (0 : Fin 1))).trans ?_
  rw [← Equiv.sum_comp (contrEquiv1 dot_S32768x1024_S1024x1_S32768x1_1_0_0_1_n_n 1024 rfl rfl).symm]
  refine Finset.sum_congr rfl fun k _ => ?_
  have hk := contrEquiv1_symm_val dot_S32768x1024_S1024x1_S32768x1_1_0_0_1_n_n 1024 rfl rfl k
  have el : dot_S32768x1024_S1024x1_S32768x1_1_0_0_1_n_n.lhsIdx (ix2 b (0 : Fin 1)) ((contrEquiv1 dot_S32768x1024_S1024x1_S32768x1_1_0_0_1_n_n 1024 rfl rfl).symm k) = ix2 b k := funext fun a => Fin.ext (by
    match a with
    | ⟨0, _⟩ => exact b_lhs0 _ _
    | ⟨1, _⟩ => exact (b_lhs1 _ _).trans hk)
  have er : dot_S32768x1024_S1024x1_S32768x1_1_0_0_1_n_n.rhsIdx (ix2 b (0 : Fin 1)) ((contrEquiv1 dot_S32768x1024_S1024x1_S32768x1_1_0_0_1_n_n 1024 rfl rfl).symm k) = ix2 k (0 : Fin 1) := funext fun a => Fin.ext (by
    match a with
    | ⟨0, _⟩ => exact (b_rhs0 _ _).trans hk
    | ⟨1, _⟩ => exact b_rhs1 _ _)
  rw [el, er]
  congr 1
  exact transpose_apply _ _ _ (ix2 k (0 : Fin 1)) (ix2 (0 : Fin 1) k) (fun a => by
    match a with
    | ⟨0, _⟩ => rfl
    | ⟨1, _⟩ => rfl)

/-- The sum of a column, from the program's zero. -/
theorem colsum2_apply (h : FVec Ideal S32768x1 .f32)  :
    Host.reduceAdd h (constant S_ .f32 0x00000000#32) reducesTo_S32768x1_S1_d0 h_S_ (ix1 (0 : Fin 1)) = ∑ b : Fin 32768, (h (ix2 b (0 : Fin 1)) : EReal) := by
  have hr : S32768x1.Reduces [0] S1 := by decide
  show Ideal.hostReduceAdd reducesTo_S32768x1_S1_d0 h (Ideal.ofBits .f32 0x00000000#32) (ix1 (0 : Fin 1)) = _
  rw [Ideal.hostReduceAdd_single reducesTo_S32768x1_S1_d0 hr, Ideal.ofBits_zero_f32, zero_add]
  refine Finset.sum_congr rfl fun (b : Fin 32768) _ => ?_
  have e : hr.lift (ix1 (0 : Fin 1)) b = (ix2 b (0 : Fin 1)) := funext fun a => Fin.ext (by match a with | ⟨0, _⟩ => rfl | ⟨1, _⟩ => rfl)
  rw [e]

theorem mean2_apply (h : FVec Ideal S32768x1 .f32)  :
    mean2 h (ix1 (0 : Fin 1)) = Ideal.div (∑ b : Fin 32768, (h (ix2 b (0 : Fin 1)) : EReal)) Cb := by
  unfold mean2
  rw [hostDivf_apply, colsum2_apply, bcast_scalar]

theorem centred2_apply (h : FVec Ideal S32768x1 .f32) (b : Fin 32768)  :
    centred2 h (ix2 b (0 : Fin 1)) = (h (ix2 b (0 : Fin 1)) : EReal) - Ideal.div (∑ b' : Fin 32768, (h (ix2 b' (0 : Fin 1)) : EReal)) Cb := by
  unfold centred2
  rw [subf_apply]
  refine congrArg (fun z : EReal => (h (ix2 b (0 : Fin 1)) : EReal) - z) ?_
  rw [broadcastInDim_apply _ _ _ (ix2 b (0 : Fin 1)) (ix2 (0 : Fin 1) (0 : Fin 1)) (fun a => by match a with | ⟨0, _⟩ => rfl | ⟨1, _⟩ => rfl), hostDivf_apply,
    broadcastInDim_apply _ _ _ (ix2 (0 : Fin 1) (0 : Fin 1)) (ix1 (0 : Fin 1)) (fun a => by match a with | ⟨0, _⟩ => rfl), colsum2_apply, bcast_scalar]

/-- The guard of the variance holds (the batch size minus zero is positive), so the variance is the quotient. -/
theorem var2_apply (h : FVec Ideal S32768x1 .f32)  :
    var2 h (ix1 (0 : Fin 1)) = Ideal.div (∑ b : Fin 32768, (centred2 h (ix2 b (0 : Fin 1)) : EReal) * centred2 h (ix2 b (0 : Fin 1))) Cb := by
  unfold var2
  rw [select_apply]
  have hden : (subf (constant (F := Ideal) S_ .f32 0x47000000#32) (sitofp .f32 (constantI S_ 32 0#32))) ix0 = Ideal.ofBits .f32 0x47000000#32 := by
    show Ideal.ofBits .f32 0x47000000#32 - (((0#32 : BitVec 32).toInt : ℝ) : EReal) = _
    simp
  have hg : broadcastInDim S1 ![] bcast_S_S1
      (cmpf .ogt (subf (constant (F := Ideal) S_ .f32 0x47000000#32) (sitofp .f32 (constantI S_ 32 0#32))) (constant S_ .f32 0x00000000#32)) (ix1 (0 : Fin 1)) = 1#1 := by
    rw [broadcastInDim_apply _ _ _ (ix1 (0 : Fin 1)) ix0 (fun a => a.elim0), cmpf_apply, hden]
    show Ideal.cmp .ogt (Ideal.ofBits .f32 0x47000000#32) (Ideal.ofBits .f32 0x00000000#32) = 1#1
    rw [Ideal.ofBits_zero_f32, Ideal.ofBits_f32_32768]
    unfold Ideal.cmp
    simp
  rw [hg, select_one, hostDivf_apply, colsum2_apply, broadcastInDim_apply _ _ _ (ix1 (0 : Fin 1)) ix0 (fun a => a.elim0), hden]
  refine congrArg (Ideal.div · Cb) (Finset.sum_congr rfl fun b _ => ?_)
  rw [mulf_apply]

theorem relu2_apply (h : FVec Ideal S32768x1 .f32) (g be : FVec Ideal S1 .f32) (b : Fin 32768)  :
    relu2 h g be (ix2 b (0 : Fin 1))
      = max (((g (ix1 (0 : Fin 1)) : EReal) * ((h (ix2 b (0 : Fin 1)) : EReal) - mean2 h (ix1 (0 : Fin 1)))) * Ideal.rsqrt (var2 h (ix1 (0 : Fin 1)) + Eps) + be (ix1 (0 : Fin 1))) Z := by
  unfold relu2
  rw [maximumf_apply, addf_apply, mulf_apply, mulf_apply, subf_apply, overBatch2_apply, overBatch2_apply, overBatch2_apply,
    overBatch2_apply, bcast_scalar, hostRsqrt_apply, addf_apply, bcast_scalar]

end Cert.ReferenceIdeal.ScoresRead

end
-- ==== Proof.Stage2Cases.lean ====
/-
  The second classifier region, one grid point at a time.

  Each point recomputes the first layer on its block of 1024 rewards, normalises it with the scale and shift rows, clips
  it at zero, multiplies by the second layer's weight column and adds its bias: 1024 pre-activations, written to the
  point's block of the output column. It also keeps two running scalars, the sum of the pre-activations and of their
  squares: cleared at the first point, then one block added per point.
-/
import proofs.«142481_j1838246003412_2_alg».proof.Proof.Gen.KernelIdeal.Frame
import Idealize.ShloMosaic.Lib.Pipeline.Value
import Idealize.ShloMosaic.Lib.Tactic

set_option maxRecDepth 16384

noncomputable section

namespace Cert.KernelIdeal.Stage2

open Idealize.ShloMosaic Idealize.ShloMosaic.TcCoe Idealize.SL.Sem
open Idealize.ShloMosaic.Pipeline (Dat)
open Cert.KernelIdeal Cert.KernelIdeal.Gen

variable {F : FTy → Type} [FloatOps F]

theorem hz : (![0, 0] : Fin 2 → Nat) = fun _ => 0 := funext fun a => by fin_cases a <;> rfl

/-- A LATER POINT, the block of pre-activations. -/
theorem later_pre (c : Dev nD) (i : grid2.Coords) (a1 : Memref sig .tc .vmem S1024x1 .f32) (h1 : a1.IsWhole)
    (a2 : Memref sig .tc .vmem S1x1024 .f32) (h2 : a2.IsWhole) (a3 : Memref sig .tc .vmem S1x1024 .f32) (h3 : a3.IsWhole)
    (a4 : Memref sig .tc .vmem S1x1024 .f32) (h4 : a4.IsWhole) (a5 : Memref sig .tc .vmem S1x1024 .f32) (h5 : a5.IsWhole)
    (a6 : Memref sig .tc .vmem S1024x1 .f32) (h6 : a6.IsWhole) (a7 : Memref sig .tc .vmem S1x1 .f32) (h7 : a7.IsWhole)
    (a8 : Memref sig .tc .vmem S1024x1 .f32) (h8 : a8.IsWhole) (a9 : Memref sig .tc .vmem S1x1 .f32) (h9 : a9.IsWhole)
    (a10 : Memref sig .tc .vmem S1x1 .f32) (h10 : a10.IsWhole)
    (hc : ¬cond2_0 i) (x0 : Vec F S1024x1 .f32) (x1 x2 x3 x4 : Vec F S1x1024 .f32) (x5 : Vec F S1024x1 .f32) (x6 : Vec F S1x1 .f32) (xo8 xo9 : Vec F S1x1 .f32) :
    out2_B_7 c i a1 h1 a2 h2 a3 h3 a4 h4 a5 h5 a6 h6 a7 h7 a8 h8 a9 h9 a10 h10 hc x0 x1 x2 x3 x4 x5 x6 xo8 xo9 = k2_pay5 x0 x1 x2 x3 x4 x5 x6 := by
  unfold out2_B_7
  rw [View.read_writes_eq_canon _ _ _ (cover2_B_7 c i a1 h1 a2 h2 a3 h3 a4 h4 a5 h5 a6 h6 a7 h7 a8 h8 a9 h9 a10 h10 hc x0 x1 x2 x3 x4 x5 x6 xo8 xo9)]
  unfold kernelRun2_B
  dsimp only
  sl_unfold_words
  rw [View.canon_unit_zero hz]
  simp only [View.readAt_eq_ld, h1.read_unread, h2.read_unread, h3.read_unread, h4.read_unread, h5.read_unread,
    h6.read_unread, h7.read_unread, h9.read_unread, h10.read_unread,
    View.ld_unit_zero (S := S1024x1) hz, View.ld_unit_zero (S := S1x1024) hz, View.ld_unit_zero (S := S1x1) hz]

/-- A LATER POINT, the running sum: what the point before left plus the block's sum. -/
theorem later_sum (c : Dev nD) (i : grid2.Coords) (a1 : Memref sig .tc .vmem S1024x1 .f32) (h1 : a1.IsWhole)
    (a2 : Memref sig .tc .vmem S1x1024 .f32) (h2 : a2.IsWhole) (a3 : Memref sig .tc .vmem S1x1024 .f32) (h3 : a3.IsWhole)
    (a4 : Memref sig .tc .vmem S1x1024 .f32) (h4 : a4.IsWhole) (a5 : Memref sig .tc .vmem S1x1024 .f32) (h5 : a5.IsWhole)
    (a6 : Memref sig .tc .vmem S1024x1 .f32) (h6 : a6.IsWhole) (a7 : Memref sig .tc .vmem S1x1 .f32) (h7 : a7.IsWhole)
    (a8 : Memref sig .tc .vmem S1024x1 .f32) (h8 : a8.IsWhole) (a9 : Memref sig .tc .vmem S1x1 .f32) (h9 : a9.IsWhole)
    (a10 : Memref sig .tc .vmem S1x1 .f32) (h10 : a10.IsWhole)
    (hc : ¬cond2_0 i) (x0 : Vec F S1024x1 .f32) (x1 x2 x3 x4 : Vec F S1x1024 .f32) (x5 : Vec F S1024x1 .f32) (x6 : Vec F S1x1 .f32) (xo8 xo9 : Vec F S1x1 .f32) :
    out2_B_8 c i a1 h1 a2 h2 a3 h3 a4 h4 a5 h5 a6 h6 a7 h7 a8 h8 a9 h9 a10 h10 hc x0 x1 x2 x3 x4 x5 x6 xo8 xo9 = k2_pay1 (k2_pay5 x0 x1 x2 x3 x4 x5 x6) xo8 := by
  unfold out2_B_8
  rw [View.read_writes_eq_canon _ _ _ (cover2_B_8 c i a1 h1 a2 h2 a3 h3 a4 h4 a5 h5 a6 h6 a7 h7 a8 h8 a9 h9 a10 h10 hc x0 x1 x2 x3 x4 x5 x6 xo8 xo9)]
  unfold kernelRun2_B
  dsimp only
  sl_unfold_words
  rw [View.canon_unit_zero hz]
  simp only [View.readAt_eq_ld, h1.read_unread, h2.read_unread, h3.read_unread, h4.read_unread, h5.read_unread,
    h6.read_unread, h7.read_unread, h9.read_unread, h10.read_unread,
    View.ld_unit_zero (S := S1024x1) hz, View.ld_unit_zero (S := S1x1024) hz, View.ld_unit_zero (S := S1x1) hz]

/-- A LATER POINT, the running sum of squares. -/
theorem later_sumsq (c : Dev nD) (i : grid2.Coords) (a1 : Memref sig .tc .vmem S1024x1 .f32) (h1 : a1.IsWhole)
    (a2 : Memref sig .tc .vmem S1x1024 .f32) (h2 : a2.IsWhole) (a3 : Memref sig .tc .vmem S1x1024 .f32) (h3 : a3.IsWhole)
    (a4 : Memref sig .tc .vmem S1x1024 .f32) (h4 : a4.IsWhole) (a5 : Memref sig .tc .vmem S1x1024 .f32) (h5 : a5.IsWhole)
    (a6 : Memref sig .tc .vmem S1024x1 .f32) (h6 : a6.IsWhole) (a7 : Memref sig .tc .vmem S1x1 .f32) (h7 : a7.IsWhole)
    (a8 : Memref sig .tc .vmem S1024x1 .f32) (h8 : a8.IsWhole) (a9 : Memref sig .tc .vmem S1x1 .f32) (h9 : a9.IsWhole)
    (a10 : Memref sig .tc .vmem S1x1 .f32) (h10 : a10.IsWhole)
    (hc : ¬cond2_0 i) (x0 : Vec F S1024x1 .f32) (x1 x2 x3 x4 : Vec F S1x1024 .f32) (x5 : Vec F S1024x1 .f32) (x6 : Vec F S1x1 .f32) (xo8 xo9 : Vec F S1x1 .f32) :
    out2_B_9 c i a1 h1 a2 h2 a3 h3 a4 h4 a5 h5 a6 h6 a7 h7 a8 h8 a9 h9 a10 h10 hc x0 x1 x2 x3 x4 x5 x6 xo8 xo9 = k2_pay2 (k2_pay5 x0 x1 x2 x3 x4 x5 x6) xo9 := by
  unfold out2_B_9
  rw [View.read_writes_eq_canon _ _ _ (cover2_B_9 c i a1 h1 a2 h2 a3 h3 a4 h4 a5 h5 a6 h6 a7 h7 a8 h8 a9 h9 a10 h10 hc x0 x1 x2 x3 x4 x5 x6 xo8 xo9)]
  unfold kernelRun2_B
  dsimp only
  sl_unfold_words
  rw [View.canon_unit_zero hz]
  simp only [View.readAt_eq_ld, h1.read_unread, h2.read_unread, h3.read_unread, h4.read_unread, h5.read_unread,
    h6.read_unread, h7.read_unread, h9.read_unread, h10.read_unread,
    View.ld_unit_zero (S := S1024x1) hz, View.ld_unit_zero (S := S1x1024) hz, View.ld_unit_zero (S := S1x1) hz]

/-- THE FIRST POINT, the block of pre-activations. -/
theorem first_pre (c : Dev nD) (i : grid2.Coords) (a1 : Memref sig .tc .vmem S1024x1 .f32) (h1 : a1.IsWhole)
    (a2 : Memref sig .tc .vmem S1x1024 .f32) (h2 : a2.IsWhole) (a3 : Memref sig .tc .vmem S1x1024 .f32) (h3 : a3.IsWhole)
    (a4 : Memref sig .tc .vmem S1x1024 .f32) (h4 : a4.IsWhole) (a5 : Memref sig .tc .vmem S1x1024 .f32) (h5 : a5.IsWhole)
    (a6 : Memref sig .tc .vmem S1024x1 .f32) (h6 : a6.IsWhole) (a7 : Memref sig .tc .vmem S1x1 .f32) (h7 : a7.IsWhole)
    (a8 : Memref sig .tc .vmem S1024x1 .f32) (h8 : a8.IsWhole) (a9 : Memref sig .tc .vmem S1x1 .f32) (h9 : a9.IsWhole)
    (a10 : Memref sig .tc .vmem S1x1 .f32) (h10 : a10.IsWhole)
    (hc : cond2_0 i) (x0 : Vec F S1024x1 .f32) (x1 x2 x3 x4 : Vec F S1x1024 .f32) (x5 : Vec F S1024x1 .f32) (x6 : Vec F S1x1 .f32) :
    out2_A_7 c i a1 h1 a2 h2 a3 h3 a4 h4 a5 h5 a6 h6 a7 h7 a8 h8 a9 h9 a10 h10 hc x0 x1 x2 x3 x4 x5 x6 = k2_pay5 x0 x1 x2 x3 x4 x5 x6 := by
  unfold out2_A_7
  rw [View.read_writes_eq_canon _ _ _ (cover2_A_7 c i a1 h1 a2 h2 a3 h3 a4 h4 a5 h5 a6 h6 a7 h7 a8 h8 a9 h9 a10 h10 hc x0 x1 x2 x3 x4 x5 x6)]
  unfold kernelRun2_A
  dsimp only
  sl_unfold_words
  rw [View.canon_unit_zero hz]
  simp only [View.readAt_eq_ld, h1.read_unread, h2.read_unread, h3.read_unread, h4.read_unread, h5.read_unread,
    h6.read_unread, h7.read_unread, h9.read_unread, h10.read_unread,
    View.ld_unit_zero (S := S1024x1) hz, View.ld_unit_zero (S := S1x1024) hz, View.ld_unit_zero (S := S1x1) hz]

/-- THE FIRST POINT, the running sum: cleared, then the block's sum. -/
theorem first_sum (c : Dev nD) (i : grid2.Coords) (a1 : Memref sig .tc .vmem S1024x1 .f32) (h1 : a1.IsWhole)
    (a2 : Memref sig .tc .vmem S1x1024 .f32) (h2 : a2.IsWhole) (a3 : Memref sig .tc .vmem S1x1024 .f32) (h3 : a3.IsWhole)
    (a4 : Memref sig .tc .vmem S1x1024 .f32) (h4 : a4.IsWhole) (a5 : Memref sig .tc .vmem S1x1024 .f32) (h5 : a5.IsWhole)
    (a6 : Memref sig .tc .vmem S1024x1 .f32) (h6 : a6.IsWhole) (a7 : Memref sig .tc .vmem S1x1 .f32) (h7 : a7.IsWhole)
    (a8 : Memref sig .tc .vmem S1024x1 .f32) (h8 : a8.IsWhole) (a9 : Memref sig .tc .vmem S1x1 .f32) (h9 : a9.IsWhole)
    (a10 : Memref sig .tc .vmem S1x1 .f32) (h10 : a10.IsWhole)
    (hc : cond2_0 i) (x0 : Vec F S1024x1 .f32) (x1 x2 x3 x4 : Vec F S1x1024 .f32) (x5 : Vec F S1024x1 .f32) (x6 : Vec F S1x1 .f32) :
    out2_A_8 c i a1 h1 a2 h2 a3 h3 a4 h4 a5 h5 a6 h6 a7 h7 a8 h8 a9 h9 a10 h10 hc x0 x1 x2 x3 x4 x5 x6 = k2_pay1 (k2_pay5 x0 x1 x2 x3 x4 x5 x6) (k2_pay3 (F := F)) := by
  unfold out2_A_8
  rw [View.read_writes_eq_canon _ _ _ (cover2_A_8 c i a1 h1 a2 h2 a3 h3 a4 h4 a5 h5 a6 h6 a7 h7 a8 h8 a9 h9 a10 h10 hc x0 x1 x2 x3 x4 x5 x6)]
  unfold kernelRun2_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread,
    h6.read_unread, h7.read_unread, h9.read_unread, h10.read_unread,
    View.ld_unit_zero (S := S1024x1) hz, View.ld_unit_zero (S := S1x1024) hz, View.ld_unit_zero (S := S1x1) hz]

/-- THE FIRST POINT, the running sum of squares. -/
theorem first_sumsq (c : Dev nD) (i : grid2.Coords) (a1 : Memref sig .tc .vmem S1024x1 .f32) (h1 : a1.IsWhole)
    (a2 : Memref sig .tc .vmem S1x1024 .f32) (h2 : a2.IsWhole) (a3 : Memref sig .tc .vmem S1x1024 .f32) (h3 : a3.IsWhole)
    (a4 : Memref sig .tc .vmem S1x1024 .f32) (h4 : a4.IsWhole) (a5 : Memref sig .tc .vmem S1x1024 .f32) (h5 : a5.IsWhole)
    (a6 : Memref sig .tc .vmem S1024x1 .f32) (h6 : a6.IsWhole) (a7 : Memref sig .tc .vmem S1x1 .f32) (h7 : a7.IsWhole)
    (a8 : Memref sig .tc .vmem S1024x1 .f32) (h8 : a8.IsWhole) (a9 : Memref sig .tc .vmem S1x1 .f32) (h9 : a9.IsWhole)
    (a10 : Memref sig .tc .vmem S1x1 .f32) (h10 : a10.IsWhole)
    (hc : cond2_0 i) (x0 : Vec F S1024x1 .f32) (x1 x2 x3 x4 : Vec F S1x1024 .f32) (x5 : Vec F S1024x1 .f32) (x6 : Vec F S1x1 .f32) :
    out2_A_9 c i a1 h1 a2 h2 a3 h3 a4 h4 a5 h5 a6 h6 a7 h7 a8 h8 a9 h9 a10 h10 hc x0 x1 x2 x3 x4 x5 x6 = k2_pay2 (k2_pay5 x0 x1 x2 x3 x4 x5 x6) (k2_pay4 (F := F)) := by
  unfold out2_A_9
  rw [View.read_writes_eq_canon _ _ _ (cover2_A_9 c i a1 h1 a2 h2 a3 h3 a4 h4 a5 h5 a6 h6 a7 h7 a8 h8 a9 h9 a10 h10 hc x0 x1 x2 x3 x4 x5 x6)]
  unfold kernelRun2_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread,
    h6.read_unread, h7.read_unread, h9.read_unread, h10.read_unread,
    View.ld_unit_zero (S := S1024x1) hz, View.ld_unit_zero (S := S1x1024) hz, View.ld_unit_zero (S := S1x1) hz]

end Cert.KernelIdeal.Stage2

end
-- ==== Proof.LibSumReduce.lean ====
/-
  A vector sum over one axis on the extended reals, with the accumulator hypothesis spelt as a printed program carries
  it (the zero pattern equal to itself): the sum over that axis's coordinates.
-/
import Idealize.ShloMosaic.PureOps.Ideal.Laws

namespace Idealize.ShloMosaic.Ideal

theorem multiReduction_add_single' {s t : Shape} {a : Fin s.rank} (src : FVec Ideal s .f32)
    (h : s.Reduces [a] t) (hφ : FKind.Formats .f32) (hacc : (0x00000000#32 : BitVec 32) = 0x00000000#32) (j : t.Idx) :
    multiReduction .add [a] t src 0x00000000#32 h hφ hacc j = ∑ k : Fin (s.size a), src (h.lift j k) :=
  multiReduction_add_single src _ h hφ hacc j

end Idealize.ShloMosaic.Ideal
-- ==== Proof.Stage1Block.lean ====
/-
  The first classifier region's arithmetic on one block, at an index.

  A block is 1024 rewards (a column). With the weight row `w` and the bias row `b` the first layer's output at (r, k) is
  `reward r · w k + b k`. The body adds, to the running row, the column sums of this and of its square.
-/
import proofs.«142481_j1838246003412_2_alg».proof.Proof.Gen.KernelIdeal.Skeleton
import proofs.«142481_j1838246003412_2_alg».proof.Proof.LibSumReduce
import Idealize.ShloMosaic.Lib.ValueIdx
import Idealize.ShloMosaic.Lib.Pipeline.Value
import Idealize.ShloMosaic.Lib.ValueLayout

set_option maxRecDepth 16384

noncomputable section

namespace Cert.KernelIdeal.Stage1

open Idealize.ShloMosaic Idealize.ShloMosaic.ValueIdx Cert.KernelIdeal Cert.KernelIdeal.Gen

/-- The first layer on a block: reward times weight plus bias. -/
theorem hidden_apply (x0 : Vec Ideal S1024x1 .f32) (x1 x2 : Vec Ideal S1x1024 .f32) (r k : Fin 1024) :
    k1_pay3 x0 x1 x2 (ix2 r k) = (x0 (ix2 r (0 : Fin 1)) : EReal) * x1 (ix2 (0 : Fin 1) k) + x2 (ix2 (0 : Fin 1) k) := by
  unfold k1_pay3
  simp only [shapeCast_self]
  rw [addf_apply, mulf_apply]
  congr 1
  · congr 1
    · exact broadcastTo_apply _ _ (ix2 r k) (ix2 r (0 : Fin 1)) (fun a => by
        match a with
        | ⟨0, _⟩ => rfl
        | ⟨1, _⟩ => rfl)
    · exact broadcastTo_apply _ _ (ix2 r k) (ix2 (0 : Fin 1) k) (fun a => by
        match a with
        | ⟨0, _⟩ => rfl
        | ⟨1, _⟩ => rfl)
  · exact broadcastTo_apply _ _ (ix2 r k) (ix2 (0 : Fin 1) k) (fun a => by
      match a with
      | ⟨0, _⟩ => rfl
      | ⟨1, _⟩ => rfl)

/-- The sums row after a block: what it held plus the block's column sum. -/
theorem sum_apply (x0 : Vec Ideal S1024x1 .f32) (x1 x2 acc : Vec Ideal S1x1024 .f32) (k : Fin 1024) :
    k1_pay4 x0 x1 x2 acc (ix2 (0 : Fin 1) k)
      = (acc (ix2 (0 : Fin 1) k) : EReal)
        + ∑ r : Fin 1024, ((x0 (ix2 r (0 : Fin 1)) : EReal) * x1 (ix2 (0 : Fin 1) k) + x2 (ix2 (0 : Fin 1) k)) := by
  unfold k1_pay4
  simp only [shapeCast_self]
  rw [addf_apply]
  congr 1
  rw [shapeCast_a_1a_apply]
  refine (Ideal.multiReduction_add_single' (k1_pay3 x0 x1 x2) reduces_S1024x1024_S1024 (.inl rfl) rfl (ix1 k)).trans ?_
  refine Finset.sum_congr rfl fun (r : Fin 1024) _ => ?_
  have e : reduces_S1024x1024_S1024.lift (ix1 k) r = ix2 r k :=
    funext fun a => Fin.ext (by match a with | ⟨0, _⟩ => rfl | ⟨1, _⟩ => rfl)
  rw [e, hidden_apply]

/-- The sums-of-squares row after a block. -/
theorem sumsq_apply (x0 : Vec Ideal S1024x1 .f32) (x1 x2 acc : Vec Ideal S1x1024 .f32) (k : Fin 1024) :
    k1_pay5 x0 x1 x2 acc (ix2 (0 : Fin 1) k)
      = (acc (ix2 (0 : Fin 1) k) : EReal)
        + ∑ r : Fin 1024, ((x0 (ix2 r (0 : Fin 1)) : EReal) * x1 (ix2 (0 : Fin 1) k) + x2 (ix2 (0 : Fin 1) k))
            * ((x0 (ix2 r (0 : Fin 1)) : EReal) * x1 (ix2 (0 : Fin 1) k) + x2 (ix2 (0 : Fin 1) k)) := by
  unfold k1_pay5
  simp only [shapeCast_self]
  rw [addf_apply]
  congr 1
  rw [shapeCast_a_1a_apply]
  refine (Ideal.multiReduction_add_single' (mulf (k1_pay3 x0 x1 x2) (k1_pay3 x0 x1 x2)) reduces_S1024x1024_S1024 (.inl rfl) rfl (ix1 k)).trans ?_
  refine Finset.sum_congr rfl fun (r : Fin 1024) _ => ?_
  have e : reduces_S1024x1024_S1024.lift (ix1 k) r = ix2 r k :=
    funext fun a => Fin.ext (by match a with | ⟨0, _⟩ => rfl | ⟨1, _⟩ => rfl)
  rw [e, mulf_apply, hidden_apply]

end Cert.KernelIdeal.Stage1

end
-- ==== Proof.Stage2Block.lean ====
/-
  The second classifier region's arithmetic on one block, at an index.

  With the block's 1024 rewards `x0`, the first layer's weight and bias rows `x1`, `x2`, the scale and shift rows `x3`,
  `x4`, the second layer's weight column `x5` and bias `x6`:
    activation (r, k)   = max (x3 k · (x0 r · x1 k + x2 k) + x4 k, 0),
    pre-activation r    = Σ_k activation (r, k) · x5 k + x6.
  The narrowing of the two factors before the product is the identity on the extended reals.
-/
import proofs.«142481_j1838246003412_2_alg».proof.Proof.Stage1Block

set_option maxRecDepth 16384

noncomputable section

namespace Cert.KernelIdeal.Stage2

open Idealize.ShloMosaic Idealize.ShloMosaic.ValueIdx Cert.KernelIdeal Cert.KernelIdeal.Gen

/-- The normalised, clipped first layer on a block. -/
def act (x0 : Vec Ideal S1024x1 .f32) (x1 x2 x3 x4 : Vec Ideal S1x1024 .f32) : FVec Ideal S1024x1024 .f32 :=
  maximumf
    (addf (mulf (broadcastTo S1024x1024 (shapeCast S1x1024 x3 shapeCasts_S1x1024_S1x1024) broadcasts_S1x1024_S1024x1024) (k1_pay3 x0 x1 x2))
      (broadcastTo S1024x1024 (shapeCast S1x1024 x4 shapeCasts_S1x1024_S1x1024) broadcasts_S1x1024_S1024x1024))
    (broadcast S1024x1024 (Scalar.ofBits .f32 0x00000000#32))

/-- The block of pre-activations. -/
def pre (x0 : Vec Ideal S1024x1 .f32) (x1 x2 x3 x4 : Vec Ideal S1x1024 .f32) (x5 : Vec Ideal S1024x1 .f32) (x6 : Vec Ideal S1x1 .f32) :
    FVec Ideal S1024x1 .f32 :=
  addf
    (matmul dot_S1024x1024_S1024x1_S1024x1_1_0_0_1_n_n none (truncf .bf16 (act x0 x1 x2 x3 x4) bitsLt_bf16_f32)
      (truncf .bf16 (shapeCast S1024x1 x5 shapeCasts_S1024x1_S1024x1) bitsLt_bf16_f32) (constant S1024x1 .f32 0x00000000#32))
    (broadcastTo S1024x1 (shapeCast S1x1 x6 shapeCasts_S1x1_S1x1) broadcasts_S1x1_S1024x1)

theorem pay5_eq (x0 : Vec Ideal S1024x1 .f32) (x1 x2 x3 x4 : Vec Ideal S1x1024 .f32) (x5 : Vec Ideal S1024x1 .f32) (x6 : Vec Ideal S1x1 .f32) :
    k2_pay5 x0 x1 x2 x3 x4 x5 x6 = pre x0 x1 x2 x3 x4 x5 x6 := rfl

theorem act_apply (x0 : Vec Ideal S1024x1 .f32) (x1 x2 x3 x4 : Vec Ideal S1x1024 .f32) (r k : Fin 1024) :
    act x0 x1 x2 x3 x4 (ix2 r k)
      = max ((x3 (ix2 (0 : Fin 1) k) : EReal) * ((x0 (ix2 r (0 : Fin 1)) : EReal) * x1 (ix2 (0 : Fin 1) k) + x2 (ix2 (0 : Fin 1) k))
          + x4 (ix2 (0 : Fin 1) k)) (Ideal.ofBits .f32 0x00000000#32) := by
  unfold act
  simp only [shapeCast_self]
  rw [maximumf_apply, addf_apply, mulf_apply, Stage1.hidden_apply]
  congr 1
  congr 1
  · congr 1
    exact broadcastTo_apply _ _ (ix2 r k) (ix2 (0 : Fin 1) k) (fun a => by
      match a with
      | ⟨0, _⟩ => rfl
      | ⟨1, _⟩ => rfl)
  · exact broadcastTo_apply _ _ (ix2 r k) (ix2 (0 : Fin 1) k) (fun a => by
      match a with
      | ⟨0, _⟩ => rfl
      | ⟨1, _⟩ => rfl)

/-! ## The product's operand indices -/

local notation "D2" => dot_S1024x1024_S1024x1_S1024x1_1_0_0_1_n_n

theorem lhs0 (i : S1024x1.Idx) (q : dot_S1024x1024_S1024x1_S1024x1_1_0_0_1_n_n.contr.Idx) :
    (dot_S1024x1024_S1024x1_S1024x1_1_0_0_1_n_n.lhsIdx i q 0).val = (i 0).val := by
  unfold DotDims.lhsIdx
  rw [dif_neg (show ¬(0 : Fin S1024x1024.rank) ∈ dot_S1024x1024_S1024x1_S1024x1_1_0_0_1_n_n.lhsBatch by decide),
    dif_pos (show (0 : Fin S1024x1024.rank) ∈ dot_S1024x1024_S1024x1_S1024x1_1_0_0_1_n_n.lhsNonContracting by decide)]
  rfl
theorem lhs1 (i : S1024x1.Idx) (q : dot_S1024x1024_S1024x1_S1024x1_1_0_0_1_n_n.contr.Idx) :
    (dot_S1024x1024_S1024x1_S1024x1_1_0_0_1_n_n.lhsIdx i q 1).val = (q ⟨0, by decide⟩).val :=
  dot_S1024x1024_S1024x1_S1024x1_1_0_0_1_n_n.lhsIdx_val_of_single rfl i q
theorem rhs0 (i : S1024x1.Idx) (q : dot_S1024x1024_S1024x1_S1024x1_1_0_0_1_n_n.contr.Idx) :
    (dot_S1024x1024_S1024x1_S1024x1_1_0_0_1_n_n.rhsIdx i q 0).val = (q ⟨0, by decide⟩).val :=
  dot_S1024x1024_S1024x1_S1024x1_1_0_0_1_n_n.rhsIdx_val_of_single rfl i q
theorem rhs1 (i : S1024x1.Idx) (q : dot_S1024x1024_S1024x1_S1024x1_1_0_0_1_n_n.contr.Idx) :
    (dot_S1024x1024_S1024x1_S1024x1_1_0_0_1_n_n.rhsIdx i q 1).val = (i 1).val := by
  unfold DotDims.rhsIdx
  rw [dif_neg (show ¬(1 : Fin S1024x1.rank) ∈ dot_S1024x1024_S1024x1_S1024x1_1_0_0_1_n_n.rhsBatch by decide),
    dif_pos (show (1 : Fin S1024x1.rank) ∈ dot_S1024x1024_S1024x1_S1024x1_1_0_0_1_n_n.rhsNonContracting by decide)]
  rfl

/-- A pre-activation: the activations of its row against the weight column, plus the bias. -/
theorem pre_apply (x0 : Vec Ideal S1024x1 .f32) (x1 x2 x3 x4 : Vec Ideal S1x1024 .f32) (x5 : Vec Ideal S1024x1 .f32) (x6 : Vec Ideal S1x1 .f32)
    (r : Fin 1024) :
    pre x0 x1 x2 x3 x4 x5 x6 (ix2 r (0 : Fin 1))
      = (∑ k : Fin 1024, (act x0 x1 x2 x3 x4 (ix2 r k) : EReal) * x5 (ix2 k (0 : Fin 1))) + x6 (ix2 (0 : Fin 1) (0 : Fin 1)) := by
  unfold pre
  rw [addf_apply]
  congr 1
  · refine (Ideal.matmul_constant_zero_apply dot_S1024x1024_S1024x1_S1024x1_1_0_0_1_n_n none _ _ (ix2 r (0 : Fin 1))).trans ?_
    rw [← Equiv.sum_comp (contrEquiv1 dot_S1024x1024_S1024x1_S1024x1_1_0_0_1_n_n 1024 rfl rfl).symm]
    refine Finset.sum_congr rfl fun k _ => ?_
    have hk := contrEquiv1_symm_val dot_S1024x1024_S1024x1_S1024x1_1_0_0_1_n_n 1024 rfl rfl k
    have el : dot_S1024x1024_S1024x1_S1024x1_1_0_0_1_n_n.lhsIdx (ix2 r (0 : Fin 1))
        ((contrEquiv1 dot_S1024x1024_S1024x1_S1024x1_1_0_0_1_n_n 1024 rfl rfl).symm k) = ix2 r k := funext fun a => Fin.ext (by
      match a with
      | ⟨0, _⟩ => exact lhs0 _ _
      | ⟨1, _⟩ => exact (lhs1 _ _).trans hk)
    have er : dot_S1024x1024_S1024x1_S1024x1_1_0_0_1_n_n.rhsIdx (ix2 r (0 : Fin 1))
        ((contrEquiv1 dot_S1024x1024_S1024x1_S1024x1_1_0_0_1_n_n 1024 rfl rfl).symm k) = ix2 k (0 : Fin 1) := funext fun a => Fin.ext (by
      match a with
      | ⟨0, _⟩ => exact (rhs0 _ _).trans hk
      | ⟨1, _⟩ => exact rhs1 _ _)
    rw [el, er]
    simp only [shapeCast_self]
    rfl
  · simp only [shapeCast_self]
    exact broadcastTo_apply _ _ (ix2 r (0 : Fin 1)) (ix2 (0 : Fin 1) (0 : Fin 1)) (fun a => by
      match a with
      | ⟨0, _⟩ => rfl
      | ⟨1, _⟩ => rfl)

/-- The running sum after a block: what it held plus the block's pre-activations. -/
theorem sum_apply (v : FVec Ideal S1024x1 .f32) (acc : Vec Ideal S1x1 .f32) :
    k2_pay1 v acc (ix2 (0 : Fin 1) (0 : Fin 1)) = (acc (ix2 (0 : Fin 1) (0 : Fin 1)) : EReal) + ∑ r : Fin 1024, (v (ix2 r (0 : Fin 1)) : EReal) := by
  unfold k2_pay1
  simp only [shapeCast_self]
  rw [addf_apply]
  congr 1
  rw [shapeCast_a_1a_apply]
  refine (Ideal.multiReduction_add_single' v reduces_S1024x1_S1 (.inl rfl) rfl (ix1 (0 : Fin 1))).trans ?_
  refine Finset.sum_congr rfl fun (r : Fin 1024) _ => ?_
  have e : reduces_S1024x1_S1.lift (ix1 (0 : Fin 1)) r = ix2 r (0 : Fin 1) :=
    funext fun a => Fin.ext (by match a with | ⟨0, _⟩ => rfl | ⟨1, _⟩ => rfl)
  rw [e]

/-- The running sum of squares after a block. -/
theorem sumsq_apply (v : FVec Ideal S1024x1 .f32) (acc : Vec Ideal S1x1 .f32) :
    k2_pay2 v acc (ix2 (0 : Fin 1) (0 : Fin 1))
      = (acc (ix2 (0 : Fin 1) (0 : Fin 1)) : EReal) + ∑ r : Fin 1024, (v (ix2 r (0 : Fin 1)) : EReal) * v (ix2 r (0 : Fin 1)) := by
  unfold k2_pay2
  simp only [shapeCast_self]
  rw [addf_apply]
  congr 1
  rw [shapeCast_a_1a_apply]
  refine (Ideal.multiReduction_add_single' (mulf v v) reduces_S1024x1_S1 (.inl rfl) rfl (ix1 (0 : Fin 1))).trans ?_
  refine Finset.sum_congr rfl fun (r : Fin 1024) _ => ?_
  have e : reduces_S1024x1_S1.lift (ix1 (0 : Fin 1)) r = ix2 r (0 : Fin 1) :=
    funext fun a => Fin.ext (by match a with | ⟨0, _⟩ => rfl | ⟨1, _⟩ => rfl)
  rw [e, mulf_apply]

end Cert.KernelIdeal.Stage2

end
-- ==== Proof.Stage2Run.lean ====
/-
  The second classifier region over its 32 grid points.

  Point `t` writes the pre-activations of rewards 1024t … 1024t+1023 to its block of the output column; the 32 blocks
  tile the column, so the column ends holding the pre-activation of every reward. The two running scalars are, after
  point `n`, the sums (of the pre-activations and of their squares) over blocks 0 … n; the last point writes them back.
-/
import proofs.«142481_j1838246003412_2_alg».proof.Proof.Stage2Cases
import proofs.«142481_j1838246003412_2_alg».proof.Proof.Stage2Block

set_option maxRecDepth 16384

noncomputable section

namespace Cert.KernelIdeal.Stage2

open Idealize.ShloMosaic Idealize.ShloMosaic.TcCoe Idealize.ShloMosaic.ValueIdx Idealize.SL.Sem
open Idealize.ShloMosaic.Pipeline (Dat)
open Cert.KernelIdeal Cert.KernelIdeal.Gen

/-! ## The pre-activation of one reward, from any arrays -/

/-- The normalised, clipped first layer of reward `b` at feature `k`. -/
def actAt {N : Nat} (R : (⟨2, ![N, 1]⟩ : Shape).Idx → EReal) (W1 B1 S T : (⟨2, ![1, 1024]⟩ : Shape).Idx → EReal)
    (b : Fin N) (k : Fin 1024) : EReal :=
  max (S (ix2 (0 : Fin 1) k) * (R (ix2 b (0 : Fin 1)) * W1 (ix2 (0 : Fin 1) k) + B1 (ix2 (0 : Fin 1) k)) + T (ix2 (0 : Fin 1) k))
    (Ideal.ofBits .f32 0x00000000#32)

/-- The second layer's pre-activation of reward `b`. -/
def preAt {N : Nat} (R : (⟨2, ![N, 1]⟩ : Shape).Idx → EReal) (W1 B1 S T : (⟨2, ![1, 1024]⟩ : Shape).Idx → EReal)
    (W2 : (⟨2, ![1024, 1]⟩ : Shape).Idx → EReal) (B2 : (⟨2, ![1, 1]⟩ : Shape).Idx → EReal) (b : Fin N) : EReal :=
  (∑ k : Fin 1024, actAt R W1 B1 S T b k * W2 (ix2 k (0 : Fin 1))) + B2 (ix2 (0 : Fin 1) (0 : Fin 1))

/-- It only looks at the reward's own entry of the first array. -/
theorem preAt_congr {N M : Nat} (x0 : (⟨2, ![N, 1]⟩ : Shape).Idx → EReal) (R : (⟨2, ![M, 1]⟩ : Shape).Idx → EReal)
    (x1 x2 x3 x4 W1 B1 S T : (⟨2, ![1, 1024]⟩ : Shape).Idx → EReal) (x5 W2 : (⟨2, ![1024, 1]⟩ : Shape).Idx → EReal)
    (x6 B2 : (⟨2, ![1, 1]⟩ : Shape).Idx → EReal) (r : Fin N) (n : Fin M)
    (h0 : x0 (ix2 r (0 : Fin 1)) = R (ix2 n (0 : Fin 1))) (h1 : x1 = W1) (h2 : x2 = B1) (h3 : x3 = S) (h4 : x4 = T)
    (h5 : x5 = W2) (h6 : x6 = B2) : preAt x0 x1 x2 x3 x4 x5 x6 r = preAt R W1 B1 S T W2 B2 n := by
  subst h1 h2 h3 h4 h5 h6
  unfold preAt actAt
  simp only [h0]

/-- The body's block of pre-activations, entry by entry. -/
theorem pay5_apply (x0 : Vec Ideal S1024x1 .f32) (x1 x2 x3 x4 : Vec Ideal S1x1024 .f32) (x5 : Vec Ideal S1024x1 .f32)
    (x6 : Vec Ideal S1x1 .f32) (r : Fin 1024) :
    (k2_pay5 x0 x1 x2 x3 x4 x5 x6 (ix2 r (0 : Fin 1)) : EReal) = preAt (N := 1024) x0 x1 x2 x3 x4 x5 x6 r := by
  rw [pay5_eq, pre_apply]
  unfold preAt actAt
  congr 1
  exact Finset.sum_congr rfl fun k _ => by rw [act_apply]

/-! ## The run -/

variable (V : (c : Dev nD) → (b : Ref sig .tc) → Buf (Elt Ideal) ((c : Thread nD τ).loc b))

/-- The three outputs after point `n`. -/
def outs (c : Dev nD) : (n : ℕ) → n < cfg2.N → Vec Ideal S1024x1 .f32 × Vec Ideal S1x1 .f32 × Vec Ideal S1x1 .f32
  | 0, h => (k2_pay5 (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩) (iblk2 V c 6 ⟨0, h⟩),
      k2_pay1 (k2_pay5 (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩) (iblk2 V c 6 ⟨0, h⟩)) (k2_pay3 (F := Ideal)),
      k2_pay2 (k2_pay5 (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩) (iblk2 V c 6 ⟨0, h⟩)) (k2_pay4 (F := Ideal)))
  | n + 1, h => (k2_pay5 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (iblk2 V c 6 ⟨n + 1, h⟩),
      k2_pay1 (k2_pay5 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (iblk2 V c 6 ⟨n + 1, h⟩)) (outs c n (Nat.lt_of_succ_lt h)).2.1,
      k2_pay2 (k2_pay5 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (iblk2 V c 6 ⟨n + 1, h⟩)) (outs c n (Nat.lt_of_succ_lt h)).2.2)

theorem outsAt_eq (c : Dev nD) : ∀ (n : ℕ) (h : n < cfg2.N), outsAt2 V c n h = outs V c n h
  | 0, h => by
    rw [outsAt2_A V c ⟨0, h⟩ rfl, first_pre, first_sum, first_sumsq]
    rfl
  | n + 1, h => by
    have hN : cfg2.N = 32 := N_2
    have hB : ¬(⟨n + 1, h⟩ : Fin cfg2.N).val % 32 = 0 := by dsimp only; omega
    rw [outsAt2_B V c ⟨n + 1, h⟩ hB, later_pre, later_sum, later_sumsq]
    show (k2_pay5 _ _ _ _ _ _ _, k2_pay1 _ (outsAt2 V c n _).2.1, k2_pay2 _ (outsAt2 V c n _).2.2) = _
    rw [outsAt_eq c n]
    rfl

/-- The pre-activation block a point leaves is the body's block of that point, first point or not. -/
theorem outs_fst (c : Dev nD) : ∀ (n : ℕ) (h : n < cfg2.N),
    (outs V c n h).1 = k2_pay5 (iblk2 V c 0 ⟨n, h⟩) (iblk2 V c 1 ⟨n, h⟩) (iblk2 V c 2 ⟨n, h⟩) (iblk2 V c 3 ⟨n, h⟩) (iblk2 V c 4 ⟨n, h⟩) (iblk2 V c 5 ⟨n, h⟩) (iblk2 V c 6 ⟨n, h⟩)
  | 0, _ => rfl
  | _ + 1, _ => rfl

/-- Block `t`'s sum of pre-activations (zero past the grid), and of their squares. -/
def blockSum (c : Dev nD) (t : ℕ) : EReal :=
  if h : t < cfg2.N then ∑ r : Fin 1024, ((k2_pay5 (iblk2 V c 0 ⟨t, h⟩) (iblk2 V c 1 ⟨t, h⟩) (iblk2 V c 2 ⟨t, h⟩) (iblk2 V c 3 ⟨t, h⟩) (iblk2 V c 4 ⟨t, h⟩) (iblk2 V c 5 ⟨t, h⟩) (iblk2 V c 6 ⟨t, h⟩)) (ix2 r (0 : Fin 1)) : EReal) else 0
def blockSumSq (c : Dev nD) (t : ℕ) : EReal :=
  if h : t < cfg2.N then ∑ r : Fin 1024, ((k2_pay5 (iblk2 V c 0 ⟨t, h⟩) (iblk2 V c 1 ⟨t, h⟩) (iblk2 V c 2 ⟨t, h⟩) (iblk2 V c 3 ⟨t, h⟩) (iblk2 V c 4 ⟨t, h⟩) (iblk2 V c 5 ⟨t, h⟩) (iblk2 V c 6 ⟨t, h⟩)) (ix2 r (0 : Fin 1)) : EReal)
    * (k2_pay5 (iblk2 V c 0 ⟨t, h⟩) (iblk2 V c 1 ⟨t, h⟩) (iblk2 V c 2 ⟨t, h⟩) (iblk2 V c 3 ⟨t, h⟩) (iblk2 V c 4 ⟨t, h⟩) (iblk2 V c 5 ⟨t, h⟩) (iblk2 V c 6 ⟨t, h⟩)) (ix2 r (0 : Fin 1)) else 0

theorem outs_sum (c : Dev nD) : ∀ (n : ℕ) (h : n < cfg2.N),
    ((outs V c n h).2.1 (ix2 (0 : Fin 1) (0 : Fin 1)) : EReal) = ∑ t ∈ Finset.range (n + 1), blockSum V c t
  | 0, h => by
    show (k2_pay1 (F := Ideal) _ (k2_pay3 (F := Ideal)) (ix2 (0 : Fin 1) (0 : Fin 1)) : EReal) = _
    rw [sum_apply, Finset.sum_range_one]
    show Ideal.ofBits .f32 0x00000000#32 + _ = _
    rw [Ideal.ofBits_zero_f32, zero_add, blockSum, dif_pos h]
  | n + 1, h => by
    show (k2_pay1 (F := Ideal) _ (outs V c n _).2.1 (ix2 (0 : Fin 1) (0 : Fin 1)) : EReal) = _
    rw [sum_apply, outs_sum c n, Finset.sum_range_succ _ (n + 1), blockSum, dif_pos h]

theorem outs_sumsq (c : Dev nD) : ∀ (n : ℕ) (h : n < cfg2.N),
    ((outs V c n h).2.2 (ix2 (0 : Fin 1) (0 : Fin 1)) : EReal) = ∑ t ∈ Finset.range (n + 1), blockSumSq V c t
  | 0, h => by
    show (k2_pay2 (F := Ideal) _ (k2_pay4 (F := Ideal)) (ix2 (0 : Fin 1) (0 : Fin 1)) : EReal) = _
    rw [sumsq_apply, Finset.sum_range_one]
    show Ideal.ofBits .f32 0x00000000#32 + _ = _
    rw [Ideal.ofBits_zero_f32, zero_add, blockSumSq, dif_pos h]
  | n + 1, h => by
    show (k2_pay2 (F := Ideal) _ (outs V c n _).2.2 (ix2 (0 : Fin 1) (0 : Fin 1)) : EReal) = _
    rw [sumsq_apply, outs_sumsq c n, Finset.sum_range_succ _ (n + 1), blockSumSq, dif_pos h]

/-- The last point. -/
def tLast : Fin cfg2.N := ⟨31, by have h : cfg2.N = 32 := N_2; omega⟩

abbrev total (c : Dev nD) : Buf (Elt Ideal) ((c : Thread nD τ).loc main_v33_1) := (outs V c 31 tLast.isLt).2.1
abbrev totalSq (c : Dev nD) : Buf (Elt Ideal) ((c : Thread nD τ).loc main_v33_2) := (outs V c 31 tLast.isLt).2.2

/-- The one write-back of the running sum, at the last point, writes it whole. -/
theorem flushed8_eq (c : Dev nD) (t : Fin cfg2.N) (hf : (cfg2.win 8).flush t = true) :
    (dat2 V c).flushed 8 t = ((cfg2.win 8).blk t).view.read (Elt Ideal) (total V c) := by
  have hN : cfg2.N = 32 := N_2
  have h31 : t.val = 31 := by have := (flush2_8 t).mp hf; have := t.isLt; omega
  obtain rfl : t = tLast := Fin.ext h31
  show (cfg2.win 8).cut (grid2.coords tLast) ((dat2 V c).after 8 tLast) = _
  rw [after2_8, outsAt_eq]
  have hz' : (fun a => win2_8.index tLast a * main_v33_1.ty.shape.size a) = fun _ => 0 := funext fun a => by fin_cases a <;> decide
  exact (Memref.read_access_unit_zero (Elt Ideal) main_v33_1 hz' (fun a => by rw [congrFun hz' a]; simp) (total V c)).symm

theorem final8 (c : Dev nD) : (dat2 V c).arrAt 8 cfg2.N = total V c :=
  (dat2 V c).arrAt_eq_of_cover 8 (total V c) (flushed8_eq V c) fun i =>
    ⟨tLast, (flush2_8 tLast).mpr rfl, by
      show i ∈ ((View.whole main_v33_1).slice (win2_8.rect tLast)).set
      rw [View.set_slice_whole, Rect.mem_set_unit]
      intro a
      have h0 : (i 0 : Nat) < 1 := (i 0).isLt
      have h1 : (i 1 : Nat) < 1 := (i 1).isLt
      match a with
      | ⟨0, _⟩ => show win2_8.index tLast 0 * win2_8.size 0 ≤ (i 0 : Nat) ∧ (i 0 : Nat) < win2_8.index tLast 0 * win2_8.size 0 + win2_8.xsize (grid2.coords tLast) 0
                  rw [show win2_8.index tLast 0 * win2_8.size 0 = 0 from by decide +kernel, show win2_8.xsize (grid2.coords tLast) 0 = 1 from by decide +kernel]; omega
      | ⟨1, _⟩ => show win2_8.index tLast 1 * win2_8.size 1 ≤ (i 1 : Nat) ∧ (i 1 : Nat) < win2_8.index tLast 1 * win2_8.size 1 + win2_8.xsize (grid2.coords tLast) 1
                  rw [show win2_8.index tLast 1 * win2_8.size 1 = 0 from by decide +kernel, show win2_8.xsize (grid2.coords tLast) 1 = 1 from by decide +kernel]; omega⟩

/-- The same for the running sum of squares. -/
theorem flushed9_eq (c : Dev nD) (t : Fin cfg2.N) (hf : (cfg2.win 9).flush t = true) :
    (dat2 V c).flushed 9 t = ((cfg2.win 9).blk t).view.read (Elt Ideal) (totalSq V c) := by
  have hN : cfg2.N = 32 := N_2
  have h31 : t.val = 31 := by have := (flush2_9 t).mp hf; have := t.isLt; omega
  obtain rfl : t = tLast := Fin.ext h31
  show (cfg2.win 9).cut (grid2.coords tLast) ((dat2 V c).after 9 tLast) = _
  rw [after2_9, outsAt_eq]
  have hz' : (fun a => win2_9.index tLast a * main_v33_2.ty.shape.size a) = fun _ => 0 := funext fun a => by fin_cases a <;> decide
  exact (Memref.read_access_unit_zero (Elt Ideal) main_v33_2 hz' (fun a => by rw [congrFun hz' a]; simp) (totalSq V c)).symm

theorem final9 (c : Dev nD) : (dat2 V c).arrAt 9 cfg2.N = totalSq V c :=
  (dat2 V c).arrAt_eq_of_cover 9 (totalSq V c) (flushed9_eq V c) fun i =>
    ⟨tLast, (flush2_9 tLast).mpr rfl, by
      show i ∈ ((View.whole main_v33_2).slice (win2_9.rect tLast)).set
      rw [View.set_slice_whole, Rect.mem_set_unit]
      intro a
      have h0 : (i 0 : Nat) < 1 := (i 0).isLt
      have h1 : (i 1 : Nat) < 1 := (i 1).isLt
      match a with
      | ⟨0, _⟩ => show win2_9.index tLast 0 * win2_9.size 0 ≤ (i 0 : Nat) ∧ (i 0 : Nat) < win2_9.index tLast 0 * win2_9.size 0 + win2_9.xsize (grid2.coords tLast) 0
                  rw [show win2_9.index tLast 0 * win2_9.size 0 = 0 from by decide +kernel, show win2_9.xsize (grid2.coords tLast) 0 = 1 from by decide +kernel]; omega
      | ⟨1, _⟩ => show win2_9.index tLast 1 * win2_9.size 1 ≤ (i 1 : Nat) ∧ (i 1 : Nat) < win2_9.index tLast 1 * win2_9.size 1 + win2_9.xsize (grid2.coords tLast) 1
                  rw [show win2_9.index tLast 1 * win2_9.size 1 = 0 from by decide +kernel, show win2_9.xsize (grid2.coords tLast) 1 = 1 from by decide +kernel]; omega⟩

end Cert.KernelIdeal.Stage2

end
-- ==== Proof.LibBatchNorm.lean ====
/-
  Two spellings of a batch normalisation agree on real inputs.

  For real numbers x₁ … xₙ with sum S and sum of squares Q, and μ = S / n:
    the mean of the squared deviations (xᵢ − μ)² is Q / n − μ²;
  so, with s = (variance + ε)^(-1/2) for an ε > 0 (the variance is not negative, hence s is a real number),
    (γ·s)·x + (β − μ·(γ·s)) = (γ·(x − μ))·s + β.
  Stated on the extended reals, where the programs compute: every quantity is the image of a real number.
-/
import Idealize.ShloMosaic.PureOps.Ideal.Laws

namespace Idealize.ShloMosaic.Ideal

/-- The image of a finite real sum is the sum of the images. -/
theorem coe_finset_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The reciprocal square root of a positive real is a real. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The mean of the squared deviations is the mean of the squares minus the squared mean. -/
theorem variance_identity {n : ℕ} (C : ℝ) (hC : C = n) (hC0 : C ≠ 0) (x : Fin n → ℝ) :
    (∑ i, (x i - (∑ j, x j) * (1 / C)) * (x i - (∑ j, x j) * (1 / C))) * (1 / C)
      = (∑ i, x i * x i) * (1 / C) - ((∑ j, x j) * (1 / C)) * ((∑ j, x j) * (1 / C)) := by
  set s := ∑ j, x j with hs
  set m := s * (1 / C) with hm
  have h1 : ∑ i, (x i - m) * (x i - m) = (∑ i, x i * x i) - 2 * m * s + C * (m * m) := by
    have : ∀ i, (x i - m) * (x i - m) = x i * x i - 2 * m * x i + m * m := fun i => by ring
    simp only [this, Finset.sum_add_distrib, Finset.sum_sub_distrib, ← Finset.mul_sum, Finset.sum_const, Finset.card_univ,
      Fintype.card_fin, nsmul_eq_mul, hC]
    rw [← hs]
    ring
  rw [h1, hm]
  field_simp
  ring

/-- THE TWO SPELLINGS AGREE, and their common value is a real number. -/
theorem batchnorm_forms {n : ℕ} (C : ℝ) (hC : C = n) (hC0 : 0 < C) (x : Fin n → ℝ) (g be e : ℝ) (he : 0 < e) (b : Fin n) :
    (((g : EReal) * Ideal.rsqrt
          ((Ideal.div (∑ i, (x i : EReal) * (x i : EReal)) (C : EReal)
              - Ideal.div (∑ i, (x i : EReal)) (C : EReal) * Ideal.div (∑ i, (x i : EReal)) (C : EReal)) + (e : EReal)))
        * (x b : EReal)
      + ((be : EReal) - Ideal.div (∑ i, (x i : EReal)) (C : EReal)
          * ((g : EReal) * Ideal.rsqrt
              ((Ideal.div (∑ i, (x i : EReal) * (x i : EReal)) (C : EReal)
                  - Ideal.div (∑ i, (x i : EReal)) (C : EReal) * Ideal.div (∑ i, (x i : EReal)) (C : EReal)) + (e : EReal))))
    = ((g : EReal) * ((x b : EReal) - Ideal.div (∑ i, (x i : EReal)) (C : EReal)))
        * Ideal.rsqrt (Ideal.div (∑ i, ((x i : EReal) - Ideal.div (∑ j, (x j : EReal)) (C : EReal))
            * ((x i : EReal) - Ideal.div (∑ j, (x j : EReal)) (C : EReal))) (C : EReal) + (e : EReal))
      + (be : EReal))
    ∧ ∃ r : ℝ, ((g : EReal) * ((x b : EReal) - Ideal.div (∑ i, (x i : EReal)) (C : EReal)))
        * Ideal.rsqrt (Ideal.div (∑ i, ((x i : EReal) - Ideal.div (∑ j, (x j : EReal)) (C : EReal))
            * ((x i : EReal) - Ideal.div (∑ j, (x j : EReal)) (C : EReal))) (C : EReal) + (e : EReal))
      + (be : EReal) = (r : EReal) := by
  have hC0' : C ≠ 0 := hC0.ne'
  -- every quantity is the image of a real number
  have hS : (∑ i, (x i : EReal)) = ((∑ i, x i : ℝ) : EReal) := (coe_finset_sum _ _).symm
  have hQ : (∑ i, (x i : EReal) * (x i : EReal)) = ((∑ i, x i * x i : ℝ) : EReal) := by
    rw [coe_finset_sum]; exact Finset.sum_congr rfl fun i _ => (EReal.coe_mul _ _).symm
  set m : ℝ := (∑ i, x i) * (1 / C) with hm
  have hμ : Ideal.div (∑ i, (x i : EReal)) (C : EReal) = (m : EReal) := by
    rw [hS, Ideal.div_coe hC0', ← EReal.coe_mul]
  have hT : (∑ i, ((x i : EReal) - (m : EReal)) * ((x i : EReal) - (m : EReal))) = ((∑ i, (x i - m) * (x i - m) : ℝ) : EReal) := by
    rw [coe_finset_sum]
    exact Finset.sum_congr rfl fun i _ => by rw [← EReal.coe_sub, ← EReal.coe_mul]
  have hvar := variance_identity C hC hC0' x
  rw [← hm] at hvar
  set v : ℝ := (∑ i, (x i - m) * (x i - m)) * (1 / C) with hv
  have hv0 : 0 ≤ v := mul_nonneg (Finset.sum_nonneg fun i _ => mul_self_nonneg _) (by positivity)
  have hpos : 0 < v + e := by linarith
  rw [hμ, hT, hQ, Ideal.div_coe hC0', Ideal.div_coe hC0', ← EReal.coe_mul, ← EReal.coe_mul, ← EReal.coe_mul, ← EReal.coe_sub,
    ← EReal.coe_add, ← EReal.coe_add, ← hv, ← hvar, rsqrt_coe_pos hpos]
  set ρ : ℝ := (Real.sqrt (v + e))⁻¹
  have : g * ρ * x b + (be - m * (g * ρ)) = g * (x b - m) * ρ + be := by ring
  exact ⟨by exact_mod_cast this, g * (x b - m) * ρ + be, by push_cast; rfl⟩

end Idealize.ShloMosaic.Ideal
-- ==== Proof.ClassifierAlgebra.lean ====
/-
  The classifier of the two programs is the same function of a real reward column and real weights.

  Kernel side: with x b k = r b · W₁ k + B₁ k, the scale row SC k = γ₁ k · (Σx²/n − (Σx/n)² + ε)^(-1/2) and the shift row
  SH k = β₁ k − (Σx/n) · SC k, the activation is max (SC k · x b k + SH k, 0) and the pre-activation
  P b = Σ_k activation b k · W₂ k + B₂; the score is max (SC₂ · P b + SH₂, 0) with SC₂, SH₂ made from ΣP and ΣP² the
  same way. Reference side: the same x, normalised by its mean and centred variance, and again for the second layer.
  The two normalisations agree on real inputs (`Ideal.batchnorm_forms`), and every intermediate value is real.
-/
import proofs.«142481_j1838246003412_2_alg».proof.Proof.RefScores
import proofs.«142481_j1838246003412_2_alg».proof.Proof.Stage2Run
import proofs.«142481_j1838246003412_2_alg».proof.Proof.LibBatchNorm

set_option maxRecDepth 16384

noncomputable section

namespace Cert.Proof.Classifier

open Idealize.ShloMosaic Idealize.ShloMosaic.ValueIdx
open Cert.ReferenceIdeal Cert.ReferenceIdeal.Gen Cert.ReferenceIdeal.Stages Cert.ReferenceIdeal.ScoresRead
open Cert.KernelIdeal.Stage2 (actAt preAt)

/-- The batch size as a real number. -/
abbrev nB : ℝ := 32768

theorem Cb_eq : (Cb : EReal) = ((nB : ℝ) : EReal) := Ideal.ofBits_f32_32768
theorem nB_eq : nB = ((32768 : ℕ) : ℝ) := by norm_num
theorem nB_pos : 0 < nB := by norm_num
theorem Z_eq : (Z : EReal) = ((0 : ℝ) : EReal) := by rw [show (Z : EReal) = 0 from Ideal.ofBits_zero_f32]; rfl

/-- The maximum of a real and the program's zero is a real. -/
theorem max_real (a : ℝ) : max (a : EReal) Z = ((max a 0 : ℝ) : EReal) := by
  rw [Z_eq]; exact (EReal.coe_strictMono.monotone.map_max).symm

variable (r : FVec Ideal S32768x1 .f32) (w1 : FVec Ideal S1024x1 .f32) (b1 g1 be1 : FVec Ideal S1024 .f32)
  (w2 : FVec Ideal S1x1024 .f32) (b2 g2 be2 : FVec Ideal S1 .f32)
variable (W1 B1 SC SH : (⟨2, ![1, 1024]⟩ : Shape).Idx → EReal) (W2 : (⟨2, ![1024, 1]⟩ : Shape).Idx → EReal)
  (B2 : (⟨2, ![1, 1]⟩ : Shape).Idx → EReal)

/-- The first layer's output, kernel spelling. -/
def xk (b : Fin 32768) (k : Fin 1024) : EReal := r (ix2 b (0 : Fin 1)) * W1 (ix2 (0 : Fin 1) k) + B1 (ix2 (0 : Fin 1) k)

section Layer1
variable (hr : ∀ b : Fin 32768, ∃ ρ : ℝ, (r (ix2 b (0 : Fin 1)) : EReal) = ρ)
  (hw1 : ∀ k : Fin 1024, ∃ ρ : ℝ, (w1 (ix2 k (0 : Fin 1)) : EReal) = ρ) (hb1 : ∀ k : Fin 1024, ∃ ρ : ℝ, (b1 (ix1 k) : EReal) = ρ)
  (hg1 : ∀ k : Fin 1024, ∃ ρ : ℝ, (g1 (ix1 k) : EReal) = ρ) (hbe1 : ∀ k : Fin 1024, ∃ ρ : ℝ, (be1 (ix1 k) : EReal) = ρ)
  (hW1 : ∀ k : Fin 1024, W1 (ix2 (0 : Fin 1) k) = w1 (ix2 k (0 : Fin 1))) (hB1 : ∀ k : Fin 1024, B1 (ix2 (0 : Fin 1) k) = b1 (ix1 k))
  (hSC : ∀ k : Fin 1024, SC (ix2 (0 : Fin 1) k) = (g1 (ix1 k) : EReal) * Ideal.rsqrt
    ((Ideal.div (∑ b : Fin 32768, xk r W1 B1 b k * xk r W1 B1 b k) Cb
      - Ideal.div (∑ b : Fin 32768, xk r W1 B1 b k) Cb * Ideal.div (∑ b : Fin 32768, xk r W1 B1 b k) Cb) + Eps))
  (hSH : ∀ k : Fin 1024, SH (ix2 (0 : Fin 1) k) = (be1 (ix1 k) : EReal) - Ideal.div (∑ b : Fin 32768, xk r W1 B1 b k) Cb * SC (ix2 (0 : Fin 1) k))

include hr hw1 hb1 hg1 hbe1 hW1 hB1 hSC hSH in
/-- LAYER 1: the kernel's activation is the reference's, and it is a real number. -/
theorem layer1 (b : Fin 32768) (k : Fin 1024) :
    actAt r W1 B1 SC SH b k = relu1 (hidden1 r w1 b1) g1 be1 (ix2 b k)
    ∧ ∃ ρ : ℝ, relu1 (hidden1 r w1 b1) g1 be1 (ix2 b k) = (ρ : EReal) := by
  -- real witnesses
  choose rr hrr using hr
  obtain ⟨ω, hω⟩ := hw1 k; obtain ⟨β, hβ⟩ := hb1 k; obtain ⟨γ, hγ⟩ := hg1 k; obtain ⟨δ, hδ⟩ := hbe1 k
  obtain ⟨e, he, hEps⟩ := Ideal.ofBits_f32_eps
  -- the first layer's output is the real rr b · ω + β, in both spellings
  have hx : ∀ b', xk r W1 B1 b' k = ((rr b' * ω + β : ℝ) : EReal) := fun b' => by
    unfold xk; rw [hW1, hB1, hrr, hω, hβ, ← EReal.coe_mul, ← EReal.coe_add]
  have hh : ∀ b', (hidden1 r w1 b1 (ix2 b' k) : EReal) = ((rr b' * ω + β : ℝ) : EReal) := fun b' => by
    rw [hidden1_apply, hrr, hω, hβ, ← EReal.coe_mul, ← EReal.coe_add]
  have key := Ideal.batchnorm_forms nB nB_eq nB_pos (fun b' : Fin 32768 => rr b' * ω + β) γ δ e he b
  rw [relu1_apply, mean1_apply, var1_apply]
  simp only [centred1_apply, hh, hγ, hδ, show (Eps : EReal) = (e : EReal) from hEps, Cb_eq]
  unfold actAt
  rw [hSC, hSH, hSC]
  simp only [show ∀ b', r (ix2 b' (0 : Fin 1)) * W1 (ix2 (0 : Fin 1) k) + B1 (ix2 (0 : Fin 1) k) = xk r W1 B1 b' k from fun _ => rfl,
    hx, hγ, hδ, show (Eps : EReal) = (e : EReal) from hEps, Cb_eq]
  obtain ⟨h1, ρ, h2⟩ := key
  refine ⟨?_, max ρ 0, ?_⟩
  · rw [show (Ideal.ofBits .f32 0x00000000#32 : EReal) = Z from rfl]
    exact congrArg (fun z => max z Z) h1
  · rw [h2]; exact max_real ρ

variable (hw2 : ∀ k : Fin 1024, ∃ ρ : ℝ, (w2 (ix2 (0 : Fin 1) k) : EReal) = ρ) (hb2 : ∃ ρ : ℝ, (b2 (ix1 (0 : Fin 1)) : EReal) = ρ)
  (hW2 : ∀ k : Fin 1024, W2 (ix2 k (0 : Fin 1)) = w2 (ix2 (0 : Fin 1) k)) (hB2 : B2 (ix2 (0 : Fin 1) (0 : Fin 1)) = b2 (ix1 (0 : Fin 1)))

include hr hw1 hb1 hg1 hbe1 hW1 hB1 hSC hSH hw2 hb2 hW2 hB2 in
/-- THE PRE-ACTIVATION: the kernel's is the reference's second layer before normalisation, and it is a real number. -/
theorem pre_eq (b : Fin 32768) :
    preAt r W1 B1 SC SH W2 B2 b = hidden2 (relu1 (hidden1 r w1 b1) g1 be1) w2 b2 (ix2 b (0 : Fin 1))
    ∧ ∃ ρ : ℝ, hidden2 (relu1 (hidden1 r w1 b1) g1 be1) w2 b2 (ix2 b (0 : Fin 1)) = (ρ : EReal) := by
  have L := fun k => layer1 r w1 b1 g1 be1 W1 B1 SC SH hr hw1 hb1 hg1 hbe1 hW1 hB1 hSC hSH b k
  choose a ha using fun k => (L k).2
  choose ω hω using hw2
  obtain ⟨β, hβ⟩ := hb2
  constructor
  · unfold preAt
    rw [hidden2_apply, hB2]
    exact congrArg (· + (b2 (ix1 (0 : Fin 1)) : EReal)) (Finset.sum_congr rfl fun k _ => by rw [(L k).1, hW2])
  · refine ⟨(∑ k, a k * ω k) + β, ?_⟩
    rw [hidden2_apply, hβ, EReal.coe_add, Ideal.coe_finset_sum]
    exact congrArg (· + (β : EReal)) (Finset.sum_congr rfl fun k _ => by rw [ha, hω, EReal.coe_mul])
end Layer1

section Layer2
variable (P : Fin 32768 → EReal) (SC2 SH2 : EReal) (H : FVec Ideal S32768x1 .f32)
  (hP : ∀ b, P b = H (ix2 b (0 : Fin 1))) (hH : ∀ b : Fin 32768, ∃ ρ : ℝ, (H (ix2 b (0 : Fin 1)) : EReal) = ρ)
  (hg2 : ∃ ρ : ℝ, (g2 (ix1 (0 : Fin 1)) : EReal) = ρ) (hbe2 : ∃ ρ : ℝ, (be2 (ix1 (0 : Fin 1)) : EReal) = ρ)
  (hSC2 : SC2 = (g2 (ix1 (0 : Fin 1)) : EReal) * Ideal.rsqrt
    ((Ideal.div (∑ b : Fin 32768, P b * P b) Cb - Ideal.div (∑ b : Fin 32768, P b) Cb * Ideal.div (∑ b : Fin 32768, P b) Cb) + Eps))
  (hSH2 : SH2 = (be2 (ix1 (0 : Fin 1)) : EReal) - Ideal.div (∑ b : Fin 32768, P b) Cb * SC2)

include hP hH hg2 hbe2 hSC2 hSH2 in
/-- LAYER 2: the kernel's score is the reference's. -/
theorem layer2 (b : Fin 32768) :
    max (SC2 * P b + SH2) (Ideal.ofBits .f32 0x00000000#32) = relu2 H g2 be2 (ix2 b (0 : Fin 1)) := by
  choose p hp using hH
  obtain ⟨γ, hγ⟩ := hg2; obtain ⟨δ, hδ⟩ := hbe2
  obtain ⟨e, he, hEps⟩ := Ideal.ofBits_f32_eps
  have key := (Ideal.batchnorm_forms nB nB_eq nB_pos p γ δ e he b).1
  rw [relu2_apply, mean2_apply, var2_apply]
  simp only [centred2_apply, hp, hγ, hδ, show (Eps : EReal) = (e : EReal) from hEps, Cb_eq]
  rw [hSH2, hSC2]
  simp only [hP, hp, hγ, hδ, show (Eps : EReal) = (e : EReal) from hEps, Cb_eq]
  rw [show (Ideal.ofBits .f32 0x00000000#32 : EReal) = Z from rfl]
  exact congrArg (fun z => max z Z) key
end Layer2

end Cert.Proof.Classifier

end
-- ==== Proof.Stage1Cases.lean ====
/-
  The first classifier region, one grid point at a time.

  The region keeps two rows of 1024 running sums, one per hidden feature: the sum over the batch of the first layer's
  output, and the sum of its square. At the first point the body clears both rows and then adds the point's block; at
  every later point it adds the point's block to what the point before left.
-/
import proofs.«142481_j1838246003412_2_alg».proof.Proof.Gen.KernelIdeal.Frame
import Idealize.ShloMosaic.Lib.Pipeline.Value
import Idealize.ShloMosaic.Lib.Tactic

set_option maxRecDepth 16384

noncomputable section

namespace Cert.KernelIdeal.Stage1

open Idealize.ShloMosaic Idealize.ShloMosaic.TcCoe Idealize.SL.Sem
open Idealize.ShloMosaic.Pipeline (Dat)
open Cert.KernelIdeal Cert.KernelIdeal.Gen

variable {F : FTy → Type} [FloatOps F]

theorem hz : (![0, 0] : Fin 2 → Nat) = fun _ => 0 := funext fun a => by fin_cases a <;> rfl

/-- A LATER POINT, the sums: the row the point before left plus the block's column sums. -/
theorem later_sum (c : Dev nD) (i : grid1.Coords) (a1 : Memref sig .tc .vmem S1024x1 .f32) (h1 : a1.IsWhole)
    (a2 : Memref sig .tc .vmem S1x1024 .f32) (h2 : a2.IsWhole) (a3 : Memref sig .tc .vmem S1x1024 .f32) (h3 : a3.IsWhole)
    (a4 : Memref sig .tc .vmem S1x1024 .f32) (h4 : a4.IsWhole) (a5 : Memref sig .tc .vmem S1x1024 .f32) (h5 : a5.IsWhole)
    (hc : ¬cond1_0 i) (x0 : Vec F S1024x1 .f32) (x1 x2 xo3 xo4 : Vec F S1x1024 .f32) :
    out1_B_3 c i a1 h1 a2 h2 a3 h3 a4 h4 a5 h5 hc x0 x1 x2 xo3 xo4 = k1_pay4 x0 x1 x2 xo3 := by
  unfold out1_B_3
  rw [View.read_writes_eq_canon _ _ _ (cover1_B_3 c i a1 h1 a2 h2 a3 h3 a4 h4 a5 h5 hc x0 x1 x2 xo3 xo4)]
  unfold kernelRun1_B
  dsimp only
  rw [View.canon_unit_zero hz]
  simp only [View.readAt_eq_ld, h1.read_unread, h2.read_unread, h3.read_unread, h4.read_unread,
    View.ld_unit_zero (S := S1024x1) hz, View.ld_unit_zero (S := S1x1024) hz]

/-- A LATER POINT, the sums of squares. -/
theorem later_sumsq (c : Dev nD) (i : grid1.Coords) (a1 : Memref sig .tc .vmem S1024x1 .f32) (h1 : a1.IsWhole)
    (a2 : Memref sig .tc .vmem S1x1024 .f32) (h2 : a2.IsWhole) (a3 : Memref sig .tc .vmem S1x1024 .f32) (h3 : a3.IsWhole)
    (a4 : Memref sig .tc .vmem S1x1024 .f32) (h4 : a4.IsWhole) (a5 : Memref sig .tc .vmem S1x1024 .f32) (h5 : a5.IsWhole)
    (hc : ¬cond1_0 i) (x0 : Vec F S1024x1 .f32) (x1 x2 xo3 xo4 : Vec F S1x1024 .f32) :
    out1_B_4 c i a1 h1 a2 h2 a3 h3 a4 h4 a5 h5 hc x0 x1 x2 xo3 xo4 = k1_pay5 x0 x1 x2 xo4 := by
  unfold out1_B_4
  rw [View.read_writes_eq_canon _ _ _ (cover1_B_4 c i a1 h1 a2 h2 a3 h3 a4 h4 a5 h5 hc x0 x1 x2 xo3 xo4)]
  unfold kernelRun1_B
  dsimp only
  rw [View.canon_unit_zero hz]
  simp only [View.readAt_eq_ld, h1.read_unread, h2.read_unread, h3.read_unread, h5.read_unread,
    View.ld_unit_zero (S := S1024x1) hz, View.ld_unit_zero (S := S1x1024) hz]

/-- THE FIRST POINT, the sums: the cleared row plus the block's column sums. -/
theorem first_sum (c : Dev nD) (i : grid1.Coords) (a1 : Memref sig .tc .vmem S1024x1 .f32) (h1 : a1.IsWhole)
    (a2 : Memref sig .tc .vmem S1x1024 .f32) (h2 : a2.IsWhole) (a3 : Memref sig .tc .vmem S1x1024 .f32) (h3 : a3.IsWhole)
    (a4 : Memref sig .tc .vmem S1x1024 .f32) (h4 : a4.IsWhole) (a5 : Memref sig .tc .vmem S1x1024 .f32) (h5 : a5.IsWhole)
    (hc : cond1_0 i) (x0 : Vec F S1024x1 .f32) (x1 x2 : Vec F S1x1024 .f32) :
    out1_A_3 c i a1 h1 a2 h2 a3 h3 a4 h4 a5 h5 hc x0 x1 x2 = k1_pay4 x0 x1 x2 (k1_pay1 (F := F)) := by
  unfold out1_A_3
  rw [View.read_writes_eq_canon _ _ _ (cover1_A_3 c i a1 h1 a2 h2 a3 h3 a4 h4 a5 h5 hc x0 x1 x2)]
  unfold kernelRun1_A
  dsimp only
  sl_unfold_words
  rw [View.canon_cons_unit_zero (S := S1x1024) hz, View.readCov_unit_zero (S := S1x1024) _ hz]
  simp only [View.readAt_eq_ld, h1.read_unread, h2.read_unread, h3.read_unread,
    View.ld_unit_zero (S := S1024x1) hz, View.ld_unit_zero (S := S1x1024) hz]

/-- THE FIRST POINT, the sums of squares. -/
theorem first_sumsq (c : Dev nD) (i : grid1.Coords) (a1 : Memref sig .tc .vmem S1024x1 .f32) (h1 : a1.IsWhole)
    (a2 : Memref sig .tc .vmem S1x1024 .f32) (h2 : a2.IsWhole) (a3 : Memref sig .tc .vmem S1x1024 .f32) (h3 : a3.IsWhole)
    (a4 : Memref sig .tc .vmem S1x1024 .f32) (h4 : a4.IsWhole) (a5 : Memref sig .tc .vmem S1x1024 .f32) (h5 : a5.IsWhole)
    (hc : cond1_0 i) (x0 : Vec F S1024x1 .f32) (x1 x2 : Vec F S1x1024 .f32) :
    out1_A_4 c i a1 h1 a2 h2 a3 h3 a4 h4 a5 h5 hc x0 x1 x2 = k1_pay5 x0 x1 x2 (k1_pay2 (F := F)) := by
  unfold out1_A_4
  rw [View.read_writes_eq_canon _ _ _ (cover1_A_4 c i a1 h1 a2 h2 a3 h3 a4 h4 a5 h5 hc x0 x1 x2)]
  unfold kernelRun1_A
  dsimp only
  sl_unfold_words
  rw [View.canon_cons_unit_zero (S := S1x1024) hz, View.readCov_unit_zero (S := S1x1024) _ hz]
  simp only [View.readAt_eq_ld, h1.read_unread, h2.read_unread, h3.read_unread,
    View.ld_unit_zero (S := S1024x1) hz, View.ld_unit_zero (S := S1x1024) hz]

end Cert.KernelIdeal.Stage1

end
-- ==== Proof.Stage1Run.lean ====
/-
  The first classifier region over its 32 grid points.

  The two rows the region carries are, after point `n`, zero plus the column sums (of the first layer's output, and of
  its square) of blocks 0 … n, added in point order. Only the last point writes the rows back, and its block is the
  whole one-row array: so the two output arrays end holding the sums over all 32 blocks.
-/
import proofs.«142481_j1838246003412_2_alg».proof.Proof.Stage1Cases
import proofs.«142481_j1838246003412_2_alg».proof.Proof.Stage1Block

set_option maxRecDepth 16384

noncomputable section

namespace Cert.KernelIdeal.Stage1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The two rows after point `n`: cleared and then one block added per point. -/
def rows (c : Dev nD) : (n : ℕ) → n < cfg1.N → Vec Ideal S1x1024 .f32 × Vec Ideal S1x1024 .f32
  | 0, h => (k1_pay4 (iblk1 V c 0 ⟨0, h⟩) (iblk1 V c 1 ⟨0, h⟩) (iblk1 V c 2 ⟨0, h⟩) (k1_pay1 (F := Ideal)),
      k1_pay5 (iblk1 V c 0 ⟨0, h⟩) (iblk1 V c 1 ⟨0, h⟩) (iblk1 V c 2 ⟨0, h⟩) (k1_pay2 (F := Ideal)))
  | n + 1, h => (k1_pay4 (iblk1 V c 0 ⟨n + 1, h⟩) (iblk1 V c 1 ⟨n + 1, h⟩) (iblk1 V c 2 ⟨n + 1, h⟩) (rows c n (Nat.lt_of_succ_lt h)).1,
      k1_pay5 (iblk1 V c 0 ⟨n + 1, h⟩) (iblk1 V c 1 ⟨n + 1, h⟩) (iblk1 V c 2 ⟨n + 1, h⟩) (rows c n (Nat.lt_of_succ_lt h)).2)

/-- What the region's two carried buffers hold after point `n` is that recursion: by induction on the point. -/
theorem outsAt_eq (c : Dev nD) : ∀ (n : ℕ) (h : n < cfg1.N), outsAt1 V c n h = rows V c n h
  | 0, h => by
    rw [outsAt1_A V c ⟨0, h⟩ rfl, first_sum, first_sumsq]
    rfl
  | n + 1, h => by
    have hN : cfg1.N = 32 := N_1
    have hB : ¬(⟨n + 1, h⟩ : Fin cfg1.N).val % 32 = 0 := by dsimp only; omega
    rw [outsAt1_B V c ⟨n + 1, h⟩ hB, later_sum, later_sumsq]
    show (k1_pay4 _ _ _ (outsAt1 V c n _).1, k1_pay5 _ _ _ (outsAt1 V c n _).2) = _
    rw [outsAt_eq c n]
    rfl

/-- Point `t`'s three input blocks with their literal types: 1024 rewards, the weight row, the bias row. -/
abbrev blkR (c : Dev nD) (t : Fin cfg1.N) : Vec Ideal S1024x1 .f32 := iblk1 V c 0 t
abbrev blkW (c : Dev nD) (t : Fin cfg1.N) : Vec Ideal S1x1024 .f32 := iblk1 V c 1 t
abbrev blkB (c : Dev nD) (t : Fin cfg1.N) : Vec Ideal S1x1024 .f32 := iblk1 V c 2 t

/-- Block `t`'s column sum of the first layer's output at feature `k` (zero past the grid). -/
def blockSum (c : Dev nD) (t : ℕ) (k : Fin 1024) : EReal :=
  if ht : t < cfg1.N then
    ∑ r : Fin 1024, ((blkR V c ⟨t, ht⟩ (ix2 r (0 : Fin 1)) : EReal) * blkW V c ⟨t, ht⟩ (ix2 (0 : Fin 1) k)
      + blkB V c ⟨t, ht⟩ (ix2 (0 : Fin 1) k))
  else 0

/-- Block `t`'s column sum of the squared output. -/
def blockSumSq (c : Dev nD) (t : ℕ) (k : Fin 1024) : EReal :=
  if ht : t < cfg1.N then
    ∑ r : Fin 1024, ((blkR V c ⟨t, ht⟩ (ix2 r (0 : Fin 1)) : EReal) * blkW V c ⟨t, ht⟩ (ix2 (0 : Fin 1) k)
        + blkB V c ⟨t, ht⟩ (ix2 (0 : Fin 1) k))
      * ((blkR V c ⟨t, ht⟩ (ix2 r (0 : Fin 1)) : EReal) * blkW V c ⟨t, ht⟩ (ix2 (0 : Fin 1) k)
        + blkB V c ⟨t, ht⟩ (ix2 (0 : Fin 1) k))
  else 0

/-- The sums row after point `n`: the block sums of points 0 … n. -/
theorem rows_sum (c : Dev nD) (k : Fin 1024) : ∀ (n : ℕ) (h : n < cfg1.N),
    ((rows V c n h).1 (ix2 (0 : Fin 1) k) : EReal) = ∑ t ∈ Finset.range (n + 1), blockSum V c t k
  | 0, h => by
    show (k1_pay4 (F := Ideal) _ _ _ (k1_pay1 (F := Ideal)) (ix2 (0 : Fin 1) k) : EReal) = _
    rw [sum_apply, Finset.sum_range_one]
    show Ideal.ofBits .f32 0x00000000#32 + _ = _
    rw [Ideal.ofBits_zero_f32, zero_add, blockSum, dif_pos h]
  | n + 1, h => by
    show (k1_pay4 _ _ _ (rows V c n _).1 (ix2 (0 : Fin 1) k) : EReal) = _
    rw [sum_apply, rows_sum c k n, Finset.sum_range_succ _ (n + 1), blockSum, dif_pos h]

/-- The sums-of-squares row after point `n`. -/
theorem rows_sumsq (c : Dev nD) (k : Fin 1024) : ∀ (n : ℕ) (h : n < cfg1.N),
    ((rows V c n h).2 (ix2 (0 : Fin 1) k) : EReal) = ∑ t ∈ Finset.range (n + 1), blockSumSq V c t k
  | 0, h => by
    show (k1_pay5 (F := Ideal) _ _ _ (k1_pay2 (F := Ideal)) (ix2 (0 : Fin 1) k) : EReal) = _
    rw [sumsq_apply, Finset.sum_range_one]
    show Ideal.ofBits .f32 0x00000000#32 + _ = _
    rw [Ideal.ofBits_zero_f32, zero_add, blockSumSq, dif_pos h]
  | n + 1, h => by
    show (k1_pay5 _ _ _ (rows V c n _).2 (ix2 (0 : Fin 1) k) : EReal) = _
    rw [sumsq_apply, rows_sumsq c k n, Finset.sum_range_succ _ (n + 1), blockSumSq, dif_pos h]

/-- The last point. -/
def tLast : Fin cfg1.N := ⟨31, by have h : cfg1.N = 32 := N_1; omega⟩

/-- The rows after the last point, as contents of the two one-row arrays. -/
abbrev sums (c : Dev nD) : Buf (Elt Ideal) ((c : Thread nD τ).loc main_v20_0) := (rows V c 31 tLast.isLt).1
abbrev sumsqs (c : Dev nD) : Buf (Elt Ideal) ((c : Thread nD τ).loc main_v20_1) := (rows V c 31 tLast.isLt).2

/-- The one write-back of the sums row, at the last point, writes it whole. -/
theorem flushed3_eq (c : Dev nD) (t : Fin cfg1.N) (hf : (cfg1.win 3).flush t = true) :
    (dat1 V c).flushed 3 t = ((cfg1.win 3).blk t).view.read (Elt Ideal) (sums V c) := by
  have hN : cfg1.N = 32 := N_1
  have h31 : t.val = 31 := by have := (flush1_3 t).mp hf; have := t.isLt; omega
  obtain rfl : t = tLast := Fin.ext h31
  show (cfg1.win 3).cut (grid1.coords tLast) ((dat1 V c).after 3 tLast) = _
  rw [after1_3, outsAt_eq]
  have hz' : (fun a => win1_3.index tLast a * main_v20_0.ty.shape.size a) = fun _ => 0 := funext fun a => by fin_cases a <;> decide
  exact (Memref.read_access_unit_zero (Elt Ideal) main_v20_0 hz' (fun a => by rw [congrFun hz' a]; simp) (sums V c)).symm

theorem flushed4_eq (c : Dev nD) (t : Fin cfg1.N) (hf : (cfg1.win 4).flush t = true) :
    (dat1 V c).flushed 4 t = ((cfg1.win 4).blk t).view.read (Elt Ideal) (sumsqs V c) := by
  have hN : cfg1.N = 32 := N_1
  have h31 : t.val = 31 := by have := (flush1_4 t).mp hf; have := t.isLt; omega
  obtain rfl : t = tLast := Fin.ext h31
  show (cfg1.win 4).cut (grid1.coords tLast) ((dat1 V c).after 4 tLast) = _
  rw [after1_4, outsAt_eq]
  have hz' : (fun a => win1_4.index tLast a * main_v20_1.ty.shape.size a) = fun _ => 0 := funext fun a => by fin_cases a <;> decide
  exact (Memref.read_access_unit_zero (Elt Ideal) main_v20_1 hz' (fun a => by rw [congrFun hz' a]; simp) (sumsqs V c)).symm

/-- The sums array after the region. -/
theorem final3 (c : Dev nD) : (dat1 V c).arrAt 3 cfg1.N = sums V c :=
  (dat1 V c).arrAt_eq_of_cover 3 (sums V c) (flushed3_eq V c) fun i =>
    ⟨tLast, (flush1_3 tLast).mpr rfl, by
      show i ∈ ((View.whole main_v20_0).slice (win1_3.rect tLast)).set
      rw [View.set_slice_whole, Rect.mem_set_unit]
      intro a
      have h0 : (i 0 : Nat) < 1 := (i 0).isLt
      have h1 : (i 1 : Nat) < 1024 := (i 1).isLt
      match a with
      | ⟨0, _⟩ => show win1_3.index tLast 0 * win1_3.size 0 ≤ (i 0 : Nat) ∧ (i 0 : Nat) < win1_3.index tLast 0 * win1_3.size 0 + win1_3.xsize (grid1.coords tLast) 0
                  rw [show win1_3.index tLast 0 * win1_3.size 0 = 0 from by decide +kernel, show win1_3.xsize (grid1.coords tLast) 0 = 1 from by decide +kernel]; omega
      | ⟨1, _⟩ => show win1_3.index tLast 1 * win1_3.size 1 ≤ (i 1 : Nat) ∧ (i 1 : Nat) < win1_3.index tLast 1 * win1_3.size 1 + win1_3.xsize (grid1.coords tLast) 1
                  rw [show win1_3.index tLast 1 * win1_3.size 1 = 0 from by decide +kernel, show win1_3.xsize (grid1.coords tLast) 1 = 1024 from by decide +kernel]; omega⟩

/-- The sums-of-squares array after the region. -/
theorem final4 (c : Dev nD) : (dat1 V c).arrAt 4 cfg1.N = sumsqs V c :=
  (dat1 V c).arrAt_eq_of_cover 4 (sumsqs V c) (flushed4_eq V c) fun i =>
    ⟨tLast, (flush1_4 tLast).mpr rfl, by
      show i ∈ ((View.whole main_v20_1).slice (win1_4.rect tLast)).set
      rw [View.set_slice_whole, Rect.mem_set_unit]
      intro a
      have h0 : (i 0 : Nat) < 1 := (i 0).isLt
      have h1 : (i 1 : Nat) < 1024 := (i 1).isLt
      match a with
      | ⟨0, _⟩ => show win1_4.index tLast 0 * win1_4.size 0 ≤ (i 0 : Nat) ∧ (i 0 : Nat) < win1_4.index tLast 0 * win1_4.size 0 + win1_4.xsize (grid1.coords tLast) 0
                  rw [show win1_4.index tLast 0 * win1_4.size 0 = 0 from by decide +kernel, show win1_4.xsize (grid1.coords tLast) 0 = 1 from by decide +kernel]; omega
      | ⟨1, _⟩ => show win1_4.index tLast 1 * win1_4.size 1 ≤ (i 1 : Nat) ∧ (i 1 : Nat) < win1_4.index tLast 1 * win1_4.size 1 + win1_4.xsize (grid1.coords tLast) 1
                  rw [show win1_4.index tLast 1 * win1_4.size 1 = 0 from by decide +kernel, show win1_4.xsize (grid1.coords tLast) 1 = 1024 from by decide +kernel]; omega⟩

end Cert.KernelIdeal.Stage1

end
-- ==== Proof.LibBlockSum.lean ====
/-
  A sum taken block by block is the sum over all the entries: T blocks of B consecutive entries each.
-/
import Mathlib.Algebra.BigOperators.Fin
import Mathlib.Algebra.BigOperators.Intervals

namespace Idealize.BlockSum

/-- `Σ_{t<T} Σ_{r<B} f (B·t + r) = Σ_{b<T·B} f b`, in any commutative monoid. -/
theorem sum_range_blocks {M : Type*} [AddCommMonoid M] (f : ℕ → M) (B : ℕ) :
    ∀ T : ℕ, ∑ t ∈ Finset.range T, ∑ r ∈ Finset.range B, f (B * t + r) = ∑ b ∈ Finset.range (T * B), f b
  | 0 => by simp
  | T + 1 => by
    rw [Finset.sum_range_succ, sum_range_blocks f B T, Nat.succ_mul, Finset.sum_range_add]
    congr 1
    exact Finset.sum_congr rfl fun r _ => by rw [Nat.mul_comm]

/-- The same with the inner sum and the result over `Fin`. -/
theorem sum_blocks_fin {M : Type*} [AddCommMonoid M] (f : ℕ → M) (B T : ℕ) :
    ∑ t ∈ Finset.range T, ∑ r : Fin B, f (B * t + r.val) = ∑ b : Fin (T * B), f b.val := by
  rw [← Finset.sum_range (fun b => f b), ← sum_range_blocks f B T]
  exact Finset.sum_congr rfl fun t _ => (Finset.sum_range (fun r => f (B * t + r))).symm

end Idealize.BlockSum
-- ==== Proof.Stage1Total.lean ====
/-
  The first classifier region's two output rows as sums over the whole batch.

  Block `t` of the reward column holds rewards 1024t … 1024t+1023; the weight and bias rows are staged whole at every
  point. So the block sums, added over the 32 points, are the sums over all 32768 rewards of the first layer's output
  `reward b · w k + bias k`, and of its square.
-/
import proofs.«142481_j1838246003412_2_alg».proof.Proof.Stage1Run
import proofs.«142481_j1838246003412_2_alg».proof.Proof.LibBlockSum

set_option maxRecDepth 16384

noncomputable section

namespace Cert.KernelIdeal.Stage1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The three arrays the region reads, with their literal types: the reward column, the weight row, the bias row. -/
abbrev arrR (c : Dev nD) : S32768x1.Idx → EReal := V c main_v11
abbrev arrW (c : Dev nD) : S1x1024.Idx → EReal := V c main_v12
abbrev arrB (c : Dev nD) : S1x1024.Idx → EReal := V c main_v13

/-- The first layer's output for reward `b` at feature `k`, from the arrays as the region finds them. -/
def hidAt (c : Dev nD) (b : Fin 32768) (k : Fin 1024) : EReal :=
  arrR V c (ix2 b (0 : Fin 1)) * arrW V c (ix2 (0 : Fin 1) k) + arrB V c (ix2 (0 : Fin 1) k)

/-- The printed index maps over the grid: the reward window advances one block per point, the two rows stand still. -/
theorem idx_facts : ∀ t : Fin cfg1.N,
    win1_0.index t (0 : Fin 2) = t.val ∧ win1_0.index t (1 : Fin 2) = 0
    ∧ (∀ a : Fin 2, win1_1.index t a = 0) ∧ (∀ a : Fin 2, win1_2.index t a = 0) :=
  (by decide +kernel : ∀ t : Fin grid1.N, _)

theorem blkR_apply (c : Dev nD) (t : Fin cfg1.N) (r : Fin 1024) (hb : 1024 * t.val + r.val < 32768) :
    blkR V c t (ix2 r (0 : Fin 1)) = arrR V c (ix2 (⟨1024 * t.val + r.val, hb⟩ : Fin 32768) (0 : Fin 1)) := by
  obtain ⟨e0, e1, -, -⟩ := idx_facts t
  show V c main_v11 (((cfg1.win 0).blk t).view.emb (ix2 r (0 : Fin 1))) = _
  refine congrArg (V c main_v11) (funext fun a => Fin.ext ?_)
  match a with
  | ⟨0, _⟩ => show win1_0.index t (0 : Fin 2) * 1024 + 1 * r.val = 1024 * t.val + r.val; omega
  | ⟨1, _⟩ => show win1_0.index t (1 : Fin 2) * 1 + 1 * 0 = 0; omega

theorem blkW_eq (c : Dev nD) (t : Fin cfg1.N) : (blkW V c t : S1x1024.Idx → EReal) = arrW V c := by
  obtain ⟨-, -, e2, -⟩ := idx_facts t
  funext y
  show V c main_v12 (((cfg1.win 1).blk t).view.emb y) = V c main_v12 y
  refine congrArg (V c main_v12) (funext fun a => Fin.ext ?_)
  match a with
  | ⟨0, _⟩ => show win1_1.index t (0 : Fin 2) * 1 + 1 * (y 0).val = (y 0).val; have := e2 0; omega
  | ⟨1, _⟩ => show win1_1.index t (1 : Fin 2) * 1024 + 1 * (y 1).val = (y 1).val; have := e2 1; omega

theorem blkB_eq (c : Dev nD) (t : Fin cfg1.N) : (blkB V c t : S1x1024.Idx → EReal) = arrB V c := by
  obtain ⟨-, -, -, e3⟩ := idx_facts t
  funext y
  show V c main_v13 (((cfg1.win 2).blk t).view.emb y) = V c main_v13 y
  refine congrArg (V c main_v13) (funext fun a => Fin.ext ?_)
  match a with
  | ⟨0, _⟩ => show win1_2.index t (0 : Fin 2) * 1 + 1 * (y 0).val = (y 0).val; have := e3 0; omega
  | ⟨1, _⟩ => show win1_2.index t (1 : Fin 2) * 1024 + 1 * (y 1).val = (y 1).val; have := e3 1; omega

/-- The first layer's output along the batch, as a function of a natural number (zero past the batch). -/
def hidN (c : Dev nD) (k : Fin 1024) (b : ℕ) : EReal := if hb : b < 32768 then hidAt V c ⟨b, hb⟩ k else 0

theorem blockSum_eq (c : Dev nD) (k : Fin 1024) (t : ℕ) (ht : t < 32) :
    blockSum V c t k = ∑ r : Fin 1024, hidN V c k (1024 * t + r.val) := by
  have hN : cfg1.N = 32 := N_1
  have ht' : t < cfg1.N := by omega
  rw [blockSum, dif_pos ht']
  refine Finset.sum_congr rfl fun r _ => ?_
  have hb : 1024 * t + r.val < 32768 := by have := r.isLt; omega
  rw [hidN, dif_pos hb, hidAt, blkR_apply V c ⟨t, ht'⟩ r hb, blkW_eq, blkB_eq]

theorem blockSumSq_eq (c : Dev nD) (k : Fin 1024) (t : ℕ) (ht : t < 32) :
    blockSumSq V c t k = ∑ r : Fin 1024, hidN V c k (1024 * t + r.val) * hidN V c k (1024 * t + r.val) := by
  have hN : cfg1.N = 32 := N_1
  have ht' : t < cfg1.N := by omega
  rw [blockSumSq, dif_pos ht']
  refine Finset.sum_congr rfl fun r _ => ?_
  have hb : 1024 * t + r.val < 32768 := by have := r.isLt; omega
  rw [hidN, dif_pos hb, hidAt, blkR_apply V c ⟨t, ht'⟩ r hb, blkW_eq, blkB_eq]

/-- THE SUMS ROW: at feature `k`, the sum of the first layer's output over the whole batch. -/
theorem sums_apply (c : Dev nD) (k : Fin 1024) :
    ((rows V c 31 tLast.isLt).1 (ix2 (0 : Fin 1) k) : EReal) = ∑ b : Fin 32768, hidAt V c b k := by
  rw [rows_sum V c k 31 tLast.isLt]
  rw [Finset.sum_congr rfl fun t ht => blockSum_eq V c k t (Finset.mem_range.mp ht)]
  rw [Idealize.BlockSum.sum_blocks_fin (hidN V c k) 1024 32]
  exact Finset.sum_congr rfl fun b _ => by rw [hidN, dif_pos b.isLt]

/-- THE SUMS-OF-SQUARES ROW. -/
theorem sumsqs_apply (c : Dev nD) (k : Fin 1024) :
    ((rows V c 31 tLast.isLt).2 (ix2 (0 : Fin 1) k) : EReal) = ∑ b : Fin 32768, hidAt V c b k * hidAt V c b k := by
  rw [rows_sumsq V c k 31 tLast.isLt]
  rw [Finset.sum_congr rfl fun t ht => blockSumSq_eq V c k t (Finset.mem_range.mp ht)]
  rw [Idealize.BlockSum.sum_blocks_fin (fun b => hidN V c k b * hidN V c k b) 1024 32]
  exact Finset.sum_congr rfl fun b _ => by rw [hidN, dif_pos b.isLt]

end Cert.KernelIdeal.Stage1

end
-- ==== Proof.Stage2Column.lean ====
/-
  The pre-activation column after the second classifier region.

  Point `t` stages rewards 1024t … 1024t+1023 and the six standing arrays whole, and writes back rows 1024t … 1024t+1023
  of the column. What it writes is the pre-activation of each of its rewards; the 32 blocks tile the 32768 rows.
-/
import proofs.«142481_j1838246003412_2_alg».proof.Proof.Stage2Run

set_option maxRecDepth 16384

noncomputable section

namespace Cert.KernelIdeal.Stage2Column

open Idealize.ShloMosaic Idealize.ShloMosaic.TcCoe Idealize.ShloMosaic.ValueIdx Idealize.SL.Sem
open Idealize.ShloMosaic.Pipeline (Dat)
open Cert.KernelIdeal Cert.KernelIdeal.Gen
open Cert.KernelIdeal.Stage2

variable (V : (c : Dev nD) → (b : Ref sig .tc) → Buf (Elt Ideal) ((c : Thread nD τ).loc b))

/-- The pre-activation of every reward, from the arrays as the region finds them. -/
def preCol (c : Dev nD) : S32768x1.Idx → EReal := fun i =>
  preAt (N := 32768) (V c main_v11) (V c main_v12) (V c main_v13) (V c main_v30) (V c main_v32) (V c main_v16) (V c main_v17) (i 0)

/-- The printed index maps over the grid: the reward window and the output window move together, one block per point;
    the six other windows stand still. -/
theorem idx_facts : ∀ t : Fin cfg2.N,
    win2_0.index t (0 : Fin 2) = win2_7.index t (0 : Fin 2) ∧ win2_0.index t (1 : Fin 2) = 0
    ∧ win2_7.index t (1 : Fin 2) = 0 ∧ win2_7.index t (0 : Fin 2) ≤ 31
    ∧ (∀ a : Fin 2, win2_1.index t a = 0) ∧ (∀ a : Fin 2, win2_2.index t a = 0) ∧ (∀ a : Fin 2, win2_3.index t a = 0)
    ∧ (∀ a : Fin 2, win2_4.index t a = 0) ∧ (∀ a : Fin 2, win2_5.index t a = 0) ∧ (∀ a : Fin 2, win2_6.index t a = 0) :=
  (by decide +kernel : ∀ t : Fin grid2.N, _)

theorem idx_onto : ∀ q0 : Fin 32, ∃ t : Fin cfg2.N, win2_7.index t = ![q0.val, 0] :=
  (by decide +kernel : ∀ q0 : Fin 32, ∃ t : Fin grid2.N, win2_7.index t = ![q0.val, 0])

/-- WHAT POINT `t` WRITES BACK is block `t` of the pre-activation column. -/
theorem flushed_eq (c : Dev nD) (t : Fin cfg2.N) :
    (dat2 V c).flushed 7 t = ((cfg2.win 7).blk t).view.read (Elt Ideal) (preCol V c) := by
  show (cfg2.win 7).cut (grid2.coords t) ((dat2 V c).after 7 t) = _
  rw [after2_7, outsAt_eq, outs_fst]
  obtain ⟨e0, e1, e2, e3, e4, e5, e6, e7, e8, e9⟩ := idx_facts t
  funext y
  obtain ⟨r, u, rfl⟩ : ∃ (r : Fin 1024) (u : Fin 1), y = ix2 r u := ⟨y 0, y 1, eq_ix2 y⟩
  obtain rfl : u = 0 := Subsingleton.elim _ _
  refine (pay5_apply _ _ _ _ _ _ _ r).trans ?_
  show _ = preCol V c (((cfg2.win 7).blk t).view.emb (ix2 r (0 : Fin 1)))
  unfold preCol
  refine preAt_congr _ _ _ _ _ _ _ _ _ _ _ _ _ _ r _ ?_ ?_ ?_ ?_ ?_ ?_ ?_
  · show V c main_v11 (((cfg2.win 0).blk t).view.emb (ix2 r (0 : Fin 1))) = V c main_v11 (ix2 _ (0 : Fin 1))
    refine congrArg (V c main_v11) (funext fun a => Fin.ext ?_)
    match a with
    | ⟨0, _⟩ => show win2_0.index t (0 : Fin 2) * 1024 + 1 * r.val = win2_7.index t (0 : Fin 2) * 1024 + 1 * r.val; omega
    | ⟨1, _⟩ => show win2_0.index t (1 : Fin 2) * 1 + 1 * 0 = 0; omega
  · funext y
    show V c main_v12 (((cfg2.win 1).blk t).view.emb y) = V c main_v12 y
    refine congrArg (V c main_v12) (funext fun a => Fin.ext ?_)
    match a with
    | ⟨0, _⟩ => show win2_1.index t (0 : Fin 2) * 1 + 1 * (y 0).val = (y 0).val; have := e4 0; omega
    | ⟨1, _⟩ => show win2_1.index t (1 : Fin 2) * 1024 + 1 * (y 1).val = (y 1).val; have := e4 1; omega
  · funext y
    show V c main_v13 (((cfg2.win 2).blk t).view.emb y) = V c main_v13 y
    refine congrArg (V c main_v13) (funext fun a => Fin.ext ?_)
    match a with
    | ⟨0, _⟩ => show win2_2.index t (0 : Fin 2) * 1 + 1 * (y 0).val = (y 0).val; have := e5 0; omega
    | ⟨1, _⟩ => show win2_2.index t (1 : Fin 2) * 1024 + 1 * (y 1).val = (y 1).val; have := e5 1; omega
  · funext y
    show V c main_v30 (((cfg2.win 3).blk t).view.emb y) = V c main_v30 y
    refine congrArg (V c main_v30) (funext fun a => Fin.ext ?_)
    match a with
    | ⟨0, _⟩ => show win2_3.index t (0 : Fin 2) * 1 + 1 * (y 0).val = (y 0).val; have := e6 0; omega
    | ⟨1, _⟩ => show win2_3.index t (1 : Fin 2) * 1024 + 1 * (y 1).val = (y 1).val; have := e6 1; omega
  · funext y
    show V c main_v32 (((cfg2.win 4).blk t).view.emb y) = V c main_v32 y
    refine congrArg (V c main_v32) (funext fun a => Fin.ext ?_)
    match a with
    | ⟨0, _⟩ => show win2_4.index t (0 : Fin 2) * 1 + 1 * (y 0).val = (y 0).val; have := e7 0; omega
    | ⟨1, _⟩ => show win2_4.index t (1 : Fin 2) * 1024 + 1 * (y 1).val = (y 1).val; have := e7 1; omega
  · funext y
    show V c main_v16 (((cfg2.win 5).blk t).view.emb y) = V c main_v16 y
    refine congrArg (V c main_v16) (funext fun a => Fin.ext ?_)
    match a with
    | ⟨0, _⟩ => show win2_5.index t (0 : Fin 2) * 1024 + 1 * (y 0).val = (y 0).val; have := e8 0; omega
    | ⟨1, _⟩ => show win2_5.index t (1 : Fin 2) * 1 + 1 * (y 1).val = (y 1).val; have := e8 1; omega
  · funext y
    show V c main_v17 (((cfg2.win 6).blk t).view.emb y) = V c main_v17 y
    refine congrArg (V c main_v17) (funext fun a => Fin.ext ?_)
    match a with
    | ⟨0, _⟩ => show win2_6.index t (0 : Fin 2) * 1 + 1 * (y 0).val = (y 0).val; have := e9 0; omega
    | ⟨1, _⟩ => show win2_6.index t (1 : Fin 2) * 1 + 1 * (y 1).val = (y 1).val; have := e9 1; omega

/-- An index of the column is in point `t`'s block iff each coordinate is in the block's range on its axis. -/
theorem mem_blk (t : Fin cfg2.N) (i : S32768x1.Idx) :
    i ∈ ((cfg2.win 7).blk t).view.set ↔ ∀ a : Fin 2, win2_7.index t a * S1024x1.size a ≤ (i a).val ∧ (i a).val < win2_7.index t a * S1024x1.size a + S1024x1.size a := by
  show i ∈ ((View.whole main_v33_0).slice (win2_7.rect t)).set ↔ _
  rw [View.set_slice_whole, Rect.mem_set_unit]
  exact Iff.rfl

/-- Every row of the column is in the block of the point that handles it. -/
theorem cover (i : S32768x1.Idx) : ∃ t : Fin cfg2.N, (cfg2.win 7).flush t = true ∧ i ∈ ((cfg2.win 7).blk t).view.set := by
  have hi0 : (i 0).val < 32768 := (i 0).isLt
  have hi1 : (i 1).val < 1 := (i 1).isLt
  obtain ⟨t, ht⟩ := idx_onto ⟨(i 0).val / 1024, by omega⟩
  have q0 : win2_7.index t (0 : Fin 2) = (i 0).val / 1024 := congrFun ht 0
  have q1 : win2_7.index t (1 : Fin 2) = 0 := congrFun ht 1
  refine ⟨t, flush2_7 t, ?_⟩
  rw [mem_blk]
  intro a
  match a with
  | ⟨0, _⟩ => show win2_7.index t (0 : Fin 2) * 1024 ≤ (i 0).val ∧ (i 0).val < win2_7.index t (0 : Fin 2) * 1024 + 1024; omega
  | ⟨1, _⟩ => show win2_7.index t (1 : Fin 2) * 1 ≤ (i 1).val ∧ (i 1).val < win2_7.index t (1 : Fin 2) * 1 + 1; omega

/-- THE COLUMN after the region: the pre-activation of every reward. -/
theorem final (c : Dev nD) : (dat2 V c).arrAt 7 cfg2.N = preCol V c :=
  (dat2 V c).arrAt_eq_of_cover 7 _ (fun t _ => flushed_eq V c t) cover

end Cert.KernelIdeal.Stage2Column

end
-- ==== Proof.Stage2Total.lean ====
/-
  The second classifier region's two running scalars as sums over the whole batch.

  The block sums of the pre-activations, added over the 32 points, are the sum over all 32768 rewards of the
  pre-activation; likewise for the squares.
-/
import proofs.«142481_j1838246003412_2_alg».proof.Proof.Stage2Column
import proofs.«142481_j1838246003412_2_alg».proof.Proof.LibBlockSum

set_option maxRecDepth 16384

noncomputable section

namespace Cert.KernelIdeal.Stage2

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Stage2Column

variable (V : (c : Dev nD) → (b : Ref sig .tc) → Buf (Elt Ideal) ((c : Thread nD τ).loc b))

theorem idx_facts2 : ∀ t : Fin cfg2.N,
    win2_0.index t (0 : Fin 2) = t.val ∧ win2_0.index t (1 : Fin 2) = 0
    ∧ (∀ a : Fin 2, win2_1.index t a = 0) ∧ (∀ a : Fin 2, win2_2.index t a = 0) ∧ (∀ a : Fin 2, win2_3.index t a = 0)
    ∧ (∀ a : Fin 2, win2_4.index t a = 0) ∧ (∀ a : Fin 2, win2_5.index t a = 0) ∧ (∀ a : Fin 2, win2_6.index t a = 0) :=
  (by decide +kernel : ∀ t : Fin grid2.N, _)

theorem blk0_apply (c : Dev nD) (t : Fin cfg2.N) (r : Fin 1024) (hb : 1024 * t.val + r.val < 32768) :
    (iblk2 V c 0 t : S1024x1.Idx → EReal) (ix2 r (0 : Fin 1)) = V c main_v11 (ix2 (⟨1024 * t.val + r.val, hb⟩ : Fin 32768) (0 : Fin 1)) := by
  obtain ⟨e0, e1, -⟩ := idx_facts2 t
  show V c main_v11 (((cfg2.win 0).blk t).view.emb (ix2 r (0 : Fin 1))) = _
  refine congrArg (V c main_v11) (funext fun a => Fin.ext ?_)
  match a with
  | ⟨0, _⟩ => show win2_0.index t (0 : Fin 2) * 1024 + 1 * r.val = 1024 * t.val + r.val; omega
  | ⟨1, _⟩ => show win2_0.index t (1 : Fin 2) * 1 + 1 * 0 = 0; omega

theorem blk1_eq (c : Dev nD) (t : Fin cfg2.N) : (iblk2 V c 1 t : S1x1024.Idx → EReal) = V c main_v12 := by
  have e := (idx_facts2 t).2.2.1
  funext y
  show V c main_v12 (((cfg2.win 1).blk t).view.emb y) = V c main_v12 y
  refine congrArg (V c main_v12) (funext fun a => Fin.ext ?_)
  match a with
  | ⟨0, _⟩ => show win2_1.index t (0 : Fin 2) * 1 + 1 * (y 0).val = (y 0).val; have := e 0; omega
  | ⟨1, _⟩ => show win2_1.index t (1 : Fin 2) * 1024 + 1 * (y 1).val = (y 1).val; have := e 1; omega

theorem blk2_eq (c : Dev nD) (t : Fin cfg2.N) : (iblk2 V c 2 t : S1x1024.Idx → EReal) = V c main_v13 := by
  have e := (idx_facts2 t).2.2.2.1
  funext y
  show V c main_v13 (((cfg2.win 2).blk t).view.emb y) = V c main_v13 y
  refine congrArg (V c main_v13) (funext fun a => Fin.ext ?_)
  match a with
  | ⟨0, _⟩ => show win2_2.index t (0 : Fin 2) * 1 + 1 * (y 0).val = (y 0).val; have := e 0; omega
  | ⟨1, _⟩ => show win2_2.index t (1 : Fin 2) * 1024 + 1 * (y 1).val = (y 1).val; have := e 1; omega

theorem blk3_eq (c : Dev nD) (t : Fin cfg2.N) : (iblk2 V c 3 t : S1x1024.Idx → EReal) = V c main_v30 := by
  have e := (idx_facts2 t).2.2.2.2.1
  funext y
  show V c main_v30 (((cfg2.win 3).blk t).view.emb y) = V c main_v30 y
  refine congrArg (V c main_v30) (funext fun a => Fin.ext ?_)
  match a with
  | ⟨0, _⟩ => show win2_3.index t (0 : Fin 2) * 1 + 1 * (y 0).val = (y 0).val; have := e 0; omega
  | ⟨1, _⟩ => show win2_3.index t (1 : Fin 2) * 1024 + 1 * (y 1).val = (y 1).val; have := e 1; omega

theorem blk4_eq (c : Dev nD) (t : Fin cfg2.N) : (iblk2 V c 4 t : S1x1024.Idx → EReal) = V c main_v32 := by
  have e := (idx_facts2 t).2.2.2.2.2.1
  funext y
  show V c main_v32 (((cfg2.win 4).blk t).view.emb y) = V c main_v32 y
  refine congrArg (V c main_v32) (funext fun a => Fin.ext ?_)
  match a with
  | ⟨0, _⟩ => show win2_4.index t (0 : Fin 2) * 1 + 1 * (y 0).val = (y 0).val; have := e 0; omega
  | ⟨1, _⟩ => show win2_4.index t (1 : Fin 2) * 1024 + 1 * (y 1).val = (y 1).val; have := e 1; omega

theorem blk5_eq (c : Dev nD) (t : Fin cfg2.N) : (iblk2 V c 5 t : S1024x1.Idx → EReal) = V c main_v16 := by
  have e := (idx_facts2 t).2.2.2.2.2.2.1
  funext y
  show V c main_v16 (((cfg2.win 5).blk t).view.emb y) = V c main_v16 y
  refine congrArg (V c main_v16) (funext fun a => Fin.ext ?_)
  match a with
  | ⟨0, _⟩ => show win2_5.index t (0 : Fin 2) * 1024 + 1 * (y 0).val = (y 0).val; have := e 0; omega
  | ⟨1, _⟩ => show win2_5.index t (1 : Fin 2) * 1 + 1 * (y 1).val = (y 1).val; have := e 1; omega

theorem blk6_eq (c : Dev nD) (t : Fin cfg2.N) : (iblk2 V c 6 t : S1x1.Idx → EReal) = V c main_v17 := by
  have e := (idx_facts2 t).2.2.2.2.2.2.2
  funext y
  show V c main_v17 (((cfg2.win 6).blk t).view.emb y) = V c main_v17 y
  refine congrArg (V c main_v17) (funext fun a => Fin.ext ?_)
  match a with
  | ⟨0, _⟩ => show win2_6.index t (0 : Fin 2) * 1 + 1 * (y 0).val = (y 0).val; have := e 0; omega
  | ⟨1, _⟩ => show win2_6.index t (1 : Fin 2) * 1 + 1 * (y 1).val = (y 1).val; have := e 1; omega

/-- The pre-activation along the batch, as a function of a natural number (zero past the batch). -/
def preN (c : Dev nD) (b : ℕ) : EReal := if hb : b < 32768 then preCol V c (ix2 (⟨b, hb⟩ : Fin 32768) (0 : Fin 1)) else 0

/-- An entry of a point's block of pre-activations is the pre-activation of its reward. -/
theorem block_entry (c : Dev nD) (t : ℕ) (ht : t < cfg2.N) (r : Fin 1024) :
    ((k2_pay5 (iblk2 V c 0 ⟨t, ht⟩) (iblk2 V c 1 ⟨t, ht⟩) (iblk2 V c 2 ⟨t, ht⟩) (iblk2 V c 3 ⟨t, ht⟩) (iblk2 V c 4 ⟨t, ht⟩)
        (iblk2 V c 5 ⟨t, ht⟩) (iblk2 V c 6 ⟨t, ht⟩)) (ix2 r (0 : Fin 1)) : EReal) = preN V c (1024 * t + r.val) := by
  have hN : cfg2.N = 32 := N_2
  have hb : 1024 * t + r.val < 32768 := by have := r.isLt; omega
  rw [pay5_apply, preN, dif_pos hb]
  show _ = preAt (N := 32768) (V c main_v11) (V c main_v12) (V c main_v13) (V c main_v30) (V c main_v32) (V c main_v16) (V c main_v17) ⟨1024 * t + r.val, hb⟩
  exact preAt_congr _ _ _ _ _ _ _ _ _ _ _ _ _ _ r _ (blk0_apply V c ⟨t, ht⟩ r hb) (blk1_eq V c _) (blk2_eq V c _) (blk3_eq V c _)
    (blk4_eq V c _) (blk5_eq V c _) (blk6_eq V c _)

theorem blockSum_eq (c : Dev nD) (t : ℕ) (ht : t < 32) : blockSum V c t = ∑ r : Fin 1024, preN V c (1024 * t + r.val) := by
  have hN : cfg2.N = 32 := N_2
  have ht' : t < cfg2.N := by omega
  rw [blockSum, dif_pos ht']
  exact Finset.sum_congr rfl fun r _ => block_entry V c t ht' r

theorem blockSumSq_eq (c : Dev nD) (t : ℕ) (ht : t < 32) :
    blockSumSq V c t = ∑ r : Fin 1024, preN V c (1024 * t + r.val) * preN V c (1024 * t + r.val) := by
  have hN : cfg2.N = 32 := N_2
  have ht' : t < cfg2.N := by omega
  rw [blockSumSq, dif_pos ht']
  exact Finset.sum_congr rfl fun r _ => by rw [block_entry V c t ht' r]

/-- THE RUNNING SUM after the region: the sum of the pre-activations over the whole batch. -/
theorem total_apply (c : Dev nD) :
    ((outs V c 31 tLast.isLt).2.1 (ix2 (0 : Fin 1) (0 : Fin 1)) : EReal) = ∑ b : Fin 32768, preCol V c (ix2 b (0 : Fin 1)) := by
  rw [outs_sum V c 31 tLast.isLt]
  rw [Finset.sum_congr rfl fun t ht => blockSum_eq V c t (Finset.mem_range.mp ht)]
  rw [Idealize.BlockSum.sum_blocks_fin (preN V c) 1024 32]
  exact Finset.sum_congr rfl fun b _ => by rw [preN, dif_pos b.isLt]

/-- THE RUNNING SUM OF SQUARES after the region. -/
theorem totalSq_apply (c : Dev nD) :
    ((outs V c 31 tLast.isLt).2.2 (ix2 (0 : Fin 1) (0 : Fin 1)) : EReal)
      = ∑ b : Fin 32768, preCol V c (ix2 b (0 : Fin 1)) * preCol V c (ix2 b (0 : Fin 1)) := by
  rw [outs_sumsq V c 31 tLast.isLt]
  rw [Finset.sum_congr rfl fun t ht => blockSumSq_eq V c t (Finset.mem_range.mp ht)]
  rw [Idealize.BlockSum.sum_blocks_fin (fun b => preN V c b * preN V c b) 1024 32]
  exact Finset.sum_congr rfl fun b _ => by rw [preN, dif_pos b.isLt]

end Cert.KernelIdeal.Stage2

end
-- ==== Proof.Stage3.lean ====
/-
  The last region: the scores column.

  Point `t` stages pre-activations 1024t … 1024t+1023 and the two scalars (scale and shift) and writes back rows
  1024t … 1024t+1023: `max (scale · pre-activation + shift, 0)`. The 32 blocks tile the column.
-/
import proofs.«142481_j1838246003412_2_alg».proof.Proof.Gen.KernelIdeal.Frame
import Idealize.ShloMosaic.Lib.ValueIdx
import Idealize.ShloMosaic.Lib.Pipeline.Value

set_option maxRecDepth 16384

noncomputable section

namespace Cert.KernelIdeal.Stage3

open Idealize.ShloMosaic Idealize.ShloMosaic.TcCoe Idealize.ShloMosaic.ValueIdx Idealize.SL.Sem
open Idealize.ShloMosaic.Pipeline (Dat)
open Cert.KernelIdeal Cert.KernelIdeal.Gen

theorem hz : (![0, 0] : Fin 2 → Nat) = fun _ => 0 := funext fun a => by fin_cases a <;> rfl

/-- The score of one pre-activation. -/
def scoreAt {N : Nat} (P : (⟨2, ![N, 1]⟩ : Shape).Idx → EReal) (S T : (⟨2, ![1, 1]⟩ : Shape).Idx → EReal) (b : Fin N) : EReal :=
  max (S (ix2 (0 : Fin 1) (0 : Fin 1)) * P (ix2 b (0 : Fin 1)) + T (ix2 (0 : Fin 1) (0 : Fin 1))) (Ideal.ofBits .f32 0x00000000#32)

/-- The body's block of scores, entry by entry. -/
theorem pay_apply (s : Vec Ideal S1x1 .f32) (p : Vec Ideal S1024x1 .f32) (sh : Vec Ideal S1x1 .f32) (r : Fin 1024) :
    (k3_pay1 s p sh (ix2 r (0 : Fin 1)) : EReal) = scoreAt (N := 1024) p s sh r := by
  unfold k3_pay1 scoreAt
  simp only [shapeCast_self]
  rw [maximumf_apply, addf_apply, mulf_apply]
  congr 1
  congr 1
  · congr 1
    exact broadcastTo_apply _ _ (ix2 r (0 : Fin 1)) (ix2 (0 : Fin 1) (0 : Fin 1)) (fun a => by
      match a with
      | ⟨0, _⟩ => rfl
      | ⟨1, _⟩ => rfl)
  · exact broadcastTo_apply _ _ (ix2 r (0 : Fin 1)) (ix2 (0 : Fin 1) (0 : Fin 1)) (fun a => by
      match a with
      | ⟨0, _⟩ => rfl
      | ⟨1, _⟩ => rfl)

variable (V : (c : Dev nD) → (b : Ref sig .tc) → Buf (Elt Ideal) ((c : Thread nD τ).loc b))

/-- The score of every reward, from the arrays as the region finds them. -/
def scoreCol (c : Dev nD) : S32768x1.Idx → EReal := fun i =>
  scoreAt (N := 32768) (V c main_v33_0) (V c main_v43) (V c main_v45) (i 0)

theorem idx_facts : ∀ t : Fin cfg3.N,
    win3_0.index t (0 : Fin 2) = win3_3.index t (0 : Fin 2) ∧ win3_0.index t (1 : Fin 2) = 0
    ∧ win3_3.index t (1 : Fin 2) = 0 ∧ win3_3.index t (0 : Fin 2) ≤ 31
    ∧ (∀ a : Fin 2, win3_1.index t a = 0) ∧ (∀ a : Fin 2, win3_2.index t a = 0) :=
  (by decide +kernel : ∀ t : Fin grid3.N, _)

theorem idx_onto : ∀ q0 : Fin 32, ∃ t : Fin cfg3.N, win3_3.index t = ![q0.val, 0] :=
  (by decide +kernel : ∀ q0 : Fin 32, ∃ t : Fin grid3.N, win3_3.index t = ![q0.val, 0])

/-- WHAT POINT `t` WRITES BACK is block `t` of the scores column. -/
theorem flushed_eq (c : Dev nD) (t : Fin cfg3.N) :
    (dat3 V c).flushed 3 t = ((cfg3.win 3).blk t).view.read (Elt Ideal) (scoreCol V c) := by
  show (cfg3.win 3).cut (grid3.coords t) ((dat3 V c).after 3 t) = _
  rw [after3_3]
  unfold out3_3
  rw [View.canon_unit_zero hz]
  simp only [View.ld_unit_zero (S := S1024x1) hz, View.ld_unit_zero (S := S1x1) hz]
  obtain ⟨e0, e1, e2, e3, e4, e5⟩ := idx_facts t
  funext y
  obtain ⟨r, u, rfl⟩ : ∃ (r : Fin 1024) (u : Fin 1), y = ix2 r u := ⟨y 0, y 1, eq_ix2 y⟩
  obtain rfl : u = 0 := Subsingleton.elim _ _
  refine (pay_apply _ _ _ r).trans ?_
  show _ = scoreCol V c (((cfg3.win 3).blk t).view.emb (ix2 r (0 : Fin 1)))
  unfold scoreCol scoreAt
  have hP : iblk3 V c 0 t (ix2 r (0 : Fin 1)) = V c main_v33_0 (ix2 (((cfg3.win 3).blk t).view.emb (ix2 r (0 : Fin 1)) 0) (0 : Fin 1)) := by
    show V c main_v33_0 (((cfg3.win 0).blk t).view.emb (ix2 r (0 : Fin 1))) = V c main_v33_0 (ix2 _ (0 : Fin 1))
    refine congrArg (V c main_v33_0) (funext fun a => Fin.ext ?_)
    match a with
    | ⟨0, _⟩ => show win3_0.index t (0 : Fin 2) * 1024 + 1 * r.val = win3_3.index t (0 : Fin 2) * 1024 + 1 * r.val; omega
    | ⟨1, _⟩ => show win3_0.index t (1 : Fin 2) * 1 + 1 * 0 = 0; omega
  have hS : (iblk3 V c 1 t : S1x1.Idx → EReal) = V c main_v43 := by
    funext y
    show V c main_v43 (((cfg3.win 1).blk t).view.emb y) = V c main_v43 y
    refine congrArg (V c main_v43) (funext fun a => Fin.ext ?_)
    match a with
    | ⟨0, _⟩ => show win3_1.index t (0 : Fin 2) * 1 + 1 * (y 0).val = (y 0).val; have := e4 0; omega
    | ⟨1, _⟩ => show win3_1.index t (1 : Fin 2) * 1 + 1 * (y 1).val = (y 1).val; have := e4 1; omega
  have hT : (iblk3 V c 2 t : S1x1.Idx → EReal) = V c main_v45 := by
    funext y
    show V c main_v45 (((cfg3.win 2).blk t).view.emb y) = V c main_v45 y
    refine congrArg (V c main_v45) (funext fun a => Fin.ext ?_)
    match a with
    | ⟨0, _⟩ => show win3_2.index t (0 : Fin 2) * 1 + 1 * (y 0).val = (y 0).val; have := e5 0; omega
    | ⟨1, _⟩ => show win3_2.index t (1 : Fin 2) * 1 + 1 * (y 1).val = (y 1).val; have := e5 1; omega
  rw [hP, hS, hT]

/-- An index of the column is in point `t`'s block iff each coordinate is in the block's range on its axis. -/
theorem mem_blk (t : Fin cfg3.N) (i : S32768x1.Idx) :
    i ∈ ((cfg3.win 3).blk t).view.set ↔ ∀ a : Fin 2, win3_3.index t a * S1024x1.size a ≤ (i a).val ∧ (i a).val < win3_3.index t a * S1024x1.size a + S1024x1.size a := by
  show i ∈ ((View.whole main_v46).slice (win3_3.rect t)).set ↔ _
  rw [View.set_slice_whole, Rect.mem_set_unit]
  exact Iff.rfl

theorem cover (i : S32768x1.Idx) : ∃ t : Fin cfg3.N, (cfg3.win 3).flush t = true ∧ i ∈ ((cfg3.win 3).blk t).view.set := by
  have hi0 : (i 0).val < 32768 := (i 0).isLt
  have hi1 : (i 1).val < 1 := (i 1).isLt
  obtain ⟨t, ht⟩ := idx_onto ⟨(i 0).val / 1024, by omega⟩
  have q0 : win3_3.index t (0 : Fin 2) = (i 0).val / 1024 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 1024 ≤ (i 0).val ∧ (i 0).val < win3_3.index t (0 : Fin 2) * 1024 + 1024; omega
  | ⟨1, _⟩ => show win3_3.index t (1 : Fin 2) * 1 ≤ (i 1).val ∧ (i 1).val < win3_3.index t (1 : Fin 2) * 1 + 1; omega

/-- THE SCORES COLUMN after the region. -/
theorem final (c : Dev nD) : (dat3 V c).arrAt 3 cfg3.N = scoreCol V c :=
  (dat3 V c).arrAt_eq_of_cover 3 _ (fun t _ => flushed_eq V c t) cover

end Cert.KernelIdeal.Stage3

end
-- ==== Proof.ScoresChain.lean ====
/-
  The scores buffer, followed back through the run.

  The last region makes the scores from the pre-activation column and two scalars. The scalars come from the host
  operations before it, out of the second region's two running sums and the last layer's γ and β; the column is the
  second region's. That region reads the reward column, the first layer's weight and bias rows, and the scale and
  shift rows the host operations before it made out of the first region's two rows of sums and the first layer's γ and
  β. Everything else is a reshaped argument. Each buffer is traced to the segment that wrote it.
-/
import proofs.«142481_j1838246003412_2_alg».proof.Proof.RewardsChain
import proofs.«142481_j1838246003412_2_alg».proof.Proof.Stage1Total
import proofs.«142481_j1838246003412_2_alg».proof.Proof.Stage2Total
import proofs.«142481_j1838246003412_2_alg».proof.Proof.Stage3

set_option maxRecDepth 16384

noncomputable section

namespace Cert.KernelIdeal.ScoresChain

open Idealize.ShloMosaic Idealize.ShloMosaic.TcCoe Idealize.ShloMosaic.Tactic Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-! ## The arguments, as the stretch after the collision region finds them -/

theorem W2_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := by host_keeps hostOps0
    _ = m ((c : Thread nD τ).loc main_arg9) := rfl

theorem W2_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := by host_keeps hostOps0
    _ = m ((c : Thread nD τ).loc main_arg10) := rfl

theorem W2_arg11 (c : Dev nD) : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := by host_keeps hostOps0
    _ = m ((c : Thread nD τ).loc main_arg11) := rfl

theorem W2_arg12 (c : Dev nD) : W2 m ρ c (Proc.devRef .tc main_arg12) = m ((c : Thread nD τ).loc main_arg12) :=
  calc W2 m ρ c (Proc.devRef .tc main_arg12)
    _ = W1 m ρ c (Proc.devRef .tc main_arg12) := W2_of_ne m ρ c main_arg12 (by decide)
    _ = W0 m ρ c (Proc.devRef .tc main_arg12) := by host_keeps hostOps0
    _ = m ((c : Thread nD τ).loc main_arg12) := rfl

theorem W2_arg13 (c : Dev nD) : W2 m ρ c (Proc.devRef .tc main_arg13) = m ((c : Thread nD τ).loc main_arg13) :=
  calc W2 m ρ c (Proc.devRef .tc main_arg13)
    _ = W1 m ρ c (Proc.devRef .tc main_arg13) := W2_of_ne m ρ c main_arg13 (by decide)
    _ = W0 m ρ c (Proc.devRef .tc main_arg13) := by host_keeps hostOps0
    _ = m ((c : Thread nD τ).loc main_arg13) := rfl

theorem W2_arg14 (c : Dev nD) : W2 m ρ c (Proc.devRef .tc main_arg14) = m ((c : Thread nD τ).loc main_arg14) :=
  calc W2 m ρ c (Proc.devRef .tc main_arg14)
    _ = W1 m ρ c (Proc.devRef .tc main_arg14) := W2_of_ne m ρ c main_arg14 (by decide)
    _ = W0 m ρ c (Proc.devRef .tc main_arg14) := by host_keeps hostOps0
    _ = m ((c : Thread nD τ).loc main_arg14) := rfl

theorem W2_arg15 (c : Dev nD) : W2 m ρ c (Proc.devRef .tc main_arg15) = m ((c : Thread nD τ).loc main_arg15) :=
  calc W2 m ρ c (Proc.devRef .tc main_arg15)
    _ = W1 m ρ c (Proc.devRef .tc main_arg15) := W2_of_ne m ρ c main_arg15 (by decide)
    _ = W0 m ρ c (Proc.devRef .tc main_arg15) := by host_keeps hostOps0
    _ = m ((c : Thread nD τ).loc main_arg15) := rfl

theorem W2_arg16 (c : Dev nD) : W2 m ρ c (Proc.devRef .tc main_arg16) = m ((c : Thread nD τ).loc main_arg16) :=
  calc W2 m ρ c (Proc.devRef .tc main_arg16)
    _ = W1 m ρ c (Proc.devRef .tc main_arg16) := W2_of_ne m ρ c main_arg16 (by decide)
    _ = W0 m ρ c (Proc.devRef .tc main_arg16) := by host_keeps hostOps0
    _ = m ((c : Thread nD τ).loc main_arg16) := rfl

/-! ## That stretch's reshapes of the weights -/

theorem W3_v12 (c : Dev nD) : W3 m ρ c (Proc.devRef .tc main_v12) = shapeCast S1x1024 (m ((c : Thread nD τ).loc main_arg9)) shapeCasts_S1024x1_S1x1024 := by
  rw [← W2_arg9 m ρ c]
  show StableHlo.after hostOps1 (W2 m ρ c) (Proc.devRef .tc main_v12) = _
  after_results
  rfl

theorem W3_v13 (c : Dev nD) : W3 m ρ c (Proc.devRef .tc main_v13) = shapeCast S1x1024 (m ((c : Thread nD τ).loc main_arg10)) shapeCasts_S1024_S1x1024 := by
  rw [← W2_arg10 m ρ c]
  show StableHlo.after hostOps1 (W2 m ρ c) (Proc.devRef .tc main_v13) = _
  after_results
  rfl

theorem W3_v14 (c : Dev nD) : W3 m ρ c (Proc.devRef .tc main_v14) = shapeCast S1x1024 (m ((c : Thread nD τ).loc main_arg11)) shapeCasts_S1024_S1x1024 := by
  rw [← W2_arg11 m ρ c]
  show StableHlo.after hostOps1 (W2 m ρ c) (Proc.devRef .tc main_v14) = _
  after_results
  rfl

theorem W3_v15 (c : Dev nD) : W3 m ρ c (Proc.devRef .tc main_v15) = shapeCast S1x1024 (m ((c : Thread nD τ).loc main_arg12)) shapeCasts_S1024_S1x1024 := by
  rw [← W2_arg12 m ρ c]
  show StableHlo.after hostOps1 (W2 m ρ c) (Proc.devRef .tc main_v15) = _
  after_results
  rfl

theorem W3_v16 (c : Dev nD) : W3 m ρ c (Proc.devRef .tc main_v16) = transpose S1024x1 [1, 0] (m ((c : Thread nD τ).loc main_arg13)) transposes_S1x1024_S1024x1_1_0 := by
  rw [← W2_arg13 m ρ c]
  show StableHlo.after hostOps1 (W2 m ρ c) (Proc.devRef .tc main_v16) = _
  after_results

theorem W3_v17 (c : Dev nD) : W3 m ρ c (Proc.devRef .tc main_v17) = shapeCast S1x1 (m ((c : Thread nD τ).loc main_arg14)) shapeCasts_S1_S1x1 := by
  rw [← W2_arg14 m ρ c]
  show StableHlo.after hostOps1 (W2 m ρ c) (Proc.devRef .tc main_v17) = _
  after_results
  rfl

theorem W3_v18 (c : Dev nD) : W3 m ρ c (Proc.devRef .tc main_v18) = shapeCast S1x1 (m ((c : Thread nD τ).loc main_arg15)) shapeCasts_S1_S1x1 := by
  rw [← W2_arg15 m ρ c]
  show StableHlo.after hostOps1 (W2 m ρ c) (Proc.devRef .tc main_v18) = _
  after_results
  rfl

theorem W3_v19 (c : Dev nD) : W3 m ρ c (Proc.devRef .tc main_v19) = shapeCast S1x1 (m ((c : Thread nD τ).loc main_arg16)) shapeCasts_S1_S1x1 := by
  rw [← W2_arg16 m ρ c]
  show StableHlo.after hostOps1 (W2 m ρ c) (Proc.devRef .tc main_v19) = _
  after_results
  rfl

/-! ## Through the first classifier region -/

theorem W4_v11 (c : Dev nD) : W4 m ρ c (Proc.devRef .tc main_v11) = W3 m ρ c (Proc.devRef .tc main_v11) :=
  calc W4 m ρ c (Proc.devRef .tc main_v11)
    _ = (dat1 (V3 m ρ) c).arrAt 0 cfg1.N := W4_arr m ρ c 0
    _ = (dat1 (V3 m ρ) c).A 0 := (dat1 (V3 m ρ) c).arrAt_in 0 rfl cfg1.N
    _ = W3 m ρ c (Proc.devRef .tc main_v11) := A_eq1 (V3 m ρ) c 0

theorem W4_v12 (c : Dev nD) : W4 m ρ c (Proc.devRef .tc main_v12) = W3 m ρ c (Proc.devRef .tc main_v12) :=
  calc W4 m ρ c (Proc.devRef .tc main_v12)
    _ = (dat1 (V3 m ρ) c).arrAt 1 cfg1.N := W4_arr m ρ c 1
    _ = (dat1 (V3 m ρ) c).A 1 := (dat1 (V3 m ρ) c).arrAt_in 1 rfl cfg1.N
    _ = W3 m ρ c (Proc.devRef .tc main_v12) := A_eq1 (V3 m ρ) c 1

theorem W4_v13 (c : Dev nD) : W4 m ρ c (Proc.devRef .tc main_v13) = W3 m ρ c (Proc.devRef .tc main_v13) :=
  calc W4 m ρ c (Proc.devRef .tc main_v13)
    _ = (dat1 (V3 m ρ) c).arrAt 2 cfg1.N := W4_arr m ρ c 2
    _ = (dat1 (V3 m ρ) c).A 2 := (dat1 (V3 m ρ) c).arrAt_in 2 rfl cfg1.N
    _ = W3 m ρ c (Proc.devRef .tc main_v13) := A_eq1 (V3 m ρ) c 2

theorem W4_v14 (c : Dev nD) : W4 m ρ c (Proc.devRef .tc main_v14) = W3 m ρ c (Proc.devRef .tc main_v14) :=
  W4_of_ne m ρ c main_v14 (by decide)

theorem W4_v15 (c : Dev nD) : W4 m ρ c (Proc.devRef .tc main_v15) = W3 m ρ c (Proc.devRef .tc main_v15) :=
  W4_of_ne m ρ c main_v15 (by decide)

theorem W4_v16 (c : Dev nD) : W4 m ρ c (Proc.devRef .tc main_v16) = W3 m ρ c (Proc.devRef .tc main_v16) :=
  W4_of_ne m ρ c main_v16 (by decide)

theorem W4_v17 (c : Dev nD) : W4 m ρ c (Proc.devRef .tc main_v17) = W3 m ρ c (Proc.devRef .tc main_v17) :=
  W4_of_ne m ρ c main_v17 (by decide)

theorem W4_v18 (c : Dev nD) : W4 m ρ c (Proc.devRef .tc main_v18) = W3 m ρ c (Proc.devRef .tc main_v18) :=
  W4_of_ne m ρ c main_v18 (by decide)

theorem W4_v19 (c : Dev nD) : W4 m ρ c (Proc.devRef .tc main_v19) = W3 m ρ c (Proc.devRef .tc main_v19) :=
  W4_of_ne m ρ c main_v19 (by decide)

theorem W4_sums (c : Dev nD) : W4 m ρ c (Proc.devRef .tc main_v20_0) = (Stage1.rows (V3 m ρ) c 31 Stage1.tLast.isLt).1 :=
  (W4_arr m ρ c 3).trans (Stage1.final3 (V3 m ρ) c)
theorem W4_sumsqs (c : Dev nD) : W4 m ρ c (Proc.devRef .tc main_v20_1) = (Stage1.rows (V3 m ρ) c 31 Stage1.tLast.isLt).2 :=
  (W4_arr m ρ c 4).trans (Stage1.final4 (V3 m ρ) c)

/-! ## The stretch after it: mean, variance, scale and shift of the first layer -/

/-- A row divided by the batch size. -/
def meanRow (s : FVec Ideal S1x1024 .f32) : FVec Ideal S1x1024 .f32 :=
  Host.divf s (broadcastInDim S1x1024 ![] bcast_S_S1x1024 (constant S_ .f32 0x47000000#32))
/-- γ times the reciprocal square root of (mean of squares − squared mean + ε). -/
def scaleRow (g s q : FVec Ideal S1x1024 .f32) : FVec Ideal S1x1024 .f32 :=
  mulf g (Host.rsqrt (addf (subf (meanRow q) (mulf (meanRow s) (meanRow s)))
    (broadcastInDim S1x1024 ![] bcast_S_S1x1024 (constant S_ .f32 0x3727C5AC#32))))
/-- β minus the mean times the scale. -/
def shiftRow (be s sc : FVec Ideal S1x1024 .f32) : FVec Ideal S1x1024 .f32 := subf be (mulf (meanRow s) sc)

theorem W5_scale (c : Dev nD) :
    W5 m ρ c (Proc.devRef .tc main_v30)
      = scaleRow (W4 m ρ c (Proc.devRef .tc main_v14)) (W4 m ρ c (Proc.devRef .tc main_v20_0)) (W4 m ρ c (Proc.devRef .tc main_v20_1)) := by
  show StableHlo.after hostOps2 (W4 m ρ c) (Proc.devRef .tc main_v30) = _
  after_results
  rfl
set_option maxHeartbeats 2000000 in
theorem W5_shift (c : Dev nD) :
    W5 m ρ c (Proc.devRef .tc main_v32)
      = shiftRow (W4 m ρ c (Proc.devRef .tc main_v15)) (W4 m ρ c (Proc.devRef .tc main_v20_0))
          (scaleRow (W4 m ρ c (Proc.devRef .tc main_v14)) (W4 m ρ c (Proc.devRef .tc main_v20_0)) (W4 m ρ c (Proc.devRef .tc main_v20_1))) := by
  show StableHlo.after hostOps2 (W4 m ρ c) (Proc.devRef .tc main_v32) = _
  after_results
  rfl
theorem W5_v11 (c : Dev nD) : W5 m ρ c (Proc.devRef .tc main_v11) = W4 m ρ c (Proc.devRef .tc main_v11) := by host_keeps hostOps2
theorem W5_v12 (c : Dev nD) : W5 m ρ c (Proc.devRef .tc main_v12) = W4 m ρ c (Proc.devRef .tc main_v12) := by host_keeps hostOps2
theorem W5_v13 (c : Dev nD) : W5 m ρ c (Proc.devRef .tc main_v13) = W4 m ρ c (Proc.devRef .tc main_v13) := by host_keeps hostOps2
theorem W5_v16 (c : Dev nD) : W5 m ρ c (Proc.devRef .tc main_v16) = W4 m ρ c (Proc.devRef .tc main_v16) := by host_keeps hostOps2
theorem W5_v17 (c : Dev nD) : W5 m ρ c (Proc.devRef .tc main_v17) = W4 m ρ c (Proc.devRef .tc main_v17) := by host_keeps hostOps2
theorem W5_v18 (c : Dev nD) : W5 m ρ c (Proc.devRef .tc main_v18) = W4 m ρ c (Proc.devRef .tc main_v18) := by host_keeps hostOps2
theorem W5_v19 (c : Dev nD) : W5 m ρ c (Proc.devRef .tc main_v19) = W4 m ρ c (Proc.devRef .tc main_v19) := by host_keeps hostOps2

/-! ## Through the second classifier region -/

theorem W6_v18 (c : Dev nD) : W6 m ρ c (Proc.devRef .tc main_v18) = W5 m ρ c (Proc.devRef .tc main_v18) :=
  W6_of_ne m ρ c main_v18 (by decide)

theorem W6_v19 (c : Dev nD) : W6 m ρ c (Proc.devRef .tc main_v19) = W5 m ρ c (Proc.devRef .tc main_v19) :=
  W6_of_ne m ρ c main_v19 (by decide)

theorem W6_pre (c : Dev nD) : W6 m ρ c (Proc.devRef .tc main_v33_0) = Stage2Column.preCol (V5 m ρ) c :=
  (W6_arr m ρ c 7).trans (Stage2Column.final (V5 m ρ) c)
theorem W6_total (c : Dev nD) : W6 m ρ c (Proc.devRef .tc main_v33_1) = (Stage2.outs (V5 m ρ) c 31 Stage2.tLast.isLt).2.1 :=
  (W6_arr m ρ c 8).trans (Stage2.final8 (V5 m ρ) c)
theorem W6_totalSq (c : Dev nD) : W6 m ρ c (Proc.devRef .tc main_v33_2) = (Stage2.outs (V5 m ρ) c 31 Stage2.tLast.isLt).2.2 :=
  (W6_arr m ρ c 9).trans (Stage2.final9 (V5 m ρ) c)

/-! ## The stretch after it: mean, variance, scale and shift of the second layer -/

def meanOne (s : FVec Ideal S1x1 .f32) : FVec Ideal S1x1 .f32 :=
  Host.divf s (broadcastInDim S1x1 ![] bcast_S_S1x1 (constant S_ .f32 0x47000000#32))
def scaleOne (g s q : FVec Ideal S1x1 .f32) : FVec Ideal S1x1 .f32 :=
  mulf g (Host.rsqrt (addf (subf (meanOne q) (mulf (meanOne s) (meanOne s)))
    (broadcastInDim S1x1 ![] bcast_S_S1x1 (constant S_ .f32 0x3727C5AC#32))))
def shiftOne (be s sc : FVec Ideal S1x1 .f32) : FVec Ideal S1x1 .f32 := subf be (mulf (meanOne s) sc)

theorem W7_scale (c : Dev nD) :
    W7 m ρ c (Proc.devRef .tc main_v43)
      = scaleOne (W6 m ρ c (Proc.devRef .tc main_v18)) (W6 m ρ c (Proc.devRef .tc main_v33_1)) (W6 m ρ c (Proc.devRef .tc main_v33_2)) := by
  show StableHlo.after hostOps3 (W6 m ρ c) (Proc.devRef .tc main_v43) = _
  after_results
  rfl
set_option maxHeartbeats 2000000 in
theorem W7_shift (c : Dev nD) :
    W7 m ρ c (Proc.devRef .tc main_v45)
      = shiftOne (W6 m ρ c (Proc.devRef .tc main_v19)) (W6 m ρ c (Proc.devRef .tc main_v33_1))
          (scaleOne (W6 m ρ c (Proc.devRef .tc main_v18)) (W6 m ρ c (Proc.devRef .tc main_v33_1)) (W6 m ρ c (Proc.devRef .tc main_v33_2))) := by
  show StableHlo.after hostOps3 (W6 m ρ c) (Proc.devRef .tc main_v45) = _
  after_results
  rfl
theorem W7_pre (c : Dev nD) : W7 m ρ c (Proc.devRef .tc main_v33_0) = W6 m ρ c (Proc.devRef .tc main_v33_0) := by host_keeps hostOps3

/-! ## The last region -/

theorem W8_scores (c : Dev nD) : W8 m ρ c (Proc.devRef .tc main_v46) = Stage3.scoreCol (V7 m ρ) c :=
  (W8_arr m ρ c 3).trans (Stage3.final (V7 m ρ) c)

end Cert.KernelIdeal.ScoresChain

end
-- ==== Proof.KernelScoresRead.lean ====
/-
  The kernel's host operations between the classifier regions, read at an index.

  A scale row entry is γ · (mean of squares − squared mean + ε)^(-1/2) of the two sums rows' entries; a shift row entry is
  β − mean · scale. The reshaped weights are the arguments' entries.
-/
import proofs.«142481_j1838246003412_2_alg».proof.Proof.ScoresChain
import Idealize.ShloMosaic.Lib.ValueLayout

set_option maxRecDepth 16384

noncomputable section

namespace Cert.KernelIdeal.ScoresChain

open Idealize.ShloMosaic Idealize.ShloMosaic.TcCoe Idealize.ShloMosaic.ValueIdx Idealize.SL.Sem
open Cert.KernelIdeal Cert.KernelIdeal.Gen

abbrev Cb : EReal := Ideal.ofBits .f32 0x47000000#32
abbrev Eps : EReal := Ideal.ofBits .f32 0x3727C5AC#32

theorem bcast_scalar {t : Shape} (h : S_.BroadcastsInDim t ![]) (bits : BitVec 32) (i : t.Idx) :
    broadcastInDim t ![] h (constant (F := Ideal) S_ .f32 bits) i = Ideal.ofBits .f32 bits :=
  (broadcastInDim_apply _ _ _ i ix0 (fun a => a.elim0)).trans rfl
theorem hostDivf_apply {t : Shape} (x y : FVec Ideal t .f32) (i : t.Idx) : Host.divf x y i = Ideal.div (x i) (y i) := rfl
theorem hostRsqrt_apply {t : Shape} (x : FVec Ideal t .f32) (i : t.Idx) : Host.rsqrt x i = Ideal.rsqrt (x i) := rfl

theorem scaleRow_apply (g s q : FVec Ideal S1x1024 .f32) (i : S1x1024.Idx) :
    scaleRow g s q i = (g i : EReal) * Ideal.rsqrt ((Ideal.div (q i) Cb - Ideal.div (s i) Cb * Ideal.div (s i) Cb) + Eps) := by
  unfold scaleRow meanRow
  rw [mulf_apply, hostRsqrt_apply, addf_apply, subf_apply, mulf_apply, hostDivf_apply, hostDivf_apply, bcast_scalar, bcast_scalar]

theorem shiftRow_apply (be s sc : FVec Ideal S1x1024 .f32) (i : S1x1024.Idx) :
    shiftRow be s sc i = (be i : EReal) - Ideal.div (s i) Cb * sc i := by
  unfold shiftRow meanRow
  rw [subf_apply, mulf_apply, hostDivf_apply, bcast_scalar]

theorem scaleOne_apply (g s q : FVec Ideal S1x1 .f32) (i : S1x1.Idx) :
    scaleOne g s q i = (g i : EReal) * Ideal.rsqrt ((Ideal.div (q i) Cb - Ideal.div (s i) Cb * Ideal.div (s i) Cb) + Eps) := by
  unfold scaleOne meanOne
  rw [mulf_apply, hostRsqrt_apply, addf_apply, subf_apply, mulf_apply, hostDivf_apply, hostDivf_apply, bcast_scalar, bcast_scalar]

theorem shiftOne_apply (be s sc : FVec Ideal S1x1 .f32) (i : S1x1.Idx) :
    shiftOne be s sc i = (be i : EReal) - Ideal.div (s i) Cb * sc i := by
  unfold shiftOne meanOne
  rw [subf_apply, mulf_apply, hostDivf_apply, bcast_scalar]

/-! ## The reshaped weights at an index -/

/-- The first layer's weight column as a row. -/
theorem colAsRow_apply (x : S1024x1.Idx → EReal) (k : Fin 1024) :
    shapeCast S1x1024 x shapeCasts_S1024x1_S1x1024 (ix2 (0 : Fin 1) k) = x (ix2 k (0 : Fin 1)) :=
  shapeCast_apply x _ (ix2 (0 : Fin 1) k) (ix2 k (0 : Fin 1)) (by
    simp only [Shape.rowMajor_val_two]
    show k.val * 1 + 0 = 0 * 1024 + k.val
    omega)

/-- The second layer's weight row as a column. -/
theorem rowAsCol_apply (x : S1x1024.Idx → EReal) (k : Fin 1024) :
    transpose S1024x1 [1, 0] x transposes_S1x1024_S1024x1_1_0 (ix2 k (0 : Fin 1)) = x (ix2 (0 : Fin 1) k) :=
  transpose_apply _ _ _ (ix2 k (0 : Fin 1)) (ix2 (0 : Fin 1) k) (fun a => by
    match a with
    | ⟨0, _⟩ => rfl
    | ⟨1, _⟩ => rfl)

end Cert.KernelIdeal.ScoresChain

end
-- ==== Proof.LibFiniteAll.lean ====
/-
  An array of extended reals whose every entry has absolute value below +∞, as a `jnp.all` of the comparison says,
  consists of real numbers.
-/
import Idealize.ShloMosaic.PureOps.Ideal.Laws
import Idealize.ShloMosaic.Lib.ReduceAll
import Idealize.ShloMosaic.Lib.ValueIdx
import proofs.«142481_j1838246003412_2_alg».proof.Proof.LibMinReduce

namespace Idealize.ShloMosaic.Ideal

open Idealize.ShloMosaic Idealize.ShloMosaic.ValueIdx

instance : Subsingleton (⟨0, ![]⟩ : Shape).Idx := ⟨fun a b => funext fun d => d.elim0⟩

/-- An extended real whose absolute value is below +∞ is a real number. -/
theorem real_of_abs_lt_top (x : EReal) (h : max x (-x) < ⊤) : ∃ r : ℝ, x = r := by
  induction x using EReal.rec with
  | bot => simp at h
  | coe r => exact ⟨r, rfl⟩
  | top => simp at h

/-- If the reduction by `and` of "|x| < +∞" over a whole array is 1, every entry of `x` is a real number. -/
theorem real_of_all_finite {s : Shape} {axes : List (Fin s.rank)} (x : FVec Ideal s .f32)
    (hb : (⟨0, ![]⟩ : Shape).BroadcastsInDim s ![]) (red : s.ReducesTo axes ⟨0, ![]⟩) (hu : 0 < (⟨0, ![]⟩ : Shape).numel)
    (h : Host.reduce IntOp.andi (cmpf .olt (Host.absf x) (broadcastInDim s ![] hb (constant ⟨0, ![]⟩ .f32 0x7F800000#32)))
      (constantI ⟨0, ![]⟩ 1 1#1) red hu ix0 = 1#1) (i : s.Idx) : ∃ r : ℝ, (x i : EReal) = r := by
  have hi := Host.reduce_andi_all _ _ red hu ix0 h i
  have hlt : max (x i : EReal) (-(x i)) < ⊤ := by
    have e : cmpf .olt (Host.absf x) (broadcastInDim s ![] hb (constant ⟨0, ![]⟩ .f32 0x7F800000#32)) i
        = Ideal.cmp .olt (max (x i : EReal) (-(x i))) (Ideal.ofBits .f32 0x7F800000#32) := rfl
    rw [e, ofBits_f32_inf] at hi
    unfold Ideal.cmp at hi
    by_contra hc
    simp [hc] at hi
  exact real_of_abs_lt_top _ hlt

end Idealize.ShloMosaic.Ideal
-- ==== Proof.Finite.lean ====
/-
  What the precondition gives: every entry of the eight classifier weight arrays is a real number.

  The precondition is the conjunction, over the sixteen float arguments, of "every entry has absolute value below +∞".
-/
import proofs.«142481_j1838246003412_2_alg».proof.Defs
import proofs.«142481_j1838246003412_2_alg».proof.Proof.Gen.Pre_finite_inputs
import proofs.«142481_j1838246003412_2_alg».proof.Proof.LibFiniteAll
import Idealize.ShloMosaic.Lib.Affine

set_option maxRecDepth 16384

noncomputable section

namespace Cert.Proof.Finite

open Idealize.ShloMosaic Idealize.ShloMosaic.TcCoe Idealize.ShloMosaic.ValueIdx Idealize.SL.Sem
open Cert.KernelIdeal

theorem weights_real (m : (ℓ : Loc nD τ sig) → Buf (Elt Ideal) ℓ) (hpre : Cert.Pre_KernelIdeal m) (c : Dev nD) :
    (∀ i : S1024x1.Idx, ∃ r : ℝ, (show EReal from (m ((c.tc : Thread nD τ).loc main_arg9) : S1024x1.Idx → EReal) i) = (r : EReal)) ∧
    (∀ i : S1024.Idx, ∃ r : ℝ, (show EReal from (m ((c.tc : Thread nD τ).loc main_arg10) : S1024.Idx → EReal) i) = (r : EReal)) ∧
    (∀ i : S1024.Idx, ∃ r : ℝ, (show EReal from (m ((c.tc : Thread nD τ).loc main_arg11) : S1024.Idx → EReal) i) = (r : EReal)) ∧
    (∀ i : S1024.Idx, ∃ r : ℝ, (show EReal from (m ((c.tc : Thread nD τ).loc main_arg12) : S1024.Idx → EReal) i) = (r : EReal)) ∧
    (∀ i : S1x1024.Idx, ∃ r : ℝ, (show EReal from (m ((c.tc : Thread nD τ).loc main_arg13) : S1x1024.Idx → EReal) i) = (r : EReal)) ∧
    (∀ i : S1.Idx, ∃ r : ℝ, (show EReal from (m ((c.tc : Thread nD τ).loc main_arg14) : S1.Idx → EReal) i) = (r : EReal)) ∧
    (∀ i : S1.Idx, ∃ r : ℝ, (show EReal from (m ((c.tc : Thread nD τ).loc main_arg15) : S1.Idx → EReal) i) = (r : EReal)) ∧
    (∀ i : S1.Idx, ∃ r : ℝ, (show EReal from (m ((c.tc : Thread nD τ).loc main_arg16) : S1.Idx → EReal) i) = (r : EReal)) := by
  have h := congrFun (hpre c) ix0
  dsimp only [Cert.Pre_finite_inputs.fn, Cert.Pre_finite_inputs.fn_part1, Cert.Pre_finite_inputs.fn_part2,
    Cert.Pre_finite_inputs.fn_part3, Cert.Pre_finite_inputs.fn_part4, andi] at h
  simp only [IntOp.andi_eq_one] at h
  obtain ⟨⟨⟨⟨⟨⟨⟨⟨⟨⟨⟨⟨⟨⟨⟨h0, h1⟩, h3⟩, h4⟩, h5⟩, h6⟩, h7⟩, h8⟩, h9⟩, h10⟩, h11⟩, h12⟩, h13⟩, h14⟩, h15⟩, h16⟩ := h
  exact ⟨fun i => Ideal.real_of_all_finite _ _ _ _ h9 i,
    fun i => Ideal.real_of_all_finite _ _ _ _ h10 i,
    fun i => Ideal.real_of_all_finite _ _ _ _ h11 i,
    fun i => Ideal.real_of_all_finite _ _ _ _ h12 i,
    fun i => Ideal.real_of_all_finite _ _ _ _ h13 i,
    fun i => Ideal.real_of_all_finite _ _ _ _ h14 i,
    fun i => Ideal.real_of_all_finite _ _ _ _ h15 i,
    fun i => Ideal.real_of_all_finite _ _ _ _ h16 i⟩

end Cert.Proof.Finite

end
-- ==== Proof.Scores.lean ====
/-
  The scores of the two programs are the same column.

  The kernel's scores buffer is, entry by entry, max (scale₂ · P b + shift₂, 0), with P the pre-activation column of the
  second classifier region and the two scalars made from ΣP and ΣP²; P is made from the reward column, the reshaped
  weights, and the scale and shift rows made from the first region's two rows of sums. Each of these is identified with
  the corresponding quantity of the reference, and the two normalisations agree because every input is a real number:
  the weights by the precondition, the rewards because they are 0 or 1.
-/
import proofs.«142481_j1838246003412_2_alg».proof.Proof.ClassifierAlgebra
import proofs.«142481_j1838246003412_2_alg».proof.Proof.KernelScoresRead
import proofs.«142481_j1838246003412_2_alg».proof.Proof.Finite
import proofs.«142481_j1838246003412_2_alg».proof.Proof.Rewards

set_option maxRecDepth 16384

noncomputable section

namespace Cert.Proof.Scores

open Idealize.ShloMosaic Idealize.ShloMosaic.TcCoe Idealize.ShloMosaic.ValueIdx Idealize.SL.Sem
open Cert.KernelIdeal Cert.KernelIdeal.Gen Cert.KernelIdeal.ScoresChain
open Cert.ReferenceIdeal.Stages (rewards scores hidden1 hidden2 relu1 relu2)
open Cert.ReferenceIdeal.RewardsRead (xs ys flags_eq)
open Cert.KernelIdeal.Collision (flag)

open Classical in
/-- A reward is 0 or 1: a real number. -/
theorem rewards_real (traj : FVec Ideal Cert.ReferenceIdeal.S20x32768x2 .f32) (b : Fin 32768) :
    ∃ ρ : ℝ, (rewards (F := Ideal) traj (ix2 b (0 : Fin 1)) : EReal) = ρ := by
  have hF : ∀ i, ∃ ρ : ℝ, flag (N := 512) (xs traj) (ys traj) i = (ρ : EReal) := fun i => by
    unfold flag
    split_ifs
    · exact ⟨1, by norm_num⟩
    · exact ⟨0, by norm_num⟩
  unfold rewards
  rw [flags_eq traj, broadcastInDim_apply _ _ _ (ix2 b (0 : Fin 1)) (ix1 b) (fun a => by match a with | ⟨0, _⟩ => rfl), subf_apply,
    Cert.ReferenceIdeal.ScoresRead.bcast_scalar]
  unfold shapeCast
  obtain ⟨ρ, hρ⟩ := hF _
  rw [hρ, Ideal.ofBits_f32_one, ← EReal.coe_sub]
  exact ⟨_, rfl⟩

variable (m : (ℓ : Loc nD τ sig) → Buf (Elt Ideal) ℓ) (ρ : Dev nD → PrngReg)

/-- The reward column the classifier regions read is the reference's. -/
theorem found_rewards (c : Dev nD) :
    W3 m ρ c (Proc.devRef .tc main_v11) = rewards (F := Ideal) (m ((c.tc : Thread nD τ).loc main_arg0)) :=
  (RewardsChain.W8_rewards m ρ c).symm.trans (Cert.Proof.Rewards.rewards_eq m ρ c)

set_option maxHeartbeats 4000000 in
/-- THE SCORES: the kernel's buffer ends at the reference's classifier of the reward column. -/
theorem scores_eq (hpre : Cert.Pre_KernelIdeal m) (c : Dev nD) :
    W8 m ρ c (Proc.devRef .tc main_v46)
      = scores (F := Ideal) (rewards (m ((c.tc : Thread nD τ).loc main_arg0)))
          (m ((c.tc : Thread nD τ).loc main_arg9)) (m ((c.tc : Thread nD τ).loc main_arg10))
          (m ((c.tc : Thread nD τ).loc main_arg11)) (m ((c.tc : Thread nD τ).loc main_arg12))
          (m ((c.tc : Thread nD τ).loc main_arg13)) (m ((c.tc : Thread nD τ).loc main_arg14))
          (m ((c.tc : Thread nD τ).loc main_arg15)) (m ((c.tc : Thread nD τ).loc main_arg16)) := by
  obtain ⟨f9, f10, f11, f12, f13, f14, f15, f16⟩ := Finite.weights_real m hpre c
  -- the arrays, with their literal types
  set R : FVec Ideal Cert.ReferenceIdeal.S32768x1 .f32 := rewards (F := Ideal) (m ((c.tc : Thread nD τ).loc main_arg0)) with hRdef
  set a9 : FVec Ideal Cert.ReferenceIdeal.S1024x1 .f32 := m ((c.tc : Thread nD τ).loc main_arg9) with ha9
  set a10 : FVec Ideal Cert.ReferenceIdeal.S1024 .f32 := m ((c.tc : Thread nD τ).loc main_arg10) with ha10
  set a11 : FVec Ideal Cert.ReferenceIdeal.S1024 .f32 := m ((c.tc : Thread nD τ).loc main_arg11) with ha11
  set a12 : FVec Ideal Cert.ReferenceIdeal.S1024 .f32 := m ((c.tc : Thread nD τ).loc main_arg12) with ha12
  set a13 : FVec Ideal Cert.ReferenceIdeal.S1x1024 .f32 := m ((c.tc : Thread nD τ).loc main_arg13) with ha13
  set a14 : FVec Ideal Cert.ReferenceIdeal.S1 .f32 := m ((c.tc : Thread nD τ).loc main_arg14) with ha14
  set a15 : FVec Ideal Cert.ReferenceIdeal.S1 .f32 := m ((c.tc : Thread nD τ).loc main_arg15) with ha15
  set a16 : FVec Ideal Cert.ReferenceIdeal.S1 .f32 := m ((c.tc : Thread nD τ).loc main_arg16) with ha16
  -- what the second region reads
  have e11 : (V5 m ρ c main_v11 : S32768x1.Idx → EReal) = R := by
    show W5 m ρ c (Proc.devRef .tc main_v11) = _
    rw [W5_v11, W4_v11, found_rewards]
  have e11' : (V3 m ρ c main_v11 : S32768x1.Idx → EReal) = R := found_rewards m ρ c
  have e12 : (V5 m ρ c main_v12 : S1x1024.Idx → EReal) = V3 m ρ c main_v12 := by
    show W5 m ρ c (Proc.devRef .tc main_v12) = W3 m ρ c (Proc.devRef .tc main_v12)
    rw [W5_v12, W4_v12]
  have e13 : (V5 m ρ c main_v13 : S1x1024.Idx → EReal) = V3 m ρ c main_v13 := by
    show W5 m ρ c (Proc.devRef .tc main_v13) = W3 m ρ c (Proc.devRef .tc main_v13)
    rw [W5_v13, W4_v13]
  have hW1 : ∀ k : Fin 1024, (V5 m ρ c main_v12 : S1x1024.Idx → EReal) (ix2 (0 : Fin 1) k) = a9 (ix2 k (0 : Fin 1)) := fun k => by
    rw [e12]; show W3 m ρ c (Proc.devRef .tc main_v12) (ix2 (0 : Fin 1) k) = _
    rw [W3_v12]; exact colAsRow_apply _ k
  have hB1 : ∀ k : Fin 1024, (V5 m ρ c main_v13 : S1x1024.Idx → EReal) (ix2 (0 : Fin 1) k) = a10 (ix1 k) := fun k => by
    rw [e13]; show W3 m ρ c (Proc.devRef .tc main_v13) (ix2 (0 : Fin 1) k) = _
    rw [W3_v13]; exact shapeCast_a_1a_apply _ _ _ k
  have hW2 : ∀ k : Fin 1024, (V5 m ρ c main_v16 : S1024x1.Idx → EReal) (ix2 k (0 : Fin 1)) = a13 (ix2 (0 : Fin 1) k) := fun k => by
    show W5 m ρ c (Proc.devRef .tc main_v16) (ix2 k (0 : Fin 1)) = _
    rw [W5_v16, W4_v16, W3_v16]; exact rowAsCol_apply _ k
  have hB2 : (V5 m ρ c main_v17 : S1x1.Idx → EReal) (ix2 (0 : Fin 1) (0 : Fin 1)) = a14 (ix1 (0 : Fin 1)) := by
    show W5 m ρ c (Proc.devRef .tc main_v17) (ix2 (0 : Fin 1) (0 : Fin 1)) = _
    rw [W5_v17, W4_v17, W3_v17]; exact shapeCast_a_1a_apply _ _ _ _
  -- the first region's two rows are the batch sums of the first layer's output
  have hxk : ∀ (b : Fin 32768) (k : Fin 1024), Stage1.hidAt (V3 m ρ) c b k
      = Classifier.xk R (V5 m ρ c main_v12) (V5 m ρ c main_v13) b k := fun b k => by
    unfold Stage1.hidAt Classifier.xk Stage1.arrR Stage1.arrW Stage1.arrB
    rw [e11', e12, e13]
  have hS1 : ∀ k : Fin 1024, (W4 m ρ c (Proc.devRef .tc main_v20_0) : S1x1024.Idx → EReal) (ix2 (0 : Fin 1) k)
      = ∑ b : Fin 32768, Classifier.xk R (V5 m ρ c main_v12) (V5 m ρ c main_v13) b k := fun k => by
    rw [W4_sums]
    exact (Stage1.sums_apply (V3 m ρ) c k).trans (Finset.sum_congr rfl fun b _ => hxk b k)
  have hQ1 : ∀ k : Fin 1024, (W4 m ρ c (Proc.devRef .tc main_v20_1) : S1x1024.Idx → EReal) (ix2 (0 : Fin 1) k)
      = ∑ b : Fin 32768, Classifier.xk R (V5 m ρ c main_v12) (V5 m ρ c main_v13) b k
          * Classifier.xk R (V5 m ρ c main_v12) (V5 m ρ c main_v13) b k := fun k => by
    rw [W4_sumsqs]
    exact (Stage1.sumsqs_apply (V3 m ρ) c k).trans (Finset.sum_congr rfl fun b _ => by rw [hxk b k])
  have hG1 : ∀ k : Fin 1024, (W4 m ρ c (Proc.devRef .tc main_v14) : S1x1024.Idx → EReal) (ix2 (0 : Fin 1) k) = a11 (ix1 k) := fun k => by
    rw [W4_v14, W3_v14]; exact shapeCast_a_1a_apply _ _ _ k
  have hBE1 : ∀ k : Fin 1024, (W4 m ρ c (Proc.devRef .tc main_v15) : S1x1024.Idx → EReal) (ix2 (0 : Fin 1) k) = a12 (ix1 k) := fun k => by
    rw [W4_v15, W3_v15]; exact shapeCast_a_1a_apply _ _ _ k
  have hSC : ∀ k : Fin 1024, (V5 m ρ c main_v30 : S1x1024.Idx → EReal) (ix2 (0 : Fin 1) k) = (a11 (ix1 k) : EReal) * Ideal.rsqrt
      ((Ideal.div (∑ b : Fin 32768, Classifier.xk R (V5 m ρ c main_v12) (V5 m ρ c main_v13) b k
          * Classifier.xk R (V5 m ρ c main_v12) (V5 m ρ c main_v13) b k) Cert.ReferenceIdeal.ScoresRead.Cb
        - Ideal.div (∑ b : Fin 32768, Classifier.xk R (V5 m ρ c main_v12) (V5 m ρ c main_v13) b k) Cert.ReferenceIdeal.ScoresRead.Cb
          * Ideal.div (∑ b : Fin 32768, Classifier.xk R (V5 m ρ c main_v12) (V5 m ρ c main_v13) b k) Cert.ReferenceIdeal.ScoresRead.Cb)
        + Cert.ReferenceIdeal.ScoresRead.Eps) := fun k => by
    show W5 m ρ c (Proc.devRef .tc main_v30) (ix2 (0 : Fin 1) k) = _
    rw [W5_scale, scaleRow_apply, hG1, hS1, hQ1]
  have hSH : ∀ k : Fin 1024, (V5 m ρ c main_v32 : S1x1024.Idx → EReal) (ix2 (0 : Fin 1) k) = (a12 (ix1 k) : EReal)
      - Ideal.div (∑ b : Fin 32768, Classifier.xk R (V5 m ρ c main_v12) (V5 m ρ c main_v13) b k) Cert.ReferenceIdeal.ScoresRead.Cb
        * (V5 m ρ c main_v30 : S1x1024.Idx → EReal) (ix2 (0 : Fin 1) k) := fun k => by
    show W5 m ρ c (Proc.devRef .tc main_v32) (ix2 (0 : Fin 1) k) = _ - _ * W5 m ρ c (Proc.devRef .tc main_v30) (ix2 (0 : Fin 1) k)
    rw [W5_shift, W5_scale, shiftRow_apply, hBE1, hS1]
  -- realness
  have hr : ∀ b : Fin 32768, ∃ ρ' : ℝ, (R (ix2 b (0 : Fin 1)) : EReal) = ρ' := fun b => rewards_real _ b
  -- the pre-activation column is the reference's second layer, and real
  have hpre2 := fun b => Classifier.pre_eq R a9 a10 a11 a12 a13 a14 (V5 m ρ c main_v12) (V5 m ρ c main_v13) (V5 m ρ c main_v30)
    (V5 m ρ c main_v32) (V5 m ρ c main_v16) (V5 m ρ c main_v17) hr (fun k => f9 _) (fun k => f10 _) (fun k => f11 _) (fun k => f12 _)
    hW1 hB1 hSC hSH (fun k => f13 _) (f14 _) hW2 hB2 b
  have hP : ∀ b : Fin 32768, Stage2Column.preCol (V5 m ρ) c (ix2 b (0 : Fin 1))
      = hidden2 (relu1 (hidden1 R a9 a10) a11 a12) a13 a14 (ix2 b (0 : Fin 1)) := fun b => by
    unfold Stage2Column.preCol
    rw [show (V5 m ρ c main_v11 : S32768x1.Idx → EReal) = R from e11]
    exact (hpre2 b).1
  -- the second region's two scalars and the last stretch's scale and shift
  have hS2 : (W6 m ρ c (Proc.devRef .tc main_v33_1) : S1x1.Idx → EReal) (ix2 (0 : Fin 1) (0 : Fin 1))
      = ∑ b : Fin 32768, Stage2Column.preCol (V5 m ρ) c (ix2 b (0 : Fin 1)) := by
    rw [W6_total]; exact Stage2.total_apply (V5 m ρ) c
  have hQ2 : (W6 m ρ c (Proc.devRef .tc main_v33_2) : S1x1.Idx → EReal) (ix2 (0 : Fin 1) (0 : Fin 1))
      = ∑ b : Fin 32768, Stage2Column.preCol (V5 m ρ) c (ix2 b (0 : Fin 1)) * Stage2Column.preCol (V5 m ρ) c (ix2 b (0 : Fin 1)) := by
    rw [W6_totalSq]; exact Stage2.totalSq_apply (V5 m ρ) c
  have hG2 : (W6 m ρ c (Proc.devRef .tc main_v18) : S1x1.Idx → EReal) (ix2 (0 : Fin 1) (0 : Fin 1)) = a15 (ix1 (0 : Fin 1)) := by
    rw [W6_v18, W5_v18, W4_v18, W3_v18]; exact shapeCast_a_1a_apply _ _ _ _
  have hBE2 : (W6 m ρ c (Proc.devRef .tc main_v19) : S1x1.Idx → EReal) (ix2 (0 : Fin 1) (0 : Fin 1)) = a16 (ix1 (0 : Fin 1)) := by
    rw [W6_v19, W5_v19, W4_v19, W3_v19]; exact shapeCast_a_1a_apply _ _ _ _
  -- entry by entry
  funext i
  obtain ⟨b, u, rfl⟩ : ∃ (b : Fin 32768) (u : Fin 1), i = ix2 b u := ⟨i 0, i 1, eq_ix2 i⟩
  obtain rfl : u = 0 := Subsingleton.elim _ _
  rw [W8_scores]
  unfold Stage3.scoreCol Stage3.scoreAt
  have hcol : (V7 m ρ c main_v33_0 : S32768x1.Idx → EReal) = Stage2Column.preCol (V5 m ρ) c := by
    show W7 m ρ c (Proc.devRef .tc main_v33_0) = _
    rw [W7_pre, W6_pre]
  rw [hcol]
  refine Classifier.layer2 a15 a16 (fun b' => Stage2Column.preCol (V5 m ρ) c (ix2 b' (0 : Fin 1))) _ _
    (hidden2 (relu1 (hidden1 R a9 a10) a11 a12) a13 a14) hP (fun b' => (hpre2 b').2) (f15 _) (f16 _) ?_ ?_ b
  · show W7 m ρ c (Proc.devRef .tc main_v43) (ix2 (0 : Fin 1) (0 : Fin 1)) = _
    rw [W7_scale, scaleOne_apply, hG2, hS2, hQ2]
  · show W7 m ρ c (Proc.devRef .tc main_v45) (ix2 (0 : Fin 1) (0 : Fin 1)) = _ - _ * W7 m ρ c (Proc.devRef .tc main_v43) (ix2 (0 : Fin 1) (0 : Fin 1))
    rw [W7_shift, W7_scale, shiftOne_apply, hBE2, hS2]

end Cert.Proof.Scores

end
-- ==== Proof.Bridge.lean ====
/-
  The two equations that join the kernel's run to the reference's.

  After the last region the kernel's buffers hold `W8`. Its rewards buffer is the reference's reward column of the
  trajectories (`Rewards`), and its scores buffer the reference's classifier of that column and of the eight weight arrays
  (`Scores`).
-/
import proofs.«142481_j1838246003412_2_alg».proof.Proof.KernelRun
import proofs.«142481_j1838246003412_2_alg».proof.Proof.RefStages
import proofs.«142481_j1838246003412_2_alg».proof.Proof.Rewards
import proofs.«142481_j1838246003412_2_alg».proof.Proof.Scores
import proofs.«142481_j1838246003412_2_alg».proof.Proof.Gen.Pre_finite_inputs

set_option maxRecDepth 16384

noncomputable section

namespace Cert.Proof.Bridge

open Idealize.ShloMosaic Idealize.ShloMosaic.TcCoe Idealize.SL.Sem
open Cert.KernelIdeal Cert.KernelIdeal.Gen Cert.ReferenceIdeal.Stages

variable (m : (ℓ : Loc nD τ sig) → Buf (Elt Ideal) ℓ) (ρ : Dev nD → PrngReg)

/-- The rewards: one minus the collision flag of every pedestrian. -/
theorem rewards_eq (c : Dev nD) :
    W8 m ρ c (Proc.devRef .tc main_v11) = rewards (F := Ideal) (m ((c.tc : Thread nD τ).loc main_arg0)) :=
  Cert.Proof.Rewards.rewards_eq m ρ c

/-- The scores: the two-layer classifier of the reward column. -/
theorem scores_eq (hpre : Cert.Pre_KernelIdeal m) (c : Dev nD) :
    W8 m ρ c (Proc.devRef .tc main_v46)
      = scores (F := Ideal) (rewards (m ((c.tc : Thread nD τ).loc main_arg0)))
          (m ((c.tc : Thread nD τ).loc main_arg9)) (m ((c.tc : Thread nD τ).loc main_arg10))
          (m ((c.tc : Thread nD τ).loc main_arg11)) (m ((c.tc : Thread nD τ).loc main_arg12))
          (m ((c.tc : Thread nD τ).loc main_arg13)) (m ((c.tc : Thread nD τ).loc main_arg14))
          (m ((c.tc : Thread nD τ).loc main_arg15)) (m ((c.tc : Thread nD τ).loc main_arg16)) :=
  Cert.Proof.Scores.scores_eq m ρ hpre c

end Cert.Proof.Bridge

end
-- ==== Proof.lean ====
/-
  Two programs that score pedestrians' trajectories are the same function on the extended reals.

  Both take twenty time steps of 32768 pedestrians' positions (512 scenes of 64), flag a pedestrian that ever comes
  within a quarter of a unit of another one in its scene (a distance of exactly zero, its distance to itself, counting
  as a quarter), turn the flag into a reward 1 − flag, and run the reward through a two-layer classifier with batch
  normalisation after each layer. They return the scores and the rewards.

  The reference takes, for each pedestrian, the minimum of the pairwise distances over the OTHER pedestrian index than
  the kernel does; the distance is symmetric, so the two flags agree. It normalises by the mean and the centred variance,
  γ·(x − μ)·(σ² + ε)^(-1/2) + β with σ² the mean of (x − μ)²; the kernel accumulates the sums of x and of x² block by
  block over the batch, forms σ² as the mean of x² minus μ², and applies (γ·s)·x + (β − μ·γ·s) with s = (σ² + ε)^(-1/2).
  With every input finite these agree as real numbers. The reference also runs a recurrent encoder over the relative
  trajectories whose result it drops; it only has to terminate.

  The modules. The reference: `RefRun` (its run), `RefStages` (what its two results are, stage by stage), `RefRewards` and
  `RefScores` (those stages read at an index). The kernel: `KernelRun` (its run with the two results named), the four
  regions (`CollisionBlock`, `CollisionArray`; `Stage1Cases`, `Stage1Block`, `Stage1Run`, `Stage1Total`; `Stage2Cases`,
  `Stage2Block`, `Stage2Run`, `Stage2Column`, `Stage2Total`; `Stage3`), and the buffers traced between them
  (`RewardsChain`, `ScoresChain`, `KernelScoresRead`). The mathematics: `LibMinReduce` (a minimum below a threshold),
  `LibERealSquare` (the square of a difference is symmetric), `LibSumReduce`, `LibBlockSum` (block sums are the whole sum),
  `LibBatchNorm` (the two spellings of a normalisation), `LibLiterals`, `LibFiniteAll` and `Finite` (the weights are real),
  `ClassifierAlgebra`. The two results: `Rewards`, `Scores`, joined in `Bridge`; the claims below.
-/
import proofs.«142481_j1838246003412_2_alg».proof.Defs
import proofs.«142481_j1838246003412_2_alg».proof.Proof.Gen.Kernel
import proofs.«142481_j1838246003412_2_alg».proof.Proof.Gen.Kernel.Frame
import proofs.«142481_j1838246003412_2_alg».proof.Proof.Gen.KernelIdeal
import proofs.«142481_j1838246003412_2_alg».proof.Proof.Gen.KernelIdeal.Frame
import proofs.«142481_j1838246003412_2_alg».proof.Proof.Gen.ReferenceIdeal
import proofs.«142481_j1838246003412_2_alg».proof.Proof.Gen.Pre_finite_inputs
import proofs.«142481_j1838246003412_2_alg».proof.Proof.RefFrame
import proofs.«142481_j1838246003412_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ

/-- The ideal pass rewrote nothing: the idealized kernel is the kernel's own text read on the extended reals. -/
theorem preserves : Cert.preserves_Kernel_KernelIdeal := trivial

/-- From memories that agree on the arguments both programs end with the same scores and the same rewards. -/
theorem algebraic : Cert.algebraic_KernelIdeal_ReferenceIdeal := by
  intro m ρ m' ρ' hpre hagree
  refine ⟨fun c => Cert.KernelIdeal.Gen.W8 m ρ c (Proc.devRef .tc Cert.KernelIdeal.main_v46),
    fun c => Cert.KernelIdeal.Gen.W8 m ρ c (Proc.devRef .tc Cert.KernelIdeal.main_v11),
    Cert.KernelIdeal.RunValue.run (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Stages.out_v80_eq, Cert.ReferenceIdeal.Value.iter_main_arg0 m' c 20, Cert.ReferenceIdeal.Value.iter_main_arg9 m' c 20, Cert.ReferenceIdeal.Value.iter_main_arg10 m' c 20, Cert.ReferenceIdeal.Value.iter_main_arg11 m' c 20, Cert.ReferenceIdeal.Value.iter_main_arg12 m' c 20, Cert.ReferenceIdeal.Value.iter_main_arg13 m' c 20, Cert.ReferenceIdeal.Value.iter_main_arg14 m' c 20, Cert.ReferenceIdeal.Value.iter_main_arg15 m' c 20, Cert.ReferenceIdeal.Value.iter_main_arg16 m' c 20,
      (hagree c).1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]
    exact (Bridge.scores_eq m ρ hpre c).symm
  · rw [Cert.ReferenceIdeal.Stages.out_v30_eq, Cert.ReferenceIdeal.Value.iter_main_arg0 m' c 20, (hagree c).1]
    exact (Bridge.rewards_eq m ρ c).symm

theorem claim : Cert.Claim :=
  ⟨Cert.Kernel.Gen.facts, Cert.KernelIdeal.Gen.facts, Cert.ReferenceIdeal.Gen.facts, Cert.Pre_finite_inputs.Gen.facts,
    frame_k, frame_ki, RefFrame.frame_ri, preserves, algebraic⟩

end Cert.Proof

end
